-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x128 : Shape := ⟨2, ![512, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S128 .f32) (main_arg8 : FVec F S128x3 .f32) (main_arg9 : FVec F S3 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x3 .f32 := Host.absf main_arg8
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S128 .f32) (main_arg5 : FVec F S128x128 .f32) (main_arg6 : FVec F S128x128 .f32) (main_arg7 : FVec F S128 .f32) (main_arg8 : FVec F S128x3 .f32) (main_arg9 : FVec F S3 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x8192 .f32) (main_arg2 : FVec F S512x128 .f32) (main_arg3 : FVec F S512x128 .f32) (main_arg4 : FVec F S128 .f32) (main_arg5 : FVec F S128x128 .f32) (main_arg6 : FVec F S128x128 .f32) (main_arg7 : FVec F S128 .f32) (main_arg8 : FVec F S128x3 .f32) (main_arg9 : FVec F S3 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S8192x8192 : Shape := ⟨2, ![8192, 8192]⟩
abbrev S512x128 : Shape := ⟨2, ![512, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x128 : Shape := ⟨2, ![1, 128]⟩
abbrev S8192x128 : Shape := ⟨2, ![8192, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024x1 : Shape := ⟨2, ![1024, 1]⟩
abbrev S1024 : Shape := ⟨1, ![1024]⟩
abbrev S1x3 : Shape := ⟨2, ![1, 3]⟩
abbrev S8192x3 : Shape := ⟨2, ![8192, 3]⟩
abbrev S2048x128 : Shape := ⟨2, ![2048, 128]⟩
abbrev S1024x3 : Shape := ⟨2, ![1024, 3]⟩
abbrev S2048x3 : Shape := ⟨2, ![2048, 3]⟩
abbrev S2048x2048 : Shape := ⟨2, ![2048, 2048]⟩
abbrev S2048 : Shape := ⟨1, ![2048]⟩
abbrev S2048x1 : Shape := ⟨2, ![2048, 1]⟩
abbrev S3x2048 : Shape := ⟨2, ![3, 2048]⟩
abbrev S1x2048 : Shape := ⟨2, ![1, 2048]⟩

abbrev nBuf : Space → Nat
  | .hbm => 16
  | .vmem => 34
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x128, .f32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S1x128, .f32⟩
  | .hbm, ⟨11, _⟩ => ⟨S8192x128, .f32⟩
  | .hbm, ⟨12, _⟩ => ⟨S1x128, .f32⟩
  | .hbm, ⟨13, _⟩ => ⟨S1x3, .f32⟩
  | .hbm, ⟨14, _⟩ => ⟨S8192x3, .f32⟩
  | .hbm, ⟨15, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x512, .f32⟩
  | .local _ .vmem, ⟨12, _⟩ => ⟨S1024x1, .f32⟩
  | .local _ .vmem, ⟨13, _⟩ => ⟨S1024x2048, .f32⟩
  | .local _ .vmem, ⟨14, _⟩ => ⟨S1024x2048, .f32⟩
  | .local _ .vmem, ⟨15, _⟩ => ⟨S2048x128, .f32⟩
  | .local _ .vmem, ⟨16, _⟩ => ⟨S2048x128, .f32⟩
  | .local _ .vmem, ⟨17, _⟩ => ⟨S1024x128, .f32⟩
  | .local _ .vmem, ⟨18, _⟩ => ⟨S1024x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S128x3, .f32⟩
  | .local _ .vmem, ⟨23, _⟩ => ⟨S1x3, .f32⟩
  | .local _ .vmem, ⟨24, _⟩ => ⟨S1024x3, .f32⟩
  | .local _ .vmem, ⟨25, _⟩ => ⟨S1024x3, .f32⟩
  | .local _ .vmem, ⟨26, _⟩ => ⟨S1024x128, .f32⟩
  | .local _ .vmem, ⟨27, _⟩ => ⟨S1024x1, .f32⟩
  | .local _ .vmem, ⟨28, _⟩ => ⟨S2048x3, .f32⟩
  | .local _ .vmem, ⟨29, _⟩ => ⟨S2048x3, .f32⟩
  | .local _ .vmem, ⟨30, _⟩ => ⟨S2048x3, .f32⟩
  | .local _ .vmem, ⟨31, _⟩ => ⟨S2048x3, .f32⟩
  | .local _ .vmem, ⟨32, _⟩ => ⟨S2048x2048, .f32⟩
  | .local _ .vmem, ⟨33, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x3 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S128_S1x128 : S128.ShapeCasts S1x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  reduces_S1024x2048_S1024 : S1024x2048.Reduces [1] S1024
  shapeCasts_S1024_S1024x1 : S1024.ShapeCasts S1024x1
  broadcasts_S1024x1_S1024x512 : S1024x1.Broadcasts S1024x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S3_S1x3 : S3.ShapeCasts S1x3
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  reduces_S2048x3_S2048 : S2048x3.Reduces [1] S2048
  shapeCasts_S2048_S2048x1 : S2048.ShapeCasts S2048x1
  transposes_S2048x3_p1_0_S3x2048 : S2048x3.Transposes [1, 0] S3x2048
  transposes_S2048x1_p1_0_S1x2048 : S2048x1.Transposes [1, 0] S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S1024x2048_S2048x512_S1024x512_1_0_0_1_n_n_wf : DotDims.WF S1024x2048 S2048x512 S1024x512 [1] [0] [0] [1] [] []
  dot_S1024x512_S512x128_S1024x128_1_0_0_1_n_n_wf : DotDims.WF S1024x512 S512x128 S1024x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  dot_S1024x128_S128x3_S1024x3_1_0_0_1_n_n_wf : DotDims.WF S1024x128 S128x3 S1024x3 [1] [0] [0] [1] [] []
  dot_S2048x3_S3x2048_S2048x2048_1_0_0_1_n_n_wf : DotDims.WF S2048x3 S3x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x3.size a ≤ S128x3.size a
  hwx1_6 : ∀ i : grid1.Coords, EltTy.bits .f32 = 32 ∨ (Rect.block (s := S128x3) S128x3.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x3.size a ≤ S1x3.size a
  hwx1_7 : ∀ i : grid1.Coords, EltTy.bits .f32 = 32 ∨ (Rect.block (s := S1x3) S1x3.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x3.size a ≤ S8192x3.size a
  hwx1_8 : ∀ i : grid1.Coords, EltTy.bits .f32 = 32 ∨ (Rect.block (s := S8192x3) S1024x3.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x3.size a ≤ S8192x3.size a
  hwx2_0 : ∀ i : grid2.Coords, EltTy.bits .f32 = 32 ∨ (Rect.block (s := S8192x3) S2048x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x3.size a ≤ S8192x3.size a
  hwx2_1 : ∀ i : grid2.Coords, EltTy.bits .f32 = 32 ∨ (Rect.block (s := S8192x3) S2048x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S8192x8192.size a
  hwx2_2 : ∀ i : grid2.Coords, EltTy.bits .f32 = 32 ∨ (Rect.block (s := S8192x8192) S2048x2048.size (cc2_transform_2 i) (hinb2_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x3_S1024x3_1_0_0_1_n_n : DotDims S1024x128 S128x3 S1024x3 where
  lhsContracting := [1]
  rhsContracting := [0]
  lhsNonContracting := [0]
  rhsNonContracting := [1]
  lhsBatch := []
  rhsBatch := []
  wf := dot_S1024x128_S128x3_S1024x3_1_0_0_1_n_n_wf
def dot_S2048x3_S3x2048_S2048x2048_1_0_0_1_n_n : DotDims S2048x3 S3x2048 S2048x2048 where
  lhsContracting := [1]
  rhsContracting := [0]
  lhsNonContracting := [0]
  rhsNonContracting := [1]
  lhsBatch := []
  rhsBatch := []
  wf := dot_S2048x3_S3x2048_S2048x2048_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1024x3.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v4) S2048x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x128 : Shape := ⟨2, ![512, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩
abbrev S8192x3 : Shape := ⟨2, ![8192, 3]⟩
abbrev S1x3 : Shape := ⟨2, ![1, 3]⟩
abbrev S1x8192 : Shape := ⟨2, ![1, 8192]⟩
abbrev S3x8192 : Shape := ⟨2, ![3, 8192]⟩

abbrev nBuf : Space → Nat
  | .hbm => 79
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x128, .f32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S1x128, .f32⟩
  | .hbm, ⟨41, _⟩ => ⟨S8192x128, .f32⟩
  | .hbm, ⟨42, _⟩ => ⟨S8192x128, .f32⟩
  | .hbm, ⟨43, _⟩ => ⟨S8192x3, .f32⟩
  | .hbm, ⟨44, _⟩ => ⟨S1x3, .f32⟩
  | .hbm, ⟨45, _⟩ => ⟨S8192x3, .f32⟩
  | .hbm, ⟨46, _⟩ => ⟨S8192x3, .f32⟩
  | .hbm, ⟨47, _⟩ => ⟨S8192x3, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S1x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S3x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .i1⟩
  | .hbm, ⟨67, _⟩ => ⟨S_, .f32⟩
  | .hbm, ⟨68, _⟩ => ⟨S8192x8192, .f32⟩
  | .hbm, ⟨69, _⟩ => ⟨S8192x8192, .i1⟩
  | .hbm, ⟨70, _⟩ => ⟨S_, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S_, .f32⟩
  | .hbm, ⟨77, _⟩ => ⟨S8192x8192, .f32⟩
  | .hbm, ⟨78, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_call1_v0 : Ref sig .tc := ⟨.hbm, 71, rfl⟩
abbrev main_call1_v1 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_call2_v0 : Ref sig .tc := ⟨.hbm, 76, rfl⟩
abbrev main_call2_v1 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  dot_S8192x8192_S8192x512_S8192x512_1_0_0_1_n_n_wf : DotDims.WF S8192x8192 S8192x512 S8192x512 [1] [0] [0] [1] [] []
  dot_S8192x512_S512x128_S8192x128_1_0_0_1_n_n_wf : DotDims.WF S8192x512 S512x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x3_S8192x3_1_0_0_1_n_n_wf : DotDims.WF S8192x128 S128x3 S8192x3 [1] [0] [0] [1] [] []
  dot_S8192x3_S3x8192_S8192x8192_1_0_0_1_n_n_wf : DotDims.WF S8192x3 S3x8192 S8192x8192 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.KB.R0Base.lean ====
/-
  First aggregation layer, what its three control cases share.

  The layer's grid is 8 row blocks by 4 column blocks of the adjacency matrix. At a point (i, k) the body adds block
  (i, k)'s contribution to two accumulators it keeps between points: the neighbour sums (1024 x 512) and the
  degrees (1024 x 1). Column block 0 first clears both; column block 3 afterwards normalises, applies the two weight
  matrices, the bias and the rectifier, and stores the layer's 1024 x 128 output block. So a point is in one of three
  cases by its column block: first (A), middle (B), last (C).
-/
import proofs.«108018_j7043746365844_1_alg».proof.Proof.Gen.Kernel.Launch
import proofs.«108018_j7043746365844_1_alg».proof.Proof.Gen.Kernel.Skeleton
import proofs.«108018_j7043746365844_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "column block 0": the condition of the body's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "column block 3": the condition of the body's second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last column block the output window is idle and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x512 .f32 := Memref.whole cc0_scratch0
abbrev scM0_1 : Memref sig .tc .vmem S1024x1 .f32 := Memref.whole cc0_scratch1
abbrev VS0_0 : View sig .tc .vmem S1024x512 .f32 := scM0_0.view
abbrev VS0_1 : View sig .tc .vmem S1024x1 .f32 := scM0_1.view
abbrev VO0_6 : View sig .tc .vmem S1024x128 .f32 := (Memref.whole cc0_stg6_0 : Memref sig .tc .vmem S1024x128 .f32).view

end Cert.Kernel.Hand

end
-- ==== Proof.KB.R0RunA.lean ====
/-
  First aggregation layer: the body run once in case A (column block 0).
-/
import proofs.«108018_j7043746365844_1_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Column block 0: the accumulators, found at anything, are cleared and then take the block's contribution. -/
noncomputable def kernelRun0_A (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x2048 .f32) (x1 : Vec F S2048x512 .f32) :
    Σ' (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__sage_kernel_body i arg2 harg2 arg3 harg3 arg4 harg4 arg5 harg5 arg6 harg6 arg7 harg7 arg8 harg8 arg9 harg9 arg10 harg10) K } := by
  refine ⟨?_, ?_, fun E K => ?run⟩
  case run =>
    simp only [cc0__sage_kernel_body_eq_skeleton]; unfold cc0__sage_kernel_body_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.R0RunB.lean ====
/-
  First aggregation layer: the body run once in case B (a middle column block).
-/
import proofs.«108018_j7043746365844_1_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column block: from the adjacency block `x0`, the feature block `x1` and the accumulators at `xs0`, `xs1`,
    the body leaves the accumulators with the block's contribution added (the stores it makes are the witness) and
    touches nothing else. -/
noncomputable def kernelRun0_B (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x2048 .f32) (x1 : Vec F S2048x512 .f32) (xs0 : Vec F S1024x512 .f32) (xs1 : Vec F S1024x1 .f32) :
    Σ' (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ owns (c : Thread nD τ) arg9 fullShare xs0 ∗ owns (c : Thread nD τ) arg10 fullShare xs1
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__sage_kernel_body i arg2 harg2 arg3 harg3 arg4 harg4 arg5 harg5 arg6 harg6 arg7 harg7 arg8 harg8 arg9 harg9 arg10 harg10) K } := by
  refine ⟨?_, ?_, fun E K => ?run⟩
  case run =>
    simp only [cc0__sage_kernel_body_eq_skeleton]; unfold cc0__sage_kernel_body_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.R0RunC.lean ====
/-
  First aggregation layer: the body run once in case C (column block 3).
-/
import proofs.«108018_j7043746365844_1_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Column block 3: the accumulators take the block's contribution; then the output block is stored whole, computed
    from the accumulators, the row block of the features, the two weight matrices and the bias. -/
noncomputable def kernelRun0_C (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x2048 .f32) (x1 : Vec F S2048x512 .f32) (x2 : Vec F S1024x512 .f32) (x3 : Vec F S512x128 .f32) (x4 : Vec F S512x128 .f32) (x5 : Vec F S1x128 .f32)
    (xs0 : Vec F S1024x512 .f32) (xs1 : Vec F S1024x1 .f32) :
    Σ' (L6 : List (View.Piece (Elt F) S1024x128 .f32)) (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__sage_kernel_body i arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_kernel_body_eq_skeleton]; unfold cc0__sage_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Hand

end
-- ==== Proof.KB.R0Outs.lean ====
/-
  First aggregation layer: what the accumulators and the output block hold after every grid point, the layer's
  proof data, and the body's obligation at every point.

  After the body at point t the two accumulators hold: at a first column block, the block's contribution alone; at a
  later one, what the point before left plus the block's contribution. The output block is stored at a last column
  block only; elsewhere its buffer passes through the body untouched and is not written back.
-/
import proofs.«108018_j7043746365844_1_alg».proof.Proof.KB.R0RunA
import proofs.«108018_j7043746365844_1_alg».proof.Proof.KB.R0RunB
import proofs.«108018_j7043746365844_1_alg».proof.Proof.KB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the stores cover the buffers, so the buffers hold the stores read back -/

theorem scover0_A_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) (y : S1024x512.Idx) :
    ∃ pc ∈ (kernelRun0_A c i arg2 harg2 arg3 harg3 arg4 harg4 arg5 harg5 arg6 harg6 arg7 harg7 arg8 harg8 arg9 harg9 arg10 harg10 hc0 hc1 x0 x1).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1).1 S1024x512.size (by sl_kernel_rfl) y
theorem scover0_A_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) (y : S1024x1.Idx) :
    ∃ pc ∈ (kernelRun0_A c i arg2 harg2 arg3 harg3 arg4 harg4 arg5 harg5 arg6 harg6 arg7 harg7 arg8 harg8 arg9 harg9 arg10 harg10 hc0 hc1 x0 x1).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1).2.1 S1024x1.size (by sl_kernel_rfl) y
/-- The neighbour-sum accumulator after case A. -/
def sout0_A_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) : Vec F S1024x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1).1)
/-- The degree accumulator after case A. -/
def sout0_A_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1).2.1)
theorem scover0_B_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) (y : S1024x512.Idx) :
    ∃ pc ∈ (kernelRun0_B c i arg2 harg2 arg3 harg3 arg4 harg4 arg5 harg5 arg6 harg6 arg7 harg7 arg8 harg8 arg9 harg9 arg10 harg10 hc0 hc1 x0 x1 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 xs0 xs1).1 S1024x512.size (by sl_kernel_rfl) y
theorem scover0_B_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 hc0 hc1 x0 x1 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 xs0 xs1).2.1 S1024x1.size (by sl_kernel_rfl) y
/-- The neighbour-sum accumulator after case B. -/
def sout0_B_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) : Vec F S1024x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 xs0 xs1).1)
/-- The degree accumulator after case B. -/
def sout0_B_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 xs0 xs1).2.1)
theorem scover0_C_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) (y : S1024x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S1024x512.size (by sl_kernel_rfl) y
theorem scover0_C_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y
/-- The neighbour-sum accumulator after case C. -/
def sout0_C_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) : Vec F S1024x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)
/-- The degree accumulator after case C. -/
def sout0_C_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)
theorem cover0_C_6 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y
/-- The output block after case C. -/
def out0_C_6 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) : Vec F S1024x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

end Cert.Kernel.Hand

end
-- ==== Proof.KB.R0Dat.lean ====
/-
  First aggregation layer: the accumulation point by point, the proof data, the body's obligation.
-/
import proofs.«108018_j7043746365844_1_alg».proof.Proof.KB.R0Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for contents nothing reads: the output buffer off the last column block, the accumulators before the
    first point. -/
def junk0_6 : Vec F S1024x128 .f32 := VO0_6.read (Elt F) VO0_6.junk
def junk0_s : Vec F S1024x512 .f32 × Vec F S1024x1 .f32 := (VS0_0.read (Elt F) VS0_0.junk, VS0_1.read (Elt F) VS0_1.junk)

/-- ONE POINT. What the output buffer and the two accumulators hold after the body at point `t`, when the
    accumulators held `prev` before it: by the point's column block. -/
def step0 (c : Dev nD) (t : Fin cfg0.N) (prev : Vec F S1024x512 .f32 × Vec F S1024x1 .f32) :
    Vec F S1024x128 .f32 × Vec F S1024x512 .f32 × Vec F S1024x1 .f32 :=
  if h0 : t.val % 4 = 0 then
    (junk0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t))
  else if h1 : t.val % 4 = 3 then
    (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2)
  else
    (junk0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2)

theorem step0_A (c : Dev nD) (t : Fin cfg0.N) (prev) (h0 : t.val % 4 = 0) :
    step0 V c t prev = (junk0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)) := dif_pos h0
theorem step0_B (c : Dev nD) (t : Fin cfg0.N) (prev) (h0 : ¬t.val % 4 = 0) (h1 : ¬t.val % 4 = 3) :
    step0 V c t prev = (junk0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2) := (dif_neg h0).trans (dif_neg h1)
theorem step0_C (c : Dev nD) (t : Fin cfg0.N) (prev) (h0 : ¬t.val % 4 = 0) (h1 : t.val % 4 = 3) :
    step0 V c t prev = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2) := (dif_neg h0).trans (dif_pos h1)

/-- THE ACCUMULATION: the output buffer and the accumulators after the body at position `n`. -/
def outsAt0 (c : Dev nD) : (n : ℕ) → n < cfg0.N → Vec F S1024x128 .f32 × Vec F S1024x512 .f32 × Vec F S1024x1 .f32
  | 0, hn => step0 V c ⟨0, hn⟩ junk0_s
  | n + 1, hn => step0 V c ⟨n + 1, hn⟩ (outsAt0 c n (Nat.lt_of_succ_lt hn)).2

theorem outsAt0_zero (c : Dev nD) (t : Fin cfg0.N) (hz : t.val = 0) :
    outsAt0 V c t.val t.isLt = step0 V c t junk0_s := by
  obtain ⟨n, hn⟩ := t
  cases n with
  | zero => rfl
  | succ n => exact absurd hz (Nat.succ_ne_zero n)

theorem outsAt0_pos (c : Dev nD) (t : Fin cfg0.N) (hz : t.val ≠ 0) :
    outsAt0 V c t.val t.isLt = step0 V c t (outsAt0 V c (t.val - 1) (Nat.lt_of_le_of_lt (Nat.sub_le _ _) t.isLt)).2 := by
  obtain ⟨n, hn⟩ := t
  cases n with
  | zero => exact absurd rfl hz
  | succ n => rfl

/-! ## The region's invariant: the accumulators at what the point before left -/

def PhiS0 (c : Dev nD) : (n : ℕ) → n ≤ cfg0.N → sProp 𝕄
  | 0, _ => Pipeline.ΦA spec0 c
  | n + 1, hn => iprop(((owns (c : Thread nD τ) scM0_0 fullShare (outsAt0 V c n hn).2.1 ∗ owns (c : Thread nD τ) scM0_1 fullShare (outsAt0 V c n hn).2.2)
      ∗ Pipeline.scopedRestBut (Ix := Unit) (Name := ℕ) (U := UR sig nD τ) (Lvl := ℕ) (Val := Elt F) spec0 c [cc0_scratch0, cc0_scratch1]) ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(((owns (c : Thread nD τ) scM0_0 fullShare (outsAt0 V c n hn).2.1 ∗ owns (c : Thread nD τ) scM0_1 fullShare (outsAt0 V c n hn).2.2)
      ∗ Pipeline.scopedRestBut (Ix := Unit) (Name := ℕ) (U := UR sig nD τ) (Lvl := ℕ) (Val := Elt F) spec0 c [cc0_scratch0, cc0_scratch1]) ∗ ∃ r, prngReg c r) := rfl
theorem PhiS0_pos (c : Dev nD) (n : ℕ) (h : n ≤ cfg0.N) (hz : n ≠ 0) :
    PhiS0 V c n h = iprop(((owns (c : Thread nD τ) scM0_0 fullShare (outsAt0 V c (n - 1) (by omega)).2.1 ∗ owns (c : Thread nD τ) scM0_1 fullShare (outsAt0 V c (n - 1) (by omega)).2.2)
      ∗ Pipeline.scopedRestBut (Ix := Unit) (Name := ℕ) (U := UR sig nD τ) (Lvl := ℕ) (Val := Elt F) spec0 c [cc0_scratch0, cc0_scratch1]) ∗ ∃ r, prngReg c r) := by
  cases n with
  | zero => exact absurd rfl hz
  | succ n => rfl

/-- The class invariant with the two accumulators as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
      ∗ Pipeline.scopedRestBut (Ix := Unit) (Name := ℕ) (U := UR sig nD τ) (Lvl := ℕ) (Val := Elt F) spec0 c [cc0_scratch0, cc0_scratch1]) ∗ ∃ r, prngReg c r) := by
  unfold Pipeline.ΦA
  rw [Pipeline.scopedRest_split_of_list spec0 c [cc0_scratch0, cc0_scratch1] (by decide) (by decide)]
  simp only [scM0_0, scM0_1, owns_whole, Idealize.SL.BI.bigSepL_cons_cons, Idealize.SL.BI.bigSepL_singleton]
  rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  before0_0_of V (dat0 V c) (A_eq0 V c 0) (after0_0 V c) t d
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  before0_1_of V (dat0 V c) (A_eq0 V c 1) (after0_1 V c) t d
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  before0_2_of V (dat0 V c) (A_eq0 V c 2) (after0_2 V c) t d
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  before0_3_of V (dat0 V c) (A_eq0 V c 3) (after0_3 V c) t d
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  before0_4_of V (dat0 V c) (A_eq0 V c 4) (after0_4 V c) t d
theorem after0_5 (c : Dev nD) (t : Fin cfg0.N) : (dat0 V c).after 5 t = iblk0 V c 5 t := by dsimp only [dat0]
theorem before0_5 (c : Dev nD) (t : Fin cfg0.N) (d) : (dat0 V c).before 5 t d = iblk0 V c 5 t :=
  before0_5_of V (dat0 V c) (A_eq0 V c 5) (after0_5 V c) t d
theorem after0_6 (c : Dev nD) (t : Fin cfg0.N) : (dat0 V c).after 6 t = (outsAt0 V c t.val t.isLt).1 := by dsimp only [dat0]

end Cert.Kernel.Hand

end
-- ==== Proof.KB.R0Body.lean ====
/-
  First aggregation layer: the body's obligation at every grid point, case by case.
-/
import proofs.«108018_j7043746365844_1_alg».proof.Proof.KB.R0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After a first column block: the block's contribution alone, whatever came before. -/
theorem outsAt0_A (c : Dev nD) (t : Fin cfg0.N) (h0 : t.val % 4 = 0) :
    outsAt0 V c t.val t.isLt = (junk0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)) := by
  by_cases hz : t.val = 0
  · rw [outsAt0_zero V c t hz]; exact step0_A V c t _ h0
  · rw [outsAt0_pos V c t hz]; exact step0_A V c t _ h0
theorem outsAt0_B (c : Dev nD) (t : Fin cfg0.N) (h0 : ¬t.val % 4 = 0) (h1 : ¬t.val % 4 = 3) :
    outsAt0 V c t.val t.isLt = (junk0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  have hz : t.val ≠ 0 := fun h => h0 (by rw [h])
  rw [outsAt0_pos V c t hz]; exact step0_B V c t _ h0 h1
theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  have hz : t.val ≠ 0 := fun h => h0 (by rw [h])
  rw [outsAt0_pos V c t hz]; exact step0_C V c t _ h0 h1

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 4 = 0
  · have hnc1 : ¬cond0_1 (grid0.coords t) := fun h => by have := (hcond0_1 t).mp h; omega
    rw [Dat.leavesExact_idle (dat0 V c) 6 t (idleAt0_6 t hnc1) (noFlush0_6 t hnc1)]
    rw [outsAt0_A V c t h0]
    unfold sout0_A_0 sout0_A_1; (try dsimp only)
    by_cases hz : t.val = 0
    ·
      rw [PhiS0_castSucc V c t, PhiS0_zero V c _ _ hz, PhiA0_eq]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, H6⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [PhiS0_castSucc V c t, PhiS0_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, H6⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)).2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    by_cases h1 : t.val % 4 = 3
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_6 sout0_C_0 sout0_C_1; (try dsimp only)
      rw [PhiS0_castSucc V c t, PhiS0_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _)
    · have hnc1 : ¬cond0_1 (grid0.coords t) := fun h => h1 ((hcond0_1 t).mp h)
      rw [Dat.leavesExact_idle (dat0 V c) 6 t (idleAt0_6 t hnc1) (noFlush0_6 t hnc1)]
      rw [outsAt0_B V c t h0 h1]
      unfold sout0_B_0 sout0_B_1; (try dsimp only)
      rw [PhiS0_castSucc V c t, PhiS0_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, H6⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R0Seg.lean ====
/-
  First aggregation layer: its seven windows read six arrays — the feature matrix is read through two windows, by
  column block and by row block. At the region's entry the six buffers, each whole at its entry contents, are dealt to
  the windows, the feature matrix's two readers holding a half each; at the exit the halves are joined again, the
  inputs' arrays are as they were and the output's array is what the write-backs leave. The region's invariant starts
  from, and ends in, the accumulators at anything.
-/
import proofs.«108018_j7043746365844_1_alg».proof.Proof.KB.R0Dat
import Idealize.ShloMosaic.Lib.Pipeline.Cells

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct arrays behind the seven windows. -/
theorem arrRefs0 : Finset.univ.image (Pipeline.arrRef spec0) = [main_arg1, main_arg0, main_arg2, main_arg3, main_v0, main_v1].toFinset := by decide

theorem arr0_eq (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- The six distinct buffers, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_arg2) ↦{fullShare} W main_arg2) ∗ (((c : Thread nD τ).loc main_arg3) ↦{fullShare} W main_arg3) ∗ (((c : Thread nD τ).loc main_v0) ↦{fullShare} W main_v0) ∗ (((c : Thread nD τ).loc main_v1) ↦{fullShare} W main_v1)) := by
  unfold Pipeline.arrBufs
  exact Idealize.SL.BI.bigSep_eq_bigSepL_of_eq _ arrRefs0 (by decide) _

/-- The seven windows' arrays, one by one, each at its share. -/
theorem arrays0_eq (c : Dev nD) (G : (w : Fin cfg0.W) → Buf (Elt F) ((cfg0.win w).arr.view.loc (c : Thread nD τ))) :
    (dat0 V c).arrays G
      = iprop((((c : Thread nD τ).loc main_arg1) ↦{fullShare} G (0 : Fin cfg0.W)) ∗ (((c : Thread nD τ).loc main_arg0) ↦{fullShare.left} G (1 : Fin cfg0.W)) ∗ (((c : Thread nD τ).loc main_arg0) ↦{fullShare.right} G (2 : Fin cfg0.W)) ∗ (((c : Thread nD τ).loc main_arg2) ↦{fullShare} G (3 : Fin cfg0.W)) ∗ (((c : Thread nD τ).loc main_arg3) ↦{fullShare} G (4 : Fin cfg0.W)) ∗ (((c : Thread nD τ).loc main_v0) ↦{fullShare} G (5 : Fin cfg0.W)) ∗ (((c : Thread nD τ).loc main_v1) ↦{fullShare} G (6 : Fin cfg0.W))) := by
  unfold Dat.arrays
  rw [bigSep_W0, (arr_whole0 0).set_eq_univ, (arr_whole0 1).set_eq_univ, (arr_whole0 3).set_eq_univ, (arr_whole0 4).set_eq_univ, (arr_whole0 5).set_eq_univ, (arr_whole0 6).set_eq_univ,
    share0_0, share0_1, share0_2, share0_3, share0_4, share0_5, share0_6]

/-- ENTRY: the six buffers dealt to the seven windows. -/
theorem hsplit0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H1, H0, H2, H3, Hv0, Hv1⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  isplitl [Hv0]; · iexact Hv0
  iexact Hv1

/-- EXIT: the halves joined; the inputs' arrays as entered, the output's at what the write-backs leave. -/
theorem hjoin0 (V' : (c : Dev nD) → (b : Ref sig .tc) → Buf (Elt F) ((c : Thread nD τ).loc b)) (c : Dev nD)
    (h : ∀ b : Ref sig .tc, b ≠ main_v1 → V' c b = V c b) (h6 : V' c main_v1 = (dat0 V c).arrAt 6 cfg0.N) :
    (dat0 V c).arrays ((dat0 V c).arrAt · cfg0.N)
      ⊢ (Pipeline.arrBufs (Ix := Unit) (Name := ℕ) (U := UR sig nD τ) (Lvl := ℕ) spec0 c (V' c) : sProp 𝕄) := by
  have e0 : (dat0 V c).arrAt 0 cfg0.N = V' c main_arg1 :=
    ((dat0 V c).arrAt_in 0 rfl _).trans ((A_eq0 V c 0).trans (h main_arg1 (by decide)).symm)
  have p0 : ((((c : Thread nD τ).loc main_arg1) ↦{fullShare} (dat0 V c).arrAt 0 cfg0.N) : sProp 𝕄) ⊢ (((c : Thread nD τ).loc main_arg1) ↦{fullShare} V' c main_arg1) :=
    Entails.of_eq (by rw [e0])
  have e1 : (dat0 V c).arrAt 1 cfg0.N = V' c main_arg0 :=
    ((dat0 V c).arrAt_in 1 rfl _).trans ((A_eq0 V c 1).trans (h main_arg0 (by decide)).symm)
  have p1 : ((((c : Thread nD τ).loc main_arg0) ↦{fullShare.left} (dat0 V c).arrAt 1 cfg0.N) : sProp 𝕄) ⊢ (((c : Thread nD τ).loc main_arg0) ↦{fullShare.left} V' c main_arg0) :=
    Entails.of_eq (by rw [e1])
  have e2 : (dat0 V c).arrAt 2 cfg0.N = V' c main_arg0 :=
    ((dat0 V c).arrAt_in 2 rfl _).trans ((A_eq0 V c 2).trans (h main_arg0 (by decide)).symm)
  have p2 : ((((c : Thread nD τ).loc main_arg0) ↦{fullShare.right} (dat0 V c).arrAt 2 cfg0.N) : sProp 𝕄) ⊢ (((c : Thread nD τ).loc main_arg0) ↦{fullShare.right} V' c main_arg0) :=
    Entails.of_eq (by rw [e2])
  have e3 : (dat0 V c).arrAt 3 cfg0.N = V' c main_arg2 :=
    ((dat0 V c).arrAt_in 3 rfl _).trans ((A_eq0 V c 3).trans (h main_arg2 (by decide)).symm)
  have p3 : ((((c : Thread nD τ).loc main_arg2) ↦{fullShare} (dat0 V c).arrAt 3 cfg0.N) : sProp 𝕄) ⊢ (((c : Thread nD τ).loc main_arg2) ↦{fullShare} V' c main_arg2) :=
    Entails.of_eq (by rw [e3])
  have e4 : (dat0 V c).arrAt 4 cfg0.N = V' c main_arg3 :=
    ((dat0 V c).arrAt_in 4 rfl _).trans ((A_eq0 V c 4).trans (h main_arg3 (by decide)).symm)
  have p4 : ((((c : Thread nD τ).loc main_arg3) ↦{fullShare} (dat0 V c).arrAt 4 cfg0.N) : sProp 𝕄) ⊢ (((c : Thread nD τ).loc main_arg3) ↦{fullShare} V' c main_arg3) :=
    Entails.of_eq (by rw [e4])
  have e5 : (dat0 V c).arrAt 5 cfg0.N = V' c main_v0 :=
    ((dat0 V c).arrAt_in 5 rfl _).trans ((A_eq0 V c 5).trans (h main_v0 (by decide)).symm)
  have p5 : ((((c : Thread nD τ).loc main_v0) ↦{fullShare} (dat0 V c).arrAt 5 cfg0.N) : sProp 𝕄) ⊢ (((c : Thread nD τ).loc main_v0) ↦{fullShare} V' c main_v0) :=
    Entails.of_eq (by rw [e5])
  have p6 : ((((c : Thread nD τ).loc main_v1) ↦{fullShare} (dat0 V c).arrAt 6 cfg0.N) : sProp 𝕄) ⊢ (((c : Thread nD τ).loc main_v1) ↦{fullShare} V' c main_v1) :=
    Entails.of_eq (by rw [h6])
  rw [arrBufs0_eq, arrays0_eq]
  iintro ⟨H1, H0l, H0r, H2, H3, Hv0, Hv1⟩
  isplitl [H1]; · iapply p0; iexact H1
  isplitl [H0l H0r]
  · iapply (pointsTo_share (PosShare.mem_left_op_right fullShare)).2
    isplitl [H0l]; · iapply p1; iexact H0l
    iapply p2; iexact H0r
  isplitl [H2]; · iapply p3; iexact H2
  isplitl [H3]; · iapply p4; iexact H3
  isplitl [Hv0]; · iapply p5; iexact Hv0
  iapply p6; iexact Hv1

/-- The invariant before the first point is the accumulators at anything, -/
theorem hin0 (c : Dev nD) :
    iprop((∃ r, prngReg c r) ∗ Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl]
  unfold Pipeline.ΦA
  iintro ⟨Hg, Hr⟩
  isplitl [Hr]; · iexact Hr
  iexact Hg

/-- and after the last point their contents are forgotten. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c : sProp 𝕄) := by
  have hN : cfg0.N = 32 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega)]
  have hA := PhiA0_eq (F := F) c
  unfold Pipeline.ΦA at hA
  iintro ⟨⟨⟨HS0, HS1⟩, HB⟩, Hg⟩
  isplitl [Hg]; · iexact Hg
  rw [show (Pipeline.scopedRest (Ix := Unit) (Name := ℕ) (U := UR sig nD τ) (Lvl := ℕ) (Val := Elt F) spec0 c : sProp 𝕄)
    = iprop(((∃ d, owns (c : Thread nD τ) scM0_0 fullShare d) ∗ (∃ d, owns (c : Thread nD τ) scM0_1 fullShare d))
      ∗ Pipeline.scopedRestBut (Ix := Unit) (Name := ℕ) (U := UR sig nD τ) (Lvl := ℕ) (Val := Elt F) spec0 c [cc0_scratch0, cc0_scratch1]) from by
    rw [Pipeline.scopedRest_split_of_list spec0 c [cc0_scratch0, cc0_scratch1] (by decide) (by decide)]
    simp only [scM0_0, scM0_1, owns_whole, Idealize.SL.BI.bigSepL_cons_cons, Idealize.SL.BI.bigSepL_singleton]
    rfl]
  isplitl [HS0 HS1]
  · isplitl [HS0]; · iexists _; iexact HS0
    iexists _; iexact HS1
  iexact HB

end Cert.Kernel.Hand

end
-- ==== Proof.KB.R1Base.lean ====
/-
  Second aggregation layer with the linear decode, what its three control cases share: a point of the 8 x 4 grid is in one of three cases by its column
  block — first (the accumulators are cleared, then take the block's contribution), middle (they take the block's
  contribution), last (they take it, and the output block is computed from them and stored).
-/
import proofs.«108018_j7043746365844_1_alg».proof.Proof.Gen.Kernel.Launch
import proofs.«108018_j7043746365844_1_alg».proof.Proof.Gen.Kernel.Skeleton
import proofs.«108018_j7043746365844_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "column block 0": the condition of the body's first conditional. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "column block 3": the condition of the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Off the last column block the output window is idle and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x3 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x3 .f32 := win1_8.stage (cfg1.slots t 8)
abbrev hs1_8 (t : Fin cfg1.N) : (ms1_8 t).IsWhole := hstage1_8 ((cfg1.slots t 8).cast nbuf1_8)
/-- The two accumulators: whole scoped buffers of the kernel's own. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view
abbrev VO1_8 : View sig .tc .vmem S1024x3 .f32 := (Memref.whole cc1_stg8_0 : Memref sig .tc .vmem S1024x3 .f32).view

end Cert.Kernel.Hand

end
-- ==== Proof.KB.R1RunA.lean ====
/-
  Second aggregation layer with the linear decode: the body run once in case A.
-/
import proofs.«108018_j7043746365844_1_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Column block 0: the accumulators, found at anything, are cleared and then take the block's contribution. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i)
    (x0 : Vec F S1024x2048 .f32) (x1 : Vec F S2048x128 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1__sage_decode_kernel_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__sage_decode_kernel_body_eq_skeleton]; unfold cc1__sage_decode_kernel_body_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.R1RunB.lean ====
/-
  Second aggregation layer with the linear decode: the body run once in case B.
-/
import proofs.«108018_j7043746365844_1_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column block: the accumulators take the block's contribution; nothing else is touched. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i)
    (x0 : Vec F S1024x2048 .f32) (x1 : Vec F S2048x128 .f32) (xs0 : Vec F S1024x128 .f32) (xs1 : Vec F S1024x1 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ owns (c : Thread nD τ) arg11 fullShare xs0 ∗ owns (c : Thread nD τ) arg12 fullShare xs1
            ∗ (iprop(owns (c : Thread nD τ) arg2 fullShare x0 ∗ owns (c : Thread nD τ) arg3 fullShare x1
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1__sage_decode_kernel_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__sage_decode_kernel_body_eq_skeleton]; unfold cc1__sage_decode_kernel_body_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.Kernel.Hand

end
-- ==== Proof.KB.R1RunC.lean ====
/-
  Second aggregation layer with the linear decode: the body run once in case C.
-/
import proofs.«108018_j7043746365844_1_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Column block 3: the accumulators take the block's contribution; then the output block is stored whole, computed
    from the accumulators and the other operands. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i)
    (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32)
    (xs0 : Vec F S1024x128 .f32) (xs1 : Vec F S1024x1 .f32) :
    Σ' (L8 : List (View.Piece (Elt F) S1024x3 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d)
            ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1__sage_decode_kernel_body i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__sage_decode_kernel_body_eq_skeleton]; unfold cc1__sage_decode_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.Kernel.Hand

end
-- ==== Proof.KB.R1Outs.lean ====
/-
  Second aggregation layer with the linear decode: each case's stores cover the buffers they go to, so after the case the accumulators (and, in the
  last case, the output block) hold the stores read back.
-/
import proofs.«108018_j7043746365844_1_alg».proof.Proof.KB.R1RunA
import proofs.«108018_j7043746365844_1_alg».proof.Proof.KB.R1RunB
import proofs.«108018_j7043746365844_1_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem scover1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) (y : S1024x128.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1).1 S1024x128.size (by sl_kernel_rfl) y
theorem scover1_A_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) (y : S1024x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1).2.1 S1024x1.size (by sl_kernel_rfl) y
/-- The neighbour-sum accumulator after case A. -/
def sout1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1).1)
/-- The degree accumulator after case A. -/
def sout1_A_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1).2.1)
theorem scover1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) (y : S1024x128.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 xs0 xs1).1 S1024x128.size (by sl_kernel_rfl) y
theorem scover1_B_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 xs0 xs1).2.1 S1024x1.size (by sl_kernel_rfl) y
/-- The neighbour-sum accumulator after case B. -/
def sout1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 xs0 xs1).1)
/-- The degree accumulator after case B. -/
def sout1_B_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 xs0 xs1).2.1)
theorem scover1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S1024x128.size (by sl_kernel_rfl) y
theorem scover1_C_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S1024x1.size (by sl_kernel_rfl) y
/-- The neighbour-sum accumulator after case C. -/
def sout1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The degree accumulator after case C. -/
def sout1_C_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
theorem cover1_C_8 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) (y : S1024x3.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 S1024x3.size (by sl_kernel_rfl) y
/-- The output block after case C. -/
def out1_C_8 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) : Vec F S1024x3 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)

end Cert.Kernel.Hand

end
-- ==== Proof.KB.R1Dat.lean ====
/-
  Second aggregation layer with the linear decode: the accumulation point by point and the region's proof data.

  After the body at point t the two accumulators hold: at a first column block, the block's contribution alone; at a
  later one, what the point before left plus the block's contribution. The output block is stored at a last column
  block only; elsewhere its buffer passes through the body untouched and is not written back.
-/
import proofs.«108018_j7043746365844_1_alg».proof.Proof.KB.R1Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for contents nothing reads. -/
def junk1_o : Vec F S1024x3 .f32 := VO1_8.read (Elt F) VO1_8.junk
def junk1_s : Vec F S1024x128 .f32 × Vec F S1024x1 .f32 := (VS1_0.read (Elt F) VS1_0.junk, VS1_1.read (Elt F) VS1_1.junk)

/-- ONE POINT: the output buffer and the two accumulators after the body at point `t`, when the accumulators held
    `prev` before it, by the point's column block. -/
def step1 (c : Dev nD) (t : Fin cfg1.N) (prev : Vec F S1024x128 .f32 × Vec F S1024x1 .f32) :
    Vec F S1024x3 .f32 × Vec F S1024x128 .f32 × Vec F S1024x1 .f32 :=
  if h0 : t.val % 4 = 0 then
    (junk1_o, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t))
  else if h1 : t.val % 4 = 3 then
    (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2)
  else
    (junk1_o, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2)

theorem step1_A (c : Dev nD) (t : Fin cfg1.N) (prev) (h0 : t.val % 4 = 0) :
    step1 V c t prev = (junk1_o, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)) := dif_pos h0
theorem step1_B (c : Dev nD) (t : Fin cfg1.N) (prev) (h0 : ¬t.val % 4 = 0) (h1 : ¬t.val % 4 = 3) :
    step1 V c t prev = (junk1_o, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2) := (dif_neg h0).trans (dif_neg h1)
theorem step1_C (c : Dev nD) (t : Fin cfg1.N) (prev) (h0 : ¬t.val % 4 = 0) (h1 : t.val % 4 = 3) :
    step1 V c t prev = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2) := (dif_neg h0).trans (dif_pos h1)

/-- THE ACCUMULATION: the output buffer and the accumulators after the body at position `n`. -/
def outsAt1 (c : Dev nD) : (n : ℕ) → n < cfg1.N → Vec F S1024x3 .f32 × Vec F S1024x128 .f32 × Vec F S1024x1 .f32
  | 0, hn => step1 V c ⟨0, hn⟩ junk1_s
  | n + 1, hn => step1 V c ⟨n + 1, hn⟩ (outsAt1 c n (Nat.lt_of_succ_lt hn)).2

theorem outsAt1_zero (c : Dev nD) (t : Fin cfg1.N) (hz : t.val = 0) :
    outsAt1 V c t.val t.isLt = step1 V c t junk1_s := by
  obtain ⟨n, hn⟩ := t
  cases n with
  | zero => rfl
  | succ n => exact absurd hz (Nat.succ_ne_zero n)

theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)).2 := by
  obtain ⟨n, hn⟩ := t
  cases n with
  | zero => exact absurd rfl hz
  | succ n => rfl

/-! ## The region's invariant: the accumulators at what the point before left -/

def PhiS1 (c : Dev nD) : (n : ℕ) → n ≤ cfg1.N → sProp 𝕄
  | 0, _ => Pipeline.ΦA spec1 c
  | n + 1, hn => iprop(((owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1]) ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(((owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1]) ∗ ∃ r, prngReg c r) := rfl
theorem PhiS1_pos (c : Dev nD) (n : ℕ) (h : n ≤ cfg1.N) (hz : n ≠ 0) :
    PhiS1 V c n h = iprop(((owns (c : Thread nD τ) scM1_0 fullShare (outsAt1 V c (n - 1) (by omega)).2.1 ∗ owns (c : Thread nD τ) scM1_1 fullShare (outsAt1 V c (n - 1) (by omega)).2.2)
      ∗ Pipeline.scopedRestBut (Ix := Unit) (Name := ℕ) (U := UR sig nD τ) (Lvl := ℕ) (Val := Elt F) spec1 c [cc1_scratch0, cc1_scratch1]) ∗ ∃ r, prngReg c r) := by
  cases n with
  | zero => exact absurd rfl hz
  | succ n => rfl

/-- The class invariant with the two accumulators as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) ∗ ∃ r, prngReg c r) := by
  unfold Pipeline.ΦA
  rw [Pipeline.scopedRest_split_of_list spec1 c [cc1_scratch0, cc1_scratch1] (by decide) (by decide)]
  simp only [scM1_0, scM1_1, owns_whole, Idealize.SL.BI.bigSepL_cons_cons, Idealize.SL.BI.bigSepL_singleton]
  rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  before1_0_of V (dat1 V c) (A_eq1 V c 0) (after1_0 V c) t d
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  before1_1_of V (dat1 V c) (A_eq1 V c 1) (after1_1 V c) t d
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  before1_2_of V (dat1 V c) (A_eq1 V c 2) (after1_2 V c) t d
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  before1_3_of V (dat1 V c) (A_eq1 V c 3) (after1_3 V c) t d
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  before1_4_of V (dat1 V c) (A_eq1 V c 4) (after1_4 V c) t d
theorem after1_5 (c : Dev nD) (t : Fin cfg1.N) : (dat1 V c).after 5 t = iblk1 V c 5 t := by dsimp only [dat1]
theorem before1_5 (c : Dev nD) (t : Fin cfg1.N) (d) : (dat1 V c).before 5 t d = iblk1 V c 5 t :=
  before1_5_of V (dat1 V c) (A_eq1 V c 5) (after1_5 V c) t d
theorem after1_6 (c : Dev nD) (t : Fin cfg1.N) : (dat1 V c).after 6 t = iblk1 V c 6 t := by dsimp only [dat1]
theorem before1_6 (c : Dev nD) (t : Fin cfg1.N) (d) : (dat1 V c).before 6 t d = iblk1 V c 6 t :=
  before1_6_of V (dat1 V c) (A_eq1 V c 6) (after1_6 V c) t d
theorem after1_7 (c : Dev nD) (t : Fin cfg1.N) : (dat1 V c).after 7 t = iblk1 V c 7 t := by dsimp only [dat1]
theorem before1_7 (c : Dev nD) (t : Fin cfg1.N) (d) : (dat1 V c).before 7 t d = iblk1 V c 7 t :=
  before1_7_of V (dat1 V c) (A_eq1 V c 7) (after1_7 V c) t d
theorem after1_8 (c : Dev nD) (t : Fin cfg1.N) : (dat1 V c).after 8 t = (outsAt1 V c t.val t.isLt).1 := by dsimp only [dat1]

/-- After a first column block: the block's contribution alone, whatever came before. -/
theorem outsAt1_A (c : Dev nD) (t : Fin cfg1.N) (h0 : t.val % 4 = 0) :
    outsAt1 V c t.val t.isLt = (junk1_o, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)) := by
  by_cases hz : t.val = 0
  · rw [outsAt1_zero V c t hz]; exact step1_A V c t _ h0
  · rw [outsAt1_pos V c t hz]; exact step1_A V c t _ h0
theorem outsAt1_B (c : Dev nD) (t : Fin cfg1.N) (h0 : ¬t.val % 4 = 0) (h1 : ¬t.val % 4 = 3) :
    outsAt1 V c t.val t.isLt = (junk1_o, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  have hz : t.val ≠ 0 := fun h => h0 (by rw [h])
  rw [outsAt1_pos V c t hz]; exact step1_B V c t _ h0 h1
theorem outsAt1_C (c : Dev nD) (t : Fin cfg1.N) (h0 : ¬t.val % 4 = 0) (h1 : t.val % 4 = 3) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2) := by
  have hz : t.val ≠ 0 := fun h => h0 (by rw [h])
  rw [outsAt1_pos V c t hz]; exact step1_C V c t _ h0 h1

end Cert.Kernel.Hand

end
-- ==== Proof.KB.R1Body.lean ====
/-
  Second aggregation layer with the linear decode: the body's obligation at every grid point, case by case.
-/
import proofs.«108018_j7043746365844_1_alg».proof.Proof.KB.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 4 = 0
  · have hnc1 : ¬cond1_1 (grid1.coords t) := fun h => by have := (hcond1_1 t).mp h; omega
    rw [Dat.leavesExact_idle (dat1 V c) 8 t (idleAt1_8 t hnc1) (noFlush1_8 t hnc1)]
    rw [outsAt1_A V c t h0]
    unfold sout1_A_0 sout1_A_1; (try dsimp only)
    by_cases hz : t.val = 0
    ·
      rw [PhiS1_castSucc V c t, PhiS1_zero V c _ _ hz, PhiA1_eq]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    ·
      rw [PhiS1_castSucc V c t, PhiS1_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)).2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    by_cases h1 : t.val % 4 = 3
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C_8 sout1_C_0 sout1_C_1; (try dsimp only)
      rw [PhiS1_castSucc V c t, PhiS1_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _)
    · have hnc1 : ¬cond1_1 (grid1.coords t) := fun h => h1 ((hcond1_1 t).mp h)
      rw [Dat.leavesExact_idle (dat1 V c) 8 t (idleAt1_8 t hnc1) (noFlush1_8 t hnc1)]
      rw [outsAt1_B V c t h0 h1]
      unfold sout1_B_0 sout1_B_1; (try dsimp only)
      rw [PhiS1_castSucc V c t, PhiS1_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R1Seg.lean ====
/-
  Second aggregation layer with the linear decode: its 9 windows read 8 arrays — one matrix is read through two windows, by column block and by row
  block. At the region's entry the buffers, each whole at its entry contents, are dealt to the windows, that
  matrix's two readers holding a half each; at the exit the halves are joined again, the inputs' arrays are as they
  were and the output's array is what the write-backs leave. The region's invariant starts from, and ends in, the
  accumulators at anything.
-/
import proofs.«108018_j7043746365844_1_alg».proof.Proof.KB.R1Dat
import Idealize.ShloMosaic.Lib.Pipeline.Cells

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct arrays behind the windows. -/
theorem arrRefs1 : Finset.univ.image (Pipeline.arrRef spec1) = [main_arg1, main_v1, main_arg5, main_arg6, main_v2, main_arg8, main_v3, main_v4].toFinset := by decide

theorem arr1_eq (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl

theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v1) ↦{fullShare} W main_v1) ∗ (((c : Thread nD τ).loc main_arg5) ↦{fullShare} W main_arg5) ∗ (((c : Thread nD τ).loc main_arg6) ↦{fullShare} W main_arg6) ∗ (((c : Thread nD τ).loc main_v2) ↦{fullShare} W main_v2) ∗ (((c : Thread nD τ).loc main_arg8) ↦{fullShare} W main_arg8) ∗ (((c : Thread nD τ).loc main_v3) ↦{fullShare} W main_v3) ∗ (((c : Thread nD τ).loc main_v4) ↦{fullShare} W main_v4)) := by
  unfold Pipeline.arrBufs
  exact Idealize.SL.BI.bigSep_eq_bigSepL_of_eq _ arrRefs1 (by decide) _

set_option maxHeartbeats 4000000 in
theorem arrays1_eq (c : Dev nD) (G : (w : Fin cfg1.W) → Buf (Elt F) ((cfg1.win w).arr.view.loc (c : Thread nD τ))) :
    (dat1 V c).arrays G
      = iprop((((c : Thread nD τ).loc main_arg1) ↦{fullShare} G (0 : Fin cfg1.W)) ∗ (((c : Thread nD τ).loc main_v1) ↦{fullShare.left} G (1 : Fin cfg1.W)) ∗ (((c : Thread nD τ).loc main_v1) ↦{fullShare.right} G (2 : Fin cfg1.W)) ∗ (((c : Thread nD τ).loc main_arg5) ↦{fullShare} G (3 : Fin cfg1.W)) ∗ (((c : Thread nD τ).loc main_arg6) ↦{fullShare} G (4 : Fin cfg1.W)) ∗ (((c : Thread nD τ).loc main_v2) ↦{fullShare} G (5 : Fin cfg1.W)) ∗ (((c : Thread nD τ).loc main_arg8) ↦{fullShare} G (6 : Fin cfg1.W)) ∗ (((c : Thread nD τ).loc main_v3) ↦{fullShare} G (7 : Fin cfg1.W)) ∗ (((c : Thread nD τ).loc main_v4) ↦{fullShare} G (8 : Fin cfg1.W))) := by
  unfold Dat.arrays
  rw [bigSep_W1, (arr_whole1 0).set_eq_univ, (arr_whole1 1).set_eq_univ, (arr_whole1 3).set_eq_univ, (arr_whole1 4).set_eq_univ, (arr_whole1 5).set_eq_univ, (arr_whole1 6).set_eq_univ, (arr_whole1 7).set_eq_univ, (arr_whole1 8).set_eq_univ,
    share1_0, share1_1, share1_2, share1_3, share1_4, share1_5, share1_6, share1_7, share1_8]

/-- ENTRY: the buffers dealt to the windows. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨B0, B1, B2, B3, B4, B5, B6, B7⟩
  ihave B1' := (pointsTo_share (PosShare.mem_left_op_right fullShare)).1 $$ B1
  icases B1' with ⟨B1l, B1r⟩
  isplitl [B0]; · iexact B0
  isplitl [B1l]; · iexact B1l
  isplitl [B1r]; · iexact B1r
  isplitl [B2]; · iexact B2
  isplitl [B3]; · iexact B3
  isplitl [B4]; · iexact B4
  isplitl [B5]; · iexact B5
  isplitl [B6]; · iexact B6
  iexact B7

/-- EXIT: the halves joined; the inputs' arrays as entered, the output's at what the write-backs leave. -/
theorem hjoin1 (V' : (c : Dev nD) → (b : Ref sig .tc) → Buf (Elt F) ((c : Thread nD τ).loc b)) (c : Dev nD)
    (h : ∀ b : Ref sig .tc, b ≠ main_v4 → V' c b = V c b) (hout : V' c main_v4 = (dat1 V c).arrAt 8 cfg1.N) :
    (dat1 V c).arrays ((dat1 V c).arrAt · cfg1.N)
      ⊢ (Pipeline.arrBufs (Ix := Unit) (Name := ℕ) (U := UR sig nD τ) (Lvl := ℕ) spec1 c (V' c) : sProp 𝕄) := by
  have e0 : (dat1 V c).arrAt 0 cfg1.N = V' c main_arg1 :=
    ((dat1 V c).arrAt_in 0 rfl _).trans ((A_eq1 V c 0).trans (h main_arg1 (by decide)).symm)
  have p0 : ((((c : Thread nD τ).loc main_arg1) ↦{fullShare} (dat1 V c).arrAt 0 cfg1.N) : sProp 𝕄) ⊢ (((c : Thread nD τ).loc main_arg1) ↦{fullShare} V' c main_arg1) :=
    Entails.of_eq (by rw [e0])
  have e1 : (dat1 V c).arrAt 1 cfg1.N = V' c main_v1 :=
    ((dat1 V c).arrAt_in 1 rfl _).trans ((A_eq1 V c 1).trans (h main_v1 (by decide)).symm)
  have p1 : ((((c : Thread nD τ).loc main_v1) ↦{fullShare.left} (dat1 V c).arrAt 1 cfg1.N) : sProp 𝕄) ⊢ (((c : Thread nD τ).loc main_v1) ↦{fullShare.left} V' c main_v1) :=
    Entails.of_eq (by rw [e1])
  have e2 : (dat1 V c).arrAt 2 cfg1.N = V' c main_v1 :=
    ((dat1 V c).arrAt_in 2 rfl _).trans ((A_eq1 V c 2).trans (h main_v1 (by decide)).symm)
  have p2 : ((((c : Thread nD τ).loc main_v1) ↦{fullShare.right} (dat1 V c).arrAt 2 cfg1.N) : sProp 𝕄) ⊢ (((c : Thread nD τ).loc main_v1) ↦{fullShare.right} V' c main_v1) :=
    Entails.of_eq (by rw [e2])
  have e3 : (dat1 V c).arrAt 3 cfg1.N = V' c main_arg5 :=
    ((dat1 V c).arrAt_in 3 rfl _).trans ((A_eq1 V c 3).trans (h main_arg5 (by decide)).symm)
  have p3 : ((((c : Thread nD τ).loc main_arg5) ↦{fullShare} (dat1 V c).arrAt 3 cfg1.N) : sProp 𝕄) ⊢ (((c : Thread nD τ).loc main_arg5) ↦{fullShare} V' c main_arg5) :=
    Entails.of_eq (by rw [e3])
  have e4 : (dat1 V c).arrAt 4 cfg1.N = V' c main_arg6 :=
    ((dat1 V c).arrAt_in 4 rfl _).trans ((A_eq1 V c 4).trans (h main_arg6 (by decide)).symm)
  have p4 : ((((c : Thread nD τ).loc main_arg6) ↦{fullShare} (dat1 V c).arrAt 4 cfg1.N) : sProp 𝕄) ⊢ (((c : Thread nD τ).loc main_arg6) ↦{fullShare} V' c main_arg6) :=
    Entails.of_eq (by rw [e4])
  have e5 : (dat1 V c).arrAt 5 cfg1.N = V' c main_v2 :=
    ((dat1 V c).arrAt_in 5 rfl _).trans ((A_eq1 V c 5).trans (h main_v2 (by decide)).symm)
  have p5 : ((((c : Thread nD τ).loc main_v2) ↦{fullShare} (dat1 V c).arrAt 5 cfg1.N) : sProp 𝕄) ⊢ (((c : Thread nD τ).loc main_v2) ↦{fullShare} V' c main_v2) :=
    Entails.of_eq (by rw [e5])
  have e6 : (dat1 V c).arrAt 6 cfg1.N = V' c main_arg8 :=
    ((dat1 V c).arrAt_in 6 rfl _).trans ((A_eq1 V c 6).trans (h main_arg8 (by decide)).symm)
  have p6 : ((((c : Thread nD τ).loc main_arg8) ↦{fullShare} (dat1 V c).arrAt 6 cfg1.N) : sProp 𝕄) ⊢ (((c : Thread nD τ).loc main_arg8) ↦{fullShare} V' c main_arg8) :=
    Entails.of_eq (by rw [e6])
  have e7 : (dat1 V c).arrAt 7 cfg1.N = V' c main_v3 :=
    ((dat1 V c).arrAt_in 7 rfl _).trans ((A_eq1 V c 7).trans (h main_v3 (by decide)).symm)
  have p7 : ((((c : Thread nD τ).loc main_v3) ↦{fullShare} (dat1 V c).arrAt 7 cfg1.N) : sProp 𝕄) ⊢ (((c : Thread nD τ).loc main_v3) ↦{fullShare} V' c main_v3) :=
    Entails.of_eq (by rw [e7])
  have p8 : ((((c : Thread nD τ).loc main_v4) ↦{fullShare} (dat1 V c).arrAt 8 cfg1.N) : sProp 𝕄) ⊢ (((c : Thread nD τ).loc main_v4) ↦{fullShare} V' c main_v4) :=
    Entails.of_eq (by rw [hout])
  rw [arrBufs1_eq, arrays1_eq]
  iintro ⟨A0, A1, A2, A3, A4, A5, A6, A7, A8⟩
  isplitl [A0]; · iapply p0; iexact A0
  isplitl [A1 A2]
  · iapply (pointsTo_share (PosShare.mem_left_op_right fullShare)).2
    isplitl [A1]; · iapply p1; iexact A1
    iapply p2; iexact A2
  isplitl [A3]; · iapply p3; iexact A3
  isplitl [A4]; · iapply p4; iexact A4
  isplitl [A5]; · iapply p5; iexact A5
  isplitl [A6]; · iapply p6; iexact A6
  isplitl [A7]; · iapply p7; iexact A7
  iapply p8; iexact A8

/-- The invariant before the first point is the accumulators at anything, -/
theorem hin1 (c : Dev nD) :
    iprop((∃ r, prngReg c r) ∗ Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl]
  unfold Pipeline.ΦA
  iintro ⟨Hg, Hr⟩
  isplitl [Hr]; · iexact Hr
  iexact Hg

/-- and after the last point their contents are forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c : sProp 𝕄) := by
  have hN : cfg1.N = 32 := N_1
  have hS : (Pipeline.scopedRest (Ix := Unit) (Name := ℕ) (U := UR sig nD τ) (Lvl := ℕ) (Val := Elt F) spec1 c : sProp 𝕄)
    = iprop(((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) := by
    rw [Pipeline.scopedRest_split_of_list spec1 c [cc1_scratch0, cc1_scratch1] (by decide) (by decide)]
    simp only [scM1_0, scM1_1, owns_whole, Idealize.SL.BI.bigSepL_cons_cons, Idealize.SL.BI.bigSepL_singleton]
    rfl
  rw [show (dat1 V c).Φ (Fin.last cfg1.N) = PhiS1 V c (Fin.last cfg1.N).val (Nat.le_of_lt_succ (Fin.last cfg1.N).isLt) from rfl,
    PhiS1_pos V c _ _ (by rw [Fin.val_last]; omega), hS]
  iintro ⟨⟨⟨HS0, HS1⟩, HB⟩, Hg⟩
  isplitl [Hg]; · iexact Hg
  isplitl [HS0 HS1]
  · isplitl [HS0]; · iexists _; iexact HS0
    iexists _; iexact HS1
  iexact HB

end Cert.Kernel.Hand

end
-- ==== Proof.KB.R2Body.lean ====
/-
  The pairwise-distance kernel: one body run.

  The grid is 4 x 4 output tiles of 2048 x 2048. At tile (i, j) the body reads row block i and column block j of the
  8192 x 3 point matrix (2048 x 3 each) and stores the whole tile: the distances between the points of the two blocks.
-/
import proofs.«108018_j7043746365844_1_alg».proof.Proof.Gen.Kernel.Launch
import proofs.«108018_j7043746365844_1_alg».proof.Proof.Gen.Kernel.Skeleton
import proofs.«108018_j7043746365844_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window's buffer holds the row block at every point, fetched there or not (between fetches the row index
    has not moved), for any proof data reading `V` and leaving the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column window's buffer holds the column block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rIn2 : Rect S2048x3 := Rect.unit (s := S2048x3) ![0, 0] S2048x3.size inb_S2048x3_S2048x3_0_0
abbrev rOut2 : Rect S2048x2048 := Rect.unit (s := S2048x2048) ![0, 0] S2048x2048.size inb_S2048x2048_S2048x2048_0_0

/-! ## What the body leaves in the output tile's buffer -/

/-- The output tile after the body, from the row block `x0` and the column block `x1`: the one store, whole. -/
def out2_2 (x0 : Vec F S2048x3 .f32) (x1 : Vec F S2048x3 .f32) : Vec F S2048x2048 .f32 :=
  View.canon [⟨rOut2, k2_pay1 (View.ld x0 rIn2) (View.ld x1 rIn2)⟩]

/-- The store covers the tile. -/
theorem cover2_2 (p0 : Vec F S2048x2048 .f32) (y : S2048x2048.Idx) :
    ∃ pc ∈ ([⟨rOut2, p0⟩] : List (View.Piece (Elt F) S2048x2048 .f32)), y ∈ pc.1.set :=
  View.cover_of_tiled [⟨rOut2, p0⟩] S2048x2048.size (by rfl) y

/-! ## The body's triple -/

set_option maxHeartbeats 4000000 in
/-- The body on whole buffers, the inputs at read contents `x0`, `x1` and the output at anything, runs to the
    continuation with the inputs as they were and the output at `out2_2 x0 x1`. -/
theorem sound_kernel2 (c : Dev nD) (E : Set ℕ) (i : grid2.Coords) (arg2 : Memref sig .tc .vmem S2048x3 .f32) (harg2 : arg2.IsWhole)
    (arg3 : Memref sig .tc .vmem S2048x3 .f32) (harg3 : arg3.IsWhole) (arg4 : Memref sig .tc .vmem S2048x2048 .f32) (harg4 : arg4.IsWhole)
    (x0 : Vec F S2048x3 .f32) (x1 : Vec F S2048x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__cdist_kernel_body i arg2 harg2 arg3 harg3 arg4 harg4) K := by
  simp only [cc2__cdist_kernel_body_eq_skeleton]; unfold cc2__cdist_kernel_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.Kernel.Hand

end
-- ==== Proof.KB.R2Dat.lean ====
/-
  The pairwise-distance kernel: the pipeline's proof data and the body obligation at every grid point.
-/
import proofs.«108018_j7043746365844_1_alg».proof.Proof.KB.R2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data of the pairwise-distance pipeline on core `c`: the arrays at `V`; after the body at point `t` the
    row window at the row block, the column window at the column block, the output window at the tile computed from
    the two; the invariant the scoped rest and the generator register, untouched; nothing owed. The point matrix is
    read through two windows, each holding half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := fun w => match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R2Seg.lean ====
/-
  The pairwise-distance kernel: how its arrays and its invariant enter and leave the region.

  The kernel reads the 8192 x 3 point matrix through two windows (a row block and a column block) and writes the
  8192 x 8192 distance matrix through a third. Two buffers stand behind the three windows: at entry the point matrix
  is dealt to its two readers a half each, at exit the halves are put together again.
-/
import proofs.«108018_j7043746365844_1_alg».proof.Proof.KB.R2Dat
import Idealize.ShloMosaic.Lib.Pipeline.Cells

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two buffers behind the three windows -/

/-- The distinct buffers behind the windows' arrays: the point matrix and the distance matrix. -/
theorem arrBufs2_eq (c : Dev nD) (W : (b : Ref sig .tc) → Buf (Elt F) ((c : Thread nD τ).loc b)) :
    (Pipeline.arrBufs spec2 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- The windows' arrays one by one: the point matrix twice, a half each, and the distance matrix whole. -/
theorem arrays2_eq (c : Dev nD) (G : (w : Fin cfg2.W) → Buf (Elt F) ((cfg2.win w).arr.view.loc (c : Thread nD τ))) :
    (dat2 V c).arrays G
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Dat.arrays
  rw [bigSep_W2, (arr_whole2 0).set_eq_univ, (arr_whole2 2).set_eq_univ, share2_0, share2_1, share2_2]

/-- An input window's array is never written. -/
theorem arrAt2_0 (c : Dev nD) (n : Nat) : (dat2 V c).arrAt 0 n = V c main_v4 :=
  ((dat2 V c).arrAt_in 0 rfl n).trans (A_eq2 V c 0)
theorem arrAt2_1 (c : Dev nD) (n : Nat) : (dat2 V c).arrAt 1 n = V c main_v4 :=
  ((dat2 V c).arrAt_in 1 rfl n).trans (A_eq2 V c 1)
theorem arrAt2_2_zero (c : Dev nD) : (dat2 V c).arrAt 2 0 = V c main_v5 := A_eq2 V c 2

/-! ## Entry and exit of the arrays -/

/-- Entry: the point matrix, whole, is dealt in halves to its two readers. -/
theorem hsplit2 (c : Dev nD) : (Pipeline.arrBufs spec2 c (V c) : sProp 𝕄) ⊢ (dat2 V c).arrays ((dat2 V c).arrAt · 0) := by
  rw [arrBufs2_eq, arrays2_eq, arrAt2_0, arrAt2_1, arrAt2_2_zero]
  iintro ⟨H4, H5⟩
  ihave H4 := (pointsTo_share (PosShare.mem_left_op_right fullShare)).1 $$ H4
  icases H4 with ⟨Ha, Hb⟩
  isplitl [Ha]; · iexact Ha
  isplitl [Hb]; · iexact Hb
  iexact H5

/-- Exit: the two halves are the point matrix whole again, unchanged; the distance matrix is what the write-backs left. -/
theorem hjoin2 (V' : (c : Dev nD) → (b : Ref sig .tc) → Buf (Elt F) ((c : Thread nD τ).loc b)) (c : Dev nD)
    (h4 : V' c main_v4 = V c main_v4) (h5 : V' c main_v5 = (dat2 V c).arrAt 2 cfg2.N) :
    (dat2 V c).arrays ((dat2 V c).arrAt · cfg2.N) ⊢ (Pipeline.arrBufs spec2 c (V' c) : sProp 𝕄) := by
  rw [arrBufs2_eq, arrays2_eq, arrAt2_0, arrAt2_1, h4, h5]
  iintro ⟨Ha, Hb, H5⟩
  isplitr [H5]
  · iapply (pointsTo_share (PosShare.mem_left_op_right fullShare)).2
    isplitl [Ha]; · iexact Ha
    iexact Hb
  iexact H5

/-! ## Entry and exit of the invariant -/

theorem hin2 (c : Dev nD) : iprop((∃ r, prngReg c r) ∗ Pipeline.scopedRest spec2 c : sProp 𝕄) ⊢ (dat2 V c).Φ 0 := by
  show _ ⊢ Pipeline.ΦA spec2 c
  unfold Pipeline.ΦA
  iintro ⟨Hp, Hr⟩
  isplitl [Hr]; · iexact Hr
  iexact Hp

theorem hout2 (c : Dev nD) : (dat2 V c).Φ (Fin.last cfg2.N) ⊢ iprop((∃ r, prngReg c r) ∗ Pipeline.scopedRest spec2 c : sProp 𝕄) := by
  show Pipeline.ΦA spec2 c ⊢ _
  unfold Pipeline.ΦA
  iintro ⟨Hr, Hp⟩
  isplitl [Hp]; · iexact Hp
  iexact Hr

end Cert.Kernel.Hand

end
-- ==== Proof.LibSharedRegion.lean ====
/-
  A kernel region of a program of several regions, as a segment of @main, when the region's windows may read ONE
  array through several windows.

  The library's recipe for such a segment splits the region's arrays out of the core's unscoped buffers at entry and
  puts them back at exit, and both steps take the windows' arrays pairwise distinct. Here the two steps are
  hypotheses instead: `hsplit` deals the DISTINCT buffers behind the arrays, each whole at its entry contents, to the
  windows (an array read through several input windows is shared out among them, each window holding the share the
  proof data name for it); `hjoin` collects them again at the exit contents. Everything else is the segment the
  library's recipe builds for a kernel with no semaphore of its own and no prefetched table that owes nothing: the
  thread state around the region is "every unscoped buffer of the core at a valuation, the generator register at
  some state, nothing owed"; the unscoped buffers that are no window's array pass by the region; the region's
  invariant is entered from, and gives back, the generator register and the core's scoped buffers that are no
  staging buffer.
-/
import Idealize.ShloMosaic.Lib.Pipeline.Frame
import Idealize.ShloMosaic.Lib.Pipeline.Regions
import Idealize.ShloMosaic.Lib.Pipeline.RegionsLoop

noncomputable section

namespace Cert.SharedRegion

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- What rides beside the unscoped buffers through every segment: the core's generator register at some state and
    its `owes`, at nothing. -/
abbrev Ride (c : Dev nD) : sProp 𝕄 :=
  iprop((∃ r, prngReg c r) ∗ ∃ W, owes (c : Thread nD τ) (0 : CellTallies nD τ sig Unit) W)

/-- The thread state between two segments: every unscoped buffer of core `c` at the valuation `V`, beside `Ride`. -/
abbrev St (V : Valuation τ sig Val) (c : Dev nD) : sProp 𝕄 :=
  iprop(StableHlo.held (c : Thread nD τ) (ucRefs τ sig) V ∗ Ride (τ := τ) (sig := sig) (Val := Val) c)

variable (pcs : P → PCfg sig Λ₀ Val) (a : (p : P) → (pcs p).Adm)
  (pdats : (p : P) → (c : Dev nD) → Dat τ Val Unit ℕ (UR sig nD τ) ℕ (pin pcs a p) c)
  (defs₀ : Defs nD τ sig Val Λ₀) (𝒱₀ : Variants)
  (L : GSem nD τ sig → Finset Unit) (lv : GSem nD τ sig → Unit → ℕ)

set_option backward.isDefEq.respectTransparency.types false in
/-- The region `p` as a segment entered from `St (V c)` and left at `St (V' c)`, where `V'` has the region's arrays at
    what the pipeline leaves and agrees with `V` elsewhere (`hjoin`, `hrest`). -/
def regionSeg (p : P)
    (hw : WinFacts₀ (pcs p).spec)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c t, (pdats p c).recorded t = Set.univ)
    (hpf : ∀ c : Dev nD, (BI.emp : sProp 𝕄) ⊢ prefHeld (pcs p).pre c (fun _ => fullShare) (a p).1)
    (V V' : (c : Dev nD) → Valuation τ sig Val)
    (hsplit : ∀ c, (arrBufs (pin pcs a p).spec c (fun b => V c b) : sProp 𝕄) ⊢ (pdats p c).arrays ((pdats p c).arrAt · 0))
    (hjoin : ∀ c, (pdats p c).arrays ((pdats p c).arrAt · (pin pcs a p).N) ⊢ (arrBufs (pin pcs a p).spec c (fun b => V' c b) : sProp 𝕄))
    (hrest : ∀ c (b : Ref sig .tc), b ∉ Finset.univ.image (arrRef (pin pcs a p).spec) → V' c b = V c b)
    (hin : ∀ c, iprop((∃ r, prngReg c r) ∗ scopedRest (pin pcs a p).spec c : sProp 𝕄) ⊢ (pdats p c).Φ 0)
    (hout : ∀ c, (pdats p c).Φ (Fin.last (pin pcs a p).N) ⊢ iprop((∃ r, prngReg c r) ∗ scopedRest (pin pcs a p).spec c : sProp 𝕄)) :
    RegionSeg pcs a pdats () defs₀ 𝒱₀ L lv p where
  win := hw
  block_pos := hne
  stage_whole := hstage
  K := PEmpty
  osem k := k.elim
  ho := OwnSemFacts.none _
  hbody := hbody
  hwaits := hwaits_of_owed_zero pcs a pdats () L lv p howed
  pre c := St (V c) c
  post c := St (V' c) c
  X c := iprop(∃ r, prngReg c r)
  Y c := iprop(∃ r, prngReg c r)
  Z c := unscopedRest (Ix := Unit) (Name := ℕ) (U := UR sig nD τ) (Lvl := ℕ) (pin pcs a p).spec c (fun b => V c b)
  hentry c := by
    rw [ownSems0_none]
    have hs := unscopedBufs_split₀ (Ix := Unit) (Name := ℕ) (U := UR sig nD τ) (Lvl := ℕ) (pin pcs a) p hw.arr_unscoped c (fun b => V c b)
    rw [unscopedBufs_held] at hs
    unfold St
    rw [hs]
    iintro ⟨⟨⟨Ha, Hrest⟩, Hp, HO⟩, -, -⟩
    imodintro
    isplitl [Ha]; · iapply (hsplit c); iexact Ha
    isplitr; · iapply (hpf c); iempintro
    isplitl [HO]
    · unfold Dat.owesAt owesWithin
      rw [howed c 0]
      icases HO with ⟨%W, HO⟩; iexists W; isplitr
      · ipureintro; unfold Dat.bound; rw [hrec c 0]; exact fun _ _ => Or.inl trivial
      iexact HO
    isplitl [Hp]; · iexact Hp
    iexact Hrest
  hin c := by
    iintro ⟨Hp, -, Hr⟩
    iapply (hin c)
    isplitl [Hp]; · iexact Hp
    iexact Hr
  hout c := by
    rw [ownSems0_none]
    iintro H
    ihave H' := (hout c) $$ H
    icases H' with ⟨Hp, Hr⟩
    isplitl [Hp]; · iexact Hp
    isplitr; · iempintro
    iexact Hr
  hexit c := by
    have hs := unscopedBufs_split₀ (Ix := Unit) (Name := ℕ) (U := UR sig nD τ) (Lvl := ℕ) (pin pcs a) p hw.arr_unscoped c (fun b => V' c b)
    rw [unscopedBufs_held] at hs
    have hr : (unscopedRest (Ix := Unit) (Name := ℕ) (U := UR sig nD τ) (Lvl := ℕ) (pin pcs a p).spec c (fun b => V c b) : sProp 𝕄)
        ⊢ unscopedRest (pin pcs a p).spec c (fun b => V' c b) := by
      unfold unscopedRest
      exact Entails.of_eq (BI.bigSep_congr fun b hb => by dsimp only; rw [hrest c b (Finset.mem_sdiff.mp hb).2])
    unfold St
    rw [hs]
    iintro ⟨Ha, HO, HY, Hrest⟩
    imodintro
    isplitl [Ha Hrest]
    · isplitl [Ha]; · iapply (hjoin c); iexact Ha
      iapply hr; iexact Hrest
    isplitl [HY]; · iexact HY
    unfold Dat.owesAt owesWithin
    rw [howed c (Fin.last _)]
    icases HO with ⟨%W, -, HO⟩; iexists W; iexact HO

end Cert.SharedRegion

end
-- ==== Proof.KB.Main.lean ====
/-
  The whole run. @main is five items: a reshape of the first bias, the first aggregation layer, reshapes of the
  second bias and the decoder's bias, the second aggregation layer with the decode, the pairwise-distance kernel.
  Between two items the core's unscoped buffers are held whole at a valuation: the launch memory; then each host
  stretch's results folded in; then, after a kernel region, the region's output array at what its write-backs
  leave. Every weakly fair execution terminates, and the final memory holds every unscoped buffer at the last
  valuation — from which both the frame claim (the arguments are never written) and the result's value are read.
-/
import proofs.«108018_j7043746365844_1_alg».proof.Proof.KB.R0Body
import proofs.«108018_j7043746365844_1_alg».proof.Proof.KB.R0Seg
import proofs.«108018_j7043746365844_1_alg».proof.Proof.KB.R1Body
import proofs.«108018_j7043746365844_1_alg».proof.Proof.KB.R1Seg
import proofs.«108018_j7043746365844_1_alg».proof.Proof.KB.R2Dat
import proofs.«108018_j7043746365844_1_alg».proof.Proof.KB.R2Seg
import proofs.«108018_j7043746365844_1_alg».proof.Proof.LibSharedRegion
import proofs.«108018_j7043746365844_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.SharedRegion (St Ride)

variable (m : (ℓ : Loc nD τ sig) → Buf (Elt F) ℓ) (ρ : Dev nD → PrngReg)

/-! ## The buffers' contents between items -/

abbrev W0 : Dev nD → Valuation τ sig (Elt F) := fun c b => m (c, b)
abbrev W1 : Dev nD → Valuation τ sig (Elt F) := fun c => StableHlo.after hostOps0 (W0 m c)
abbrev T1 : (c : Dev nD) → (b : Ref sig .tc) → Buf (Elt F) ((c : Thread nD τ).loc b) := fun c b => W1 m c b
def W2 (c : Dev nD) : Valuation τ sig (Elt F) := Function.update (W1 m c) main_v1 ((dat0 (T1 m) c).arrAt 6 cfg0.N)
abbrev T2 : (c : Dev nD) → (b : Ref sig .tc) → Buf (Elt F) ((c : Thread nD τ).loc b) := fun c b => W2 m c b
abbrev W3 : Dev nD → Valuation τ sig (Elt F) := fun c => StableHlo.after hostOps1 (W2 m c)
abbrev T3 : (c : Dev nD) → (b : Ref sig .tc) → Buf (Elt F) ((c : Thread nD τ).loc b) := fun c b => W3 m c b
def W4 (c : Dev nD) : Valuation τ sig (Elt F) := Function.update (W3 m c) main_v4 ((dat1 (T3 m) c).arrAt 8 cfg1.N)
abbrev T4 : (c : Dev nD) → (b : Ref sig .tc) → Buf (Elt F) ((c : Thread nD τ).loc b) := fun c b => W4 m c b
def W5 (c : Dev nD) : Valuation τ sig (Elt F) := Function.update (W4 m c) main_v5 ((dat2 (T4 m) c).arrAt 2 cfg2.N)
abbrev T5 : (c : Dev nD) → (b : Ref sig .tc) → Buf (Elt F) ((c : Thread nD τ).loc b) := fun c b => W5 m c b

theorem W2_out (c : Dev nD) : T2 m c main_v1 = (dat0 (T1 m) c).arrAt 6 cfg0.N := by
  show W2 m c main_v1 = _
  unfold W2; exact Function.update_self ..
theorem W2_of_ne (c : Dev nD) (b : Ref sig .tc) (h : b ≠ main_v1) : T2 m c b = T1 m c b := by
  show W2 m c b = W1 m c b
  unfold W2; exact Function.update_of_ne (StableHlo.devRef_ne_of_ne h) ..
theorem W4_out (c : Dev nD) : T4 m c main_v4 = (dat1 (T3 m) c).arrAt 8 cfg1.N := by
  show W4 m c main_v4 = _
  unfold W4; exact Function.update_self ..
theorem W4_of_ne (c : Dev nD) (b : Ref sig .tc) (h : b ≠ main_v4) : T4 m c b = T3 m c b := by
  show W4 m c b = W3 m c b
  unfold W4; exact Function.update_of_ne (StableHlo.devRef_ne_of_ne h) ..
theorem W5_out (c : Dev nD) : T5 m c main_v5 = (dat2 (T4 m) c).arrAt 2 cfg2.N := by
  show W5 m c main_v5 = _
  unfold W5; exact Function.update_self ..
theorem W5_of_ne (c : Dev nD) (b : Ref sig .tc) (h : b ≠ main_v5) : T5 m c b = T4 m c b := by
  show W5 m c b = W4 m c b
  unfold W5; exact Function.update_of_ne (StableHlo.devRef_ne_of_ne h) ..

/-! ## The proof data family and the regions as segments -/

def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T4 m) c
abbrev 𝒱₀ : Variants := Variants.none
abbrev L : GSem nD τ sig → Finset Unit := fun _ => ∅
abbrev lv : GSem nD τ sig → Unit → ℕ := fun _ _ => 0

theorem hpf (p : Fin 3) (c : Dev nD) : (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

theorem not_mem_image {W : Nat} {f : Fin W → Ref sig .tc} {b : Ref sig .tc} (w : Fin W) (h : b ∉ Finset.univ.image f) : b ≠ f w :=
  fun e => h (Finset.mem_image.mpr ⟨w, Finset.mem_univ _, e.symm⟩)

set_option backward.isDefEq.respectTransparency.types false in
def reg0 : Pipeline.RegionSeg (pcfgs (F := F)) adm (pdats m) () defs₀ 𝒱₀ L lv 0 :=
  Cert.SharedRegion.regionSeg (pcfgs (F := F)) adm (pdats m) defs₀ 𝒱₀ L lv 0
    winFacts₀0 block_pos0 stage_whole0 (fun c => (body_obligation0 (T1 m) c).loose) (fun _ _ => rfl) (fun _ _ => rfl) (hpf 0)
    (W1 m) (W2 m) (hsplit0 (T1 m))
    (fun c => hjoin0 (T1 m) (T2 m) c (fun b hb => W2_of_ne m c b hb) (W2_out m c))
    (fun c b hb => W2_of_ne m c b (not_mem_image (f := Pipeline.arrRef spec0) 6 hb))
    (hin0 (T1 m)) (hout0 (T1 m))

set_option backward.isDefEq.respectTransparency.types false in
def reg1 : Pipeline.RegionSeg (pcfgs (F := F)) adm (pdats m) () defs₀ 𝒱₀ L lv 1 :=
  Cert.SharedRegion.regionSeg (pcfgs (F := F)) adm (pdats m) defs₀ 𝒱₀ L lv 1
    winFacts₀1 block_pos1 stage_whole1 (fun c => (body_obligation1 (T3 m) c).loose) (fun _ _ => rfl) (fun _ _ => rfl) (hpf 1)
    (W3 m) (W4 m) (hsplit1 (T3 m))
    (fun c => hjoin1 (T3 m) (T4 m) c (fun b hb => W4_of_ne m c b hb) (W4_out m c))
    (fun c b hb => W4_of_ne m c b (not_mem_image (f := Pipeline.arrRef spec1) 8 hb))
    (hin1 (T3 m)) (hout1 (T3 m))

set_option backward.isDefEq.respectTransparency.types false in
def reg2 : Pipeline.RegionSeg (pcfgs (F := F)) adm (pdats m) () defs₀ 𝒱₀ L lv 2 :=
  Cert.SharedRegion.regionSeg (pcfgs (F := F)) adm (pdats m) defs₀ 𝒱₀ L lv 2
    winFacts₀2 block_pos2 stage_whole2 (fun c => (body_obligation2 (T4 m) c).loose) (fun _ _ => rfl) (fun _ _ => rfl) (hpf 2)
    (W4 m) (W5 m) (hsplit2 (T4 m))
    (fun c => hjoin2 (T4 m) (T5 m) c (W5_of_ne m c main_v4 (by decide)) (W5_out m c))
    (fun c b hb => W5_of_ne m c b (not_mem_image (f := Pipeline.arrRef spec2) 2 hb))
    (hin2 (T4 m)) (hout2 (T4 m))

/-! ## @main as segments, and the launch -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun c => Ride (τ := τ) (sig := sig) (Val := Elt F) c)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]

theorem main_run (c : Dev nD) : main (F := F) c = Pipeline.Seg.run (segs m) := (main_chain c).trans (by chain_rfl)

set_option backward.isDefEq.respectTransparency.types false in
/-- THE RUN: every weakly fair execution of @main from memory `m` with zero counters terminates, nothing faulting,
    and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => St (W0 m c) c)
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (St (W5 m c) c : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments are never written -/

theorem W1_arg (c : Dev nD) (b : Ref sig .tc) (h : b ∉ hostOps0_W) : T1 m c b = m ((c : Thread nD τ).loc b) :=
  StableHlo.after_of_writes_sub hostOps0 _ hostOps0_writes h
theorem W3_arg (c : Dev nD) (b : Ref sig .tc) (h : b ∉ hostOps1_W) : T3 m c b = T2 m c b :=
  StableHlo.after_of_writes_sub hostOps1 _ hostOps1_writes h

/-- An argument array reaches the end as launched. -/
theorem W5_arg (c : Dev nD) (b : Ref sig .tc) (h5 : b ≠ main_v5) (h4 : b ≠ main_v4) (h3 : b ∉ hostOps1_W) (h1 : b ≠ main_v1) (h0 : b ∉ hostOps0_W) :
    T5 m c b = m ((c : Thread nD τ).loc b) :=
  (W5_of_ne m c b h5).trans <| (W4_of_ne m c b h4).trans <| (W3_arg m c b h3).trans <| (W2_of_ne m c b h1).trans (W1_arg m c b h0)

/-- THE FRAME: the claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W5_arg m c main_arg0 (by decide) (by decide) (by decide) (by decide) (by decide)),
    (h c _ (mem_uc main_arg1 (by decide))).trans (W5_arg m c main_arg1 (by decide) (by decide) (by decide) (by decide) (by decide)),
    (h c _ (mem_uc main_arg2 (by decide))).trans (W5_arg m c main_arg2 (by decide) (by decide) (by decide) (by decide) (by decide)),
    (h c _ (mem_uc main_arg3 (by decide))).trans (W5_arg m c main_arg3 (by decide) (by decide) (by decide) (by decide) (by decide)),
    (h c _ (mem_uc main_arg4 (by decide))).trans (W5_arg m c main_arg4 (by decide) (by decide) (by decide) (by decide) (by decide)),
    (h c _ (mem_uc main_arg5 (by decide))).trans (W5_arg m c main_arg5 (by decide) (by decide) (by decide) (by decide) (by decide)),
    (h c _ (mem_uc main_arg6 (by decide))).trans (W5_arg m c main_arg6 (by decide) (by decide) (by decide) (by decide) (by decide)),
    (h c _ (mem_uc main_arg7 (by decide))).trans (W5_arg m c main_arg7 (by decide) (by decide) (by decide) (by decide) (by decide)),
    (h c _ (mem_uc main_arg8 (by decide))).trans (W5_arg m c main_arg8 (by decide) (by decide) (by decide) (by decide) (by decide)),
    (h c _ (mem_uc main_arg9 (by decide))).trans (W5_arg m c main_arg9 (by decide) (by decide) (by decide) (by decide) (by decide))⟩) (run_all m ρ)

end Cert.Kernel.Hand

end
-- ==== Proof.KI.R0Base.lean ====
/-
  First aggregation layer, what its three control cases share.

  The layer's grid is 8 row blocks by 4 column blocks of the adjacency matrix. At a point (i, k) the body adds block
  (i, k)'s contribution to two accumulators it keeps between points: the neighbour sums (1024 x 512) and the
  degrees (1024 x 1). Column block 0 first clears both; column block 3 afterwards normalises, applies the two weight
  matrices, the bias and the rectifier, and stores the layer's 1024 x 128 output block. So a point is in one of three
  cases by its column block: first (A), middle (B), last (C).
-/
import proofs.«108018_j7043746365844_1_alg».proof.Proof.Gen.KernelIdeal.Launch
import proofs.«108018_j7043746365844_1_alg».proof.Proof.Gen.KernelIdeal.Skeleton
import proofs.«108018_j7043746365844_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "column block 0": the condition of the body's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "column block 3": the condition of the body's second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last column block the output window is idle and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x512 .f32 := Memref.whole cc0_scratch0
abbrev scM0_1 : Memref sig .tc .vmem S1024x1 .f32 := Memref.whole cc0_scratch1
abbrev VS0_0 : View sig .tc .vmem S1024x512 .f32 := scM0_0.view
abbrev VS0_1 : View sig .tc .vmem S1024x1 .f32 := scM0_1.view
abbrev VO0_6 : View sig .tc .vmem S1024x128 .f32 := (Memref.whole cc0_stg6_0 : Memref sig .tc .vmem S1024x128 .f32).view

end Cert.KernelIdeal.Hand

end
-- ==== Proof.KI.R0RunA.lean ====
/-
  First aggregation layer: the body run once in case A (column block 0).
-/
import proofs.«108018_j7043746365844_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Column block 0: the accumulators, found at anything, are cleared and then take the block's contribution. -/
noncomputable def kernelRun0_A (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x2048 .f32) (x1 : Vec F S2048x512 .f32) :
    Σ' (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__sage_kernel_body i arg2 harg2 arg3 harg3 arg4 harg4 arg5 harg5 arg6 harg6 arg7 harg7 arg8 harg8 arg9 harg9 arg10 harg10) K } := by
  refine ⟨?_, ?_, fun E K => ?run⟩
  case run =>
    simp only [cc0__sage_kernel_body_eq_skeleton]; unfold cc0__sage_kernel_body_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.R0RunB.lean ====
/-
  First aggregation layer: the body run once in case B (a middle column block).
-/
import proofs.«108018_j7043746365844_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column block: from the adjacency block `x0`, the feature block `x1` and the accumulators at `xs0`, `xs1`,
    the body leaves the accumulators with the block's contribution added (the stores it makes are the witness) and
    touches nothing else. -/
noncomputable def kernelRun0_B (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x2048 .f32) (x1 : Vec F S2048x512 .f32) (xs0 : Vec F S1024x512 .f32) (xs1 : Vec F S1024x1 .f32) :
    Σ' (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ owns (c : Thread nD τ) arg9 fullShare xs0 ∗ owns (c : Thread nD τ) arg10 fullShare xs1
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__sage_kernel_body i arg2 harg2 arg3 harg3 arg4 harg4 arg5 harg5 arg6 harg6 arg7 harg7 arg8 harg8 arg9 harg9 arg10 harg10) K } := by
  refine ⟨?_, ?_, fun E K => ?run⟩
  case run =>
    simp only [cc0__sage_kernel_body_eq_skeleton]; unfold cc0__sage_kernel_body_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.R0RunC.lean ====
/-
  First aggregation layer: the body run once in case C (column block 3).
-/
import proofs.«108018_j7043746365844_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Column block 3: the accumulators take the block's contribution; then the output block is stored whole, computed
    from the accumulators, the row block of the features, the two weight matrices and the bias. -/
noncomputable def kernelRun0_C (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x2048 .f32) (x1 : Vec F S2048x512 .f32) (x2 : Vec F S1024x512 .f32) (x3 : Vec F S512x128 .f32) (x4 : Vec F S512x128 .f32) (x5 : Vec F S1x128 .f32)
    (xs0 : Vec F S1024x512 .f32) (xs1 : Vec F S1024x1 .f32) :
    Σ' (L6 : List (View.Piece (Elt F) S1024x128 .f32)) (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__sage_kernel_body i arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_kernel_body_eq_skeleton]; unfold cc0__sage_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Hand

end
-- ==== Proof.KI.R0Outs.lean ====
/-
  First aggregation layer: what the accumulators and the output block hold after every grid point, the layer's
  proof data, and the body's obligation at every point.

  After the body at point t the two accumulators hold: at a first column block, the block's contribution alone; at a
  later one, what the point before left plus the block's contribution. The output block is stored at a last column
  block only; elsewhere its buffer passes through the body untouched and is not written back.
-/
import proofs.«108018_j7043746365844_1_alg».proof.Proof.KI.R0RunA
import proofs.«108018_j7043746365844_1_alg».proof.Proof.KI.R0RunB
import proofs.«108018_j7043746365844_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the stores cover the buffers, so the buffers hold the stores read back -/

theorem scover0_A_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) (y : S1024x512.Idx) :
    ∃ pc ∈ (kernelRun0_A c i arg2 harg2 arg3 harg3 arg4 harg4 arg5 harg5 arg6 harg6 arg7 harg7 arg8 harg8 arg9 harg9 arg10 harg10 hc0 hc1 x0 x1).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1).1 S1024x512.size (by sl_kernel_rfl) y
theorem scover0_A_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) (y : S1024x1.Idx) :
    ∃ pc ∈ (kernelRun0_A c i arg2 harg2 arg3 harg3 arg4 harg4 arg5 harg5 arg6 harg6 arg7 harg7 arg8 harg8 arg9 harg9 arg10 harg10 hc0 hc1 x0 x1).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1).2.1 S1024x1.size (by sl_kernel_rfl) y
/-- The neighbour-sum accumulator after case A. -/
def sout0_A_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) : Vec F S1024x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1).1)
/-- The degree accumulator after case A. -/
def sout0_A_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1).2.1)
theorem scover0_B_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) (y : S1024x512.Idx) :
    ∃ pc ∈ (kernelRun0_B c i arg2 harg2 arg3 harg3 arg4 harg4 arg5 harg5 arg6 harg6 arg7 harg7 arg8 harg8 arg9 harg9 arg10 harg10 hc0 hc1 x0 x1 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 xs0 xs1).1 S1024x512.size (by sl_kernel_rfl) y
theorem scover0_B_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 hc0 hc1 x0 x1 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 xs0 xs1).2.1 S1024x1.size (by sl_kernel_rfl) y
/-- The neighbour-sum accumulator after case B. -/
def sout0_B_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) : Vec F S1024x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 xs0 xs1).1)
/-- The degree accumulator after case B. -/
def sout0_B_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 xs0 xs1).2.1)
theorem scover0_C_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) (y : S1024x512.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S1024x512.size (by sl_kernel_rfl) y
theorem scover0_C_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y
/-- The neighbour-sum accumulator after case C. -/
def sout0_C_0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) : Vec F S1024x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)
/-- The degree accumulator after case C. -/
def sout0_C_1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)
theorem cover0_C_6 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y
/-- The output block after case C. -/
def out0_C_6 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) : Vec F S1024x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

end Cert.KernelIdeal.Hand

end
-- ==== Proof.KI.R0Dat.lean ====
/-
  First aggregation layer: the accumulation point by point, the proof data, the body's obligation.
-/
import proofs.«108018_j7043746365844_1_alg».proof.Proof.KI.R0Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for contents nothing reads: the output buffer off the last column block, the accumulators before the
    first point. -/
def junk0_6 : Vec F S1024x128 .f32 := VO0_6.read (Elt F) VO0_6.junk
def junk0_s : Vec F S1024x512 .f32 × Vec F S1024x1 .f32 := (VS0_0.read (Elt F) VS0_0.junk, VS0_1.read (Elt F) VS0_1.junk)

/-- ONE POINT. What the output buffer and the two accumulators hold after the body at point `t`, when the
    accumulators held `prev` before it: by the point's column block. -/
def step0 (c : Dev nD) (t : Fin cfg0.N) (prev : Vec F S1024x512 .f32 × Vec F S1024x1 .f32) :
    Vec F S1024x128 .f32 × Vec F S1024x512 .f32 × Vec F S1024x1 .f32 :=
  if h0 : t.val % 4 = 0 then
    (junk0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t))
  else if h1 : t.val % 4 = 3 then
    (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2)
  else
    (junk0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2)

theorem step0_A (c : Dev nD) (t : Fin cfg0.N) (prev) (h0 : t.val % 4 = 0) :
    step0 V c t prev = (junk0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)) := dif_pos h0
theorem step0_B (c : Dev nD) (t : Fin cfg0.N) (prev) (h0 : ¬t.val % 4 = 0) (h1 : ¬t.val % 4 = 3) :
    step0 V c t prev = (junk0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) prev.1 prev.2) := (dif_neg h0).trans (dif_neg h1)
theorem step0_C (c : Dev nD) (t : Fin cfg0.N) (prev) (h0 : ¬t.val % 4 = 0) (h1 : t.val % 4 = 3) :
    step0 V c t prev = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) prev.1 prev.2) := (dif_neg h0).trans (dif_pos h1)

/-- THE ACCUMULATION: the output buffer and the accumulators after the body at position `n`. -/
def outsAt0 (c : Dev nD) : (n : ℕ) → n < cfg0.N → Vec F S1024x128 .f32 × Vec F S1024x512 .f32 × Vec F S1024x1 .f32
  | 0, hn => step0 V c ⟨0, hn⟩ junk0_s
  | n + 1, hn => step0 V c ⟨n + 1, hn⟩ (outsAt0 c n (Nat.lt_of_succ_lt hn)).2

theorem outsAt0_zero (c : Dev nD) (t : Fin cfg0.N) (hz : t.val = 0) :
    outsAt0 V c t.val t.isLt = step0 V c t junk0_s := by
  obtain ⟨n, hn⟩ := t
  cases n with
  | zero => rfl
  | succ n => exact absurd hz (Nat.succ_ne_zero n)

theorem outsAt0_pos (c : Dev nD) (t : Fin cfg0.N) (hz : t.val ≠ 0) :
    outsAt0 V c t.val t.isLt = step0 V c t (outsAt0 V c (t.val - 1) (Nat.lt_of_le_of_lt (Nat.sub_le _ _) t.isLt)).2 := by
  obtain ⟨n, hn⟩ := t
  cases n with
  | zero => exact absurd rfl hz
  | succ n => rfl

/-! ## The region's invariant: the accumulators at what the point before left -/

def PhiS0 (c : Dev nD) : (n : ℕ) → n ≤ cfg0.N → sProp 𝕄
  | 0, _ => Pipeline.ΦA spec0 c
  | n + 1, hn => iprop(((owns (c : Thread nD τ) scM0_0 fullShare (outsAt0 V c n hn).2.1 ∗ owns (c : Thread nD τ) scM0_1 fullShare (outsAt0 V c n hn).2.2)
      ∗ Pipeline.scopedRestBut (Ix := Unit) (Name := ℕ) (U := UR sig nD τ) (Lvl := ℕ) (Val := Elt F) spec0 c [cc0_scratch0, cc0_scratch1]) ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(((owns (c : Thread nD τ) scM0_0 fullShare (outsAt0 V c n hn).2.1 ∗ owns (c : Thread nD τ) scM0_1 fullShare (outsAt0 V c n hn).2.2)
      ∗ Pipeline.scopedRestBut (Ix := Unit) (Name := ℕ) (U := UR sig nD τ) (Lvl := ℕ) (Val := Elt F) spec0 c [cc0_scratch0, cc0_scratch1]) ∗ ∃ r, prngReg c r) := rfl
theorem PhiS0_pos (c : Dev nD) (n : ℕ) (h : n ≤ cfg0.N) (hz : n ≠ 0) :
    PhiS0 V c n h = iprop(((owns (c : Thread nD τ) scM0_0 fullShare (outsAt0 V c (n - 1) (by omega)).2.1 ∗ owns (c : Thread nD τ) scM0_1 fullShare (outsAt0 V c (n - 1) (by omega)).2.2)
      ∗ Pipeline.scopedRestBut (Ix := Unit) (Name := ℕ) (U := UR sig nD τ) (Lvl := ℕ) (Val := Elt F) spec0 c [cc0_scratch0, cc0_scratch1]) ∗ ∃ r, prngReg c r) := by
  cases n with
  | zero => exact absurd rfl hz
  | succ n => rfl

/-- The class invariant with the two accumulators as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
      ∗ Pipeline.scopedRestBut (Ix := Unit) (Name := ℕ) (U := UR sig nD τ) (Lvl := ℕ) (Val := Elt F) spec0 c [cc0_scratch0, cc0_scratch1]) ∗ ∃ r, prngReg c r) := by
  unfold Pipeline.ΦA
  rw [Pipeline.scopedRest_split_of_list spec0 c [cc0_scratch0, cc0_scratch1] (by decide) (by decide)]
  simp only [scM0_0, scM0_1, owns_whole, Idealize.SL.BI.bigSepL_cons_cons, Idealize.SL.BI.bigSepL_singleton]
  rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  before0_0_of V (dat0 V c) (A_eq0 V c 0) (after0_0 V c) t d
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  before0_1_of V (dat0 V c) (A_eq0 V c 1) (after0_1 V c) t d
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  before0_2_of V (dat0 V c) (A_eq0 V c 2) (after0_2 V c) t d
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  before0_3_of V (dat0 V c) (A_eq0 V c 3) (after0_3 V c) t d
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  before0_4_of V (dat0 V c) (A_eq0 V c 4) (after0_4 V c) t d
theorem after0_5 (c : Dev nD) (t : Fin cfg0.N) : (dat0 V c).after 5 t = iblk0 V c 5 t := by dsimp only [dat0]
theorem before0_5 (c : Dev nD) (t : Fin cfg0.N) (d) : (dat0 V c).before 5 t d = iblk0 V c 5 t :=
  before0_5_of V (dat0 V c) (A_eq0 V c 5) (after0_5 V c) t d
theorem after0_6 (c : Dev nD) (t : Fin cfg0.N) : (dat0 V c).after 6 t = (outsAt0 V c t.val t.isLt).1 := by dsimp only [dat0]

end Cert.KernelIdeal.Hand

end
-- ==== Proof.KI.R0Body.lean ====
/-
  First aggregation layer: the body's obligation at every grid point, case by case.
-/
import proofs.«108018_j7043746365844_1_alg».proof.Proof.KI.R0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After a first column block: the block's contribution alone, whatever came before. -/
theorem outsAt0_A (c : Dev nD) (t : Fin cfg0.N) (h0 : t.val % 4 = 0) :
    outsAt0 V c t.val t.isLt = (junk0_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)) := by
  by_cases hz : t.val = 0
  · rw [outsAt0_zero V c t hz]; exact step0_A V c t _ h0
  · rw [outsAt0_pos V c t hz]; exact step0_A V c t _ h0
theorem outsAt0_B (c : Dev nD) (t : Fin cfg0.N) (h0 : ¬t.val % 4 = 0) (h1 : ¬t.val % 4 = 3) :
    outsAt0 V c t.val t.isLt = (junk0_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  have hz : t.val ≠ 0 := fun h => h0 (by rw [h])
  rw [outsAt0_pos V c t hz]; exact step0_B V c t _ h0 h1
theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  have hz : t.val ≠ 0 := fun h => h0 (by rw [h])
  rw [outsAt0_pos V c t hz]; exact step0_C V c t _ h0 h1

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 4 = 0
  · have hnc1 : ¬cond0_1 (grid0.coords t) := fun h => by have := (hcond0_1 t).mp h; omega
    rw [Dat.leavesExact_idle (dat0 V c) 6 t (idleAt0_6 t hnc1) (noFlush0_6 t hnc1)]
    rw [outsAt0_A V c t h0]
    unfold sout0_A_0 sout0_A_1; (try dsimp only)
    by_cases hz : t.val = 0
    ·
      rw [PhiS0_castSucc V c t, PhiS0_zero V c _ _ hz, PhiA0_eq]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, H6⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      rw [PhiS0_castSucc V c t, PhiS0_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, H6⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)).2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    by_cases h1 : t.val % 4 = 3
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_6 sout0_C_0 sout0_C_1; (try dsimp only)
      rw [PhiS0_castSucc V c t, PhiS0_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _)
    · have hnc1 : ¬cond0_1 (grid0.coords t) := fun h => h1 ((hcond0_1 t).mp h)
      rw [Dat.leavesExact_idle (dat0 V c) 6 t (idleAt0_6 t hnc1) (noFlush0_6 t hnc1)]
      rw [outsAt0_B V c t h0 h1]
      unfold sout0_B_0 sout0_B_1; (try dsimp only)
      rw [PhiS0_castSucc V c t, PhiS0_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, H6⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R0Seg.lean ====
/-
  First aggregation layer: its seven windows read six arrays — the feature matrix is read through two windows, by
  column block and by row block. At the region's entry the six buffers, each whole at its entry contents, are dealt to
  the windows, the feature matrix's two readers holding a half each; at the exit the halves are joined again, the
  inputs' arrays are as they were and the output's array is what the write-backs leave. The region's invariant starts
  from, and ends in, the accumulators at anything.
-/
import proofs.«108018_j7043746365844_1_alg».proof.Proof.KI.R0Dat
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct arrays behind the seven windows. -/
theorem arrRefs0 : Finset.univ.image (Pipeline.arrRef spec0) = [main_arg1, main_arg0, main_arg2, main_arg3, main_v0, main_v1].toFinset := by decide

theorem arr0_eq (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- The six distinct buffers, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_arg2) ↦{fullShare} W main_arg2) ∗ (((c : Thread nD τ).loc main_arg3) ↦{fullShare} W main_arg3) ∗ (((c : Thread nD τ).loc main_v0) ↦{fullShare} W main_v0) ∗ (((c : Thread nD τ).loc main_v1) ↦{fullShare} W main_v1)) := by
  unfold Pipeline.arrBufs
  exact Idealize.SL.BI.bigSep_eq_bigSepL_of_eq _ arrRefs0 (by decide) _

/-- The seven windows' arrays, one by one, each at its share. -/
theorem arrays0_eq (c : Dev nD) (G : (w : Fin cfg0.W) → Buf (Elt F) ((cfg0.win w).arr.view.loc (c : Thread nD τ))) :
    (dat0 V c).arrays G
      = iprop((((c : Thread nD τ).loc main_arg1) ↦{fullShare} G (0 : Fin cfg0.W)) ∗ (((c : Thread nD τ).loc main_arg0) ↦{fullShare.left} G (1 : Fin cfg0.W)) ∗ (((c : Thread nD τ).loc main_arg0) ↦{fullShare.right} G (2 : Fin cfg0.W)) ∗ (((c : Thread nD τ).loc main_arg2) ↦{fullShare} G (3 : Fin cfg0.W)) ∗ (((c : Thread nD τ).loc main_arg3) ↦{fullShare} G (4 : Fin cfg0.W)) ∗ (((c : Thread nD τ).loc main_v0) ↦{fullShare} G (5 : Fin cfg0.W)) ∗ (((c : Thread nD τ).loc main_v1) ↦{fullShare} G (6 : Fin cfg0.W))) := by
  unfold Dat.arrays
  rw [bigSep_W0, (arr_whole0 0).set_eq_univ, (arr_whole0 1).set_eq_univ, (arr_whole0 3).set_eq_univ, (arr_whole0 4).set_eq_univ, (arr_whole0 5).set_eq_univ, (arr_whole0 6).set_eq_univ,
    share0_0, share0_1, share0_2, share0_3, share0_4, share0_5, share0_6]

/-- ENTRY: the six buffers dealt to the seven windows. -/
theorem hsplit0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H1, H0, H2, H3, Hv0, Hv1⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  isplitl [Hv0]; · iexact Hv0
  iexact Hv1

/-- EXIT: the halves joined; the inputs' arrays as entered, the output's at what the write-backs leave. -/
theorem hjoin0 (V' : (c : Dev nD) → (b : Ref sig .tc) → Buf (Elt F) ((c : Thread nD τ).loc b)) (c : Dev nD)
    (h : ∀ b : Ref sig .tc, b ≠ main_v1 → V' c b = V c b) (h6 : V' c main_v1 = (dat0 V c).arrAt 6 cfg0.N) :
    (dat0 V c).arrays ((dat0 V c).arrAt · cfg0.N)
      ⊢ (Pipeline.arrBufs (Ix := Unit) (Name := ℕ) (U := UR sig nD τ) (Lvl := ℕ) spec0 c (V' c) : sProp 𝕄) := by
  have e0 : (dat0 V c).arrAt 0 cfg0.N = V' c main_arg1 :=
    ((dat0 V c).arrAt_in 0 rfl _).trans ((A_eq0 V c 0).trans (h main_arg1 (by decide)).symm)
  have p0 : ((((c : Thread nD τ).loc main_arg1) ↦{fullShare} (dat0 V c).arrAt 0 cfg0.N) : sProp 𝕄) ⊢ (((c : Thread nD τ).loc main_arg1) ↦{fullShare} V' c main_arg1) :=
    Entails.of_eq (by rw [e0])
  have e1 : (dat0 V c).arrAt 1 cfg0.N = V' c main_arg0 :=
    ((dat0 V c).arrAt_in 1 rfl _).trans ((A_eq0 V c 1).trans (h main_arg0 (by decide)).symm)
  have p1 : ((((c : Thread nD τ).loc main_arg0) ↦{fullShare.left} (dat0 V c).arrAt 1 cfg0.N) : sProp 𝕄) ⊢ (((c : Thread nD τ).loc main_arg0) ↦{fullShare.left} V' c main_arg0) :=
    Entails.of_eq (by rw [e1])
  have e2 : (dat0 V c).arrAt 2 cfg0.N = V' c main_arg0 :=
    ((dat0 V c).arrAt_in 2 rfl _).trans ((A_eq0 V c 2).trans (h main_arg0 (by decide)).symm)
  have p2 : ((((c : Thread nD τ).loc main_arg0) ↦{fullShare.right} (dat0 V c).arrAt 2 cfg0.N) : sProp 𝕄) ⊢ (((c : Thread nD τ).loc main_arg0) ↦{fullShare.right} V' c main_arg0) :=
    Entails.of_eq (by rw [e2])
  have e3 : (dat0 V c).arrAt 3 cfg0.N = V' c main_arg2 :=
    ((dat0 V c).arrAt_in 3 rfl _).trans ((A_eq0 V c 3).trans (h main_arg2 (by decide)).symm)
  have p3 : ((((c : Thread nD τ).loc main_arg2) ↦{fullShare} (dat0 V c).arrAt 3 cfg0.N) : sProp 𝕄) ⊢ (((c : Thread nD τ).loc main_arg2) ↦{fullShare} V' c main_arg2) :=
    Entails.of_eq (by rw [e3])
  have e4 : (dat0 V c).arrAt 4 cfg0.N = V' c main_arg3 :=
    ((dat0 V c).arrAt_in 4 rfl _).trans ((A_eq0 V c 4).trans (h main_arg3 (by decide)).symm)
  have p4 : ((((c : Thread nD τ).loc main_arg3) ↦{fullShare} (dat0 V c).arrAt 4 cfg0.N) : sProp 𝕄) ⊢ (((c : Thread nD τ).loc main_arg3) ↦{fullShare} V' c main_arg3) :=
    Entails.of_eq (by rw [e4])
  have e5 : (dat0 V c).arrAt 5 cfg0.N = V' c main_v0 :=
    ((dat0 V c).arrAt_in 5 rfl _).trans ((A_eq0 V c 5).trans (h main_v0 (by decide)).symm)
  have p5 : ((((c : Thread nD τ).loc main_v0) ↦{fullShare} (dat0 V c).arrAt 5 cfg0.N) : sProp 𝕄) ⊢ (((c : Thread nD τ).loc main_v0) ↦{fullShare} V' c main_v0) :=
    Entails.of_eq (by rw [e5])
  have p6 : ((((c : Thread nD τ).loc main_v1) ↦{fullShare} (dat0 V c).arrAt 6 cfg0.N) : sProp 𝕄) ⊢ (((c : Thread nD τ).loc main_v1) ↦{fullShare} V' c main_v1) :=
    Entails.of_eq (by rw [h6])
  rw [arrBufs0_eq, arrays0_eq]
  iintro ⟨H1, H0l, H0r, H2, H3, Hv0, Hv1⟩
  isplitl [H1]; · iapply p0; iexact H1
  isplitl [H0l H0r]
  · iapply (pointsTo_share (PosShare.mem_left_op_right fullShare)).2
    isplitl [H0l]; · iapply p1; iexact H0l
    iapply p2; iexact H0r
  isplitl [H2]; · iapply p3; iexact H2
  isplitl [H3]; · iapply p4; iexact H3
  isplitl [Hv0]; · iapply p5; iexact Hv0
  iapply p6; iexact Hv1

/-- The invariant before the first point is the accumulators at anything, -/
theorem hin0 (c : Dev nD) :
    iprop((∃ r, prngReg c r) ∗ Pipeline.scopedRest (Ix := Unit) (Name := ℕ) (U := UR sig nD τ) (Lvl := ℕ) (Val := Elt F) spec0 c : sProp 𝕄) ⊢ (dat0 V c).Φ 0 := by
  rw [show (dat0 V c).Φ 0 = PhiS0 V c 0 (Nat.zero_le _) from rfl, PhiS0_zero V c 0 _ rfl]
  unfold Pipeline.ΦA
  iintro ⟨Hg, Hr⟩
  isplitl [Hr]; · iexact Hr
  iexact Hg

/-- and after the last point their contents are forgotten. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c : sProp 𝕄) := by
  have hN : cfg0.N = 32 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega)]
  have hA := PhiA0_eq (F := F) c
  unfold Pipeline.ΦA at hA
  iintro ⟨⟨⟨HS0, HS1⟩, HB⟩, Hg⟩
  isplitl [Hg]; · iexact Hg
  rw [show (Pipeline.scopedRest (Ix := Unit) (Name := ℕ) (U := UR sig nD τ) (Lvl := ℕ) (Val := Elt F) spec0 c : sProp 𝕄)
    = iprop(((∃ d, owns (c : Thread nD τ) scM0_0 fullShare d) ∗ (∃ d, owns (c : Thread nD τ) scM0_1 fullShare d))
      ∗ Pipeline.scopedRestBut (Ix := Unit) (Name := ℕ) (U := UR sig nD τ) (Lvl := ℕ) (Val := Elt F) spec0 c [cc0_scratch0, cc0_scratch1]) from by
    rw [Pipeline.scopedRest_split_of_list spec0 c [cc0_scratch0, cc0_scratch1] (by decide) (by decide)]
    simp only [scM0_0, scM0_1, owns_whole, Idealize.SL.BI.bigSepL_cons_cons, Idealize.SL.BI.bigSepL_singleton]
    rfl]
  isplitl [HS0 HS1]
  · isplitl [HS0]; · iexists _; iexact HS0
    iexists _; iexact HS1
  iexact HB

end Cert.KernelIdeal.Hand

end
-- ==== Proof.KI.R1Base.lean ====
/-
  Second aggregation layer with the linear decode, what its three control cases share: a point of the 8 x 4 grid is in one of three cases by its column
  block — first (the accumulators are cleared, then take the block's contribution), middle (they take the block's
  contribution), last (they take it, and the output block is computed from them and stored).
-/
import proofs.«108018_j7043746365844_1_alg».proof.Proof.Gen.KernelIdeal.Launch
import proofs.«108018_j7043746365844_1_alg».proof.Proof.Gen.KernelIdeal.Skeleton
import proofs.«108018_j7043746365844_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "column block 0": the condition of the body's first conditional. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "column block 3": the condition of the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Off the last column block the output window is idle and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x3 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x3 .f32 := win1_8.stage (cfg1.slots t 8)
abbrev hs1_8 (t : Fin cfg1.N) : (ms1_8 t).IsWhole := hstage1_8 ((cfg1.slots t 8).cast nbuf1_8)
/-- The two accumulators: whole scoped buffers of the kernel's own. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view
abbrev VO1_8 : View sig .tc .vmem S1024x3 .f32 := (Memref.whole cc1_stg8_0 : Memref sig .tc .vmem S1024x3 .f32).view

end Cert.KernelIdeal.Hand

end
-- ==== Proof.KI.R1RunA.lean ====
/-
  Second aggregation layer with the linear decode: the body run once in case A.
-/
import proofs.«108018_j7043746365844_1_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Column block 0: the accumulators, found at anything, are cleared and then take the block's contribution. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i)
    (x0 : Vec F S1024x2048 .f32) (x1 : Vec F S2048x128 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1__sage_decode_kernel_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__sage_decode_kernel_body_eq_skeleton]; unfold cc1__sage_decode_kernel_body_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.R1RunB.lean ====
/-
  Second aggregation layer with the linear decode: the body run once in case B.
-/
import proofs.«108018_j7043746365844_1_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle column block: the accumulators take the block's contribution; nothing else is touched. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i)
    (x0 : Vec F S1024x2048 .f32) (x1 : Vec F S2048x128 .f32) (xs0 : Vec F S1024x128 .f32) (xs1 : Vec F S1024x1 .f32) :
    Σ' (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ owns (c : Thread nD τ) arg11 fullShare xs0 ∗ owns (c : Thread nD τ) arg12 fullShare xs1
            ∗ (iprop(owns (c : Thread nD τ) arg2 fullShare x0 ∗ owns (c : Thread nD τ) arg3 fullShare x1
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1__sage_decode_kernel_body i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__sage_decode_kernel_body_eq_skeleton]; unfold cc1__sage_decode_kernel_body_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    iexists _; iexact HS1

end Cert.KernelIdeal.Hand

end
-- ==== Proof.KI.R1RunC.lean ====
/-
  Second aggregation layer with the linear decode: the body run once in case C.
-/
import proofs.«108018_j7043746365844_1_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Column block 3: the accumulators take the block's contribution; then the output block is stored whole, computed
    from the accumulators and the other operands. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i)
    (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32)
    (xs0 : Vec F S1024x128 .f32) (xs1 : Vec F S1024x1 .f32) :
    Σ' (L8 : List (View.Piece (Elt F) S1024x3 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d)
            ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1__sage_decode_kernel_body i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__sage_decode_kernel_body_eq_skeleton]; unfold cc1__sage_decode_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.KernelIdeal.Hand

end
-- ==== Proof.KI.R1Outs.lean ====
/-
  Second aggregation layer with the linear decode: each case's stores cover the buffers they go to, so after the case the accumulators (and, in the
  last case, the output block) hold the stores read back.
-/
import proofs.«108018_j7043746365844_1_alg».proof.Proof.KI.R1RunA
import proofs.«108018_j7043746365844_1_alg».proof.Proof.KI.R1RunB
import proofs.«108018_j7043746365844_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem scover1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) (y : S1024x128.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1).1 S1024x128.size (by sl_kernel_rfl) y
theorem scover1_A_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) (y : S1024x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1).2.1 S1024x1.size (by sl_kernel_rfl) y
/-- The neighbour-sum accumulator after case A. -/
def sout1_A_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1).1)
/-- The degree accumulator after case A. -/
def sout1_A_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1).2.1)
theorem scover1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) (y : S1024x128.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 xs0 xs1).1 S1024x128.size (by sl_kernel_rfl) y
theorem scover1_B_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 xs0 xs1).2.1 S1024x1.size (by sl_kernel_rfl) y
/-- The neighbour-sum accumulator after case B. -/
def sout1_B_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 xs0 xs1).1)
/-- The degree accumulator after case B. -/
def sout1_B_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 xs0 xs1).2.1)
theorem scover1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) (y : S1024x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 S1024x128.size (by sl_kernel_rfl) y
theorem scover1_C_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 S1024x1.size (by sl_kernel_rfl) y
/-- The neighbour-sum accumulator after case C. -/
def sout1_C_0 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
/-- The degree accumulator after case C. -/
def sout1_C_1 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1)
theorem cover1_C_8 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) (y : S1024x3.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 S1024x3.size (by sl_kernel_rfl) y
/-- The output block after case C. -/
def out1_C_8 (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) : Vec F S1024x3 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1)

end Cert.KernelIdeal.Hand

end
-- ==== Proof.KI.R1Dat.lean ====
/-
  Second aggregation layer with the linear decode: the accumulation point by point and the region's proof data.

  After the body at point t the two accumulators hold: at a first column block, the block's contribution alone; at a
  later one, what the point before left plus the block's contribution. The output block is stored at a last column
  block only; elsewhere its buffer passes through the body untouched and is not written back.
-/
import proofs.«108018_j7043746365844_1_alg».proof.Proof.KI.R1Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Placeholders for contents nothing reads. -/
def junk1_o : Vec F S1024x3 .f32 := VO1_8.read (Elt F) VO1_8.junk
def junk1_s : Vec F S1024x128 .f32 × Vec F S1024x1 .f32 := (VS1_0.read (Elt F) VS1_0.junk, VS1_1.read (Elt F) VS1_1.junk)

/-- ONE POINT: the output buffer and the two accumulators after the body at point `t`, when the accumulators held
    `prev` before it, by the point's column block. -/
def step1 (c : Dev nD) (t : Fin cfg1.N) (prev : Vec F S1024x128 .f32 × Vec F S1024x1 .f32) :
    Vec F S1024x3 .f32 × Vec F S1024x128 .f32 × Vec F S1024x1 .f32 :=
  if h0 : t.val % 4 = 0 then
    (junk1_o, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t))
  else if h1 : t.val % 4 = 3 then
    (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2)
  else
    (junk1_o, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2)

theorem step1_A (c : Dev nD) (t : Fin cfg1.N) (prev) (h0 : t.val % 4 = 0) :
    step1 V c t prev = (junk1_o, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)) := dif_pos h0
theorem step1_B (c : Dev nD) (t : Fin cfg1.N) (prev) (h0 : ¬t.val % 4 = 0) (h1 : ¬t.val % 4 = 3) :
    step1 V c t prev = (junk1_o, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2) := (dif_neg h0).trans (dif_neg h1)
theorem step1_C (c : Dev nD) (t : Fin cfg1.N) (prev) (h0 : ¬t.val % 4 = 0) (h1 : t.val % 4 = 3) :
    step1 V c t prev = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) prev.1 prev.2) := (dif_neg h0).trans (dif_pos h1)

/-- THE ACCUMULATION: the output buffer and the accumulators after the body at position `n`. -/
def outsAt1 (c : Dev nD) : (n : ℕ) → n < cfg1.N → Vec F S1024x3 .f32 × Vec F S1024x128 .f32 × Vec F S1024x1 .f32
  | 0, hn => step1 V c ⟨0, hn⟩ junk1_s
  | n + 1, hn => step1 V c ⟨n + 1, hn⟩ (outsAt1 c n (Nat.lt_of_succ_lt hn)).2

theorem outsAt1_zero (c : Dev nD) (t : Fin cfg1.N) (hz : t.val = 0) :
    outsAt1 V c t.val t.isLt = step1 V c t junk1_s := by
  obtain ⟨n, hn⟩ := t
  cases n with
  | zero => rfl
  | succ n => exact absurd hz (Nat.succ_ne_zero n)

theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)).2 := by
  obtain ⟨n, hn⟩ := t
  cases n with
  | zero => exact absurd rfl hz
  | succ n => rfl

/-! ## The region's invariant: the accumulators at what the point before left -/

def PhiS1 (c : Dev nD) : (n : ℕ) → n ≤ cfg1.N → sProp 𝕄
  | 0, _ => Pipeline.ΦA spec1 c
  | n + 1, hn => iprop(((owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1]) ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(((owns (c : Thread nD τ) scM1_0 fullShare (outsAt1 V c n hn).2.1 ∗ owns (c : Thread nD τ) scM1_1 fullShare (outsAt1 V c n hn).2.2)
      ∗ Pipeline.scopedRestBut (Ix := Unit) (Name := ℕ) (U := UR sig nD τ) (Lvl := ℕ) (Val := Elt F) spec1 c [cc1_scratch0, cc1_scratch1]) ∗ ∃ r, prngReg c r) := rfl
theorem PhiS1_pos (c : Dev nD) (n : ℕ) (h : n ≤ cfg1.N) (hz : n ≠ 0) :
    PhiS1 V c n h = iprop(((owns (c : Thread nD τ) scM1_0 fullShare (outsAt1 V c (n - 1) (by omega)).2.1 ∗ owns (c : Thread nD τ) scM1_1 fullShare (outsAt1 V c (n - 1) (by omega)).2.2)
      ∗ Pipeline.scopedRestBut (Ix := Unit) (Name := ℕ) (U := UR sig nD τ) (Lvl := ℕ) (Val := Elt F) spec1 c [cc1_scratch0, cc1_scratch1]) ∗ ∃ r, prngReg c r) := by
  cases n with
  | zero => exact absurd rfl hz
  | succ n => rfl

/-- The class invariant with the two accumulators as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) ∗ ∃ r, prngReg c r) := by
  unfold Pipeline.ΦA
  rw [Pipeline.scopedRest_split_of_list spec1 c [cc1_scratch0, cc1_scratch1] (by decide) (by decide)]
  simp only [scM1_0, scM1_1, owns_whole, Idealize.SL.BI.bigSepL_cons_cons, Idealize.SL.BI.bigSepL_singleton]
  rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  before1_0_of V (dat1 V c) (A_eq1 V c 0) (after1_0 V c) t d
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  before1_1_of V (dat1 V c) (A_eq1 V c 1) (after1_1 V c) t d
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  before1_2_of V (dat1 V c) (A_eq1 V c 2) (after1_2 V c) t d
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  before1_3_of V (dat1 V c) (A_eq1 V c 3) (after1_3 V c) t d
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  before1_4_of V (dat1 V c) (A_eq1 V c 4) (after1_4 V c) t d
theorem after1_5 (c : Dev nD) (t : Fin cfg1.N) : (dat1 V c).after 5 t = iblk1 V c 5 t := by dsimp only [dat1]
theorem before1_5 (c : Dev nD) (t : Fin cfg1.N) (d) : (dat1 V c).before 5 t d = iblk1 V c 5 t :=
  before1_5_of V (dat1 V c) (A_eq1 V c 5) (after1_5 V c) t d
theorem after1_6 (c : Dev nD) (t : Fin cfg1.N) : (dat1 V c).after 6 t = iblk1 V c 6 t := by dsimp only [dat1]
theorem before1_6 (c : Dev nD) (t : Fin cfg1.N) (d) : (dat1 V c).before 6 t d = iblk1 V c 6 t :=
  before1_6_of V (dat1 V c) (A_eq1 V c 6) (after1_6 V c) t d
theorem after1_7 (c : Dev nD) (t : Fin cfg1.N) : (dat1 V c).after 7 t = iblk1 V c 7 t := by dsimp only [dat1]
theorem before1_7 (c : Dev nD) (t : Fin cfg1.N) (d) : (dat1 V c).before 7 t d = iblk1 V c 7 t :=
  before1_7_of V (dat1 V c) (A_eq1 V c 7) (after1_7 V c) t d
theorem after1_8 (c : Dev nD) (t : Fin cfg1.N) : (dat1 V c).after 8 t = (outsAt1 V c t.val t.isLt).1 := by dsimp only [dat1]

/-- After a first column block: the block's contribution alone, whatever came before. -/
theorem outsAt1_A (c : Dev nD) (t : Fin cfg1.N) (h0 : t.val % 4 = 0) :
    outsAt1 V c t.val t.isLt = (junk1_o, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)) := by
  by_cases hz : t.val = 0
  · rw [outsAt1_zero V c t hz]; exact step1_A V c t _ h0
  · rw [outsAt1_pos V c t hz]; exact step1_A V c t _ h0
theorem outsAt1_B (c : Dev nD) (t : Fin cfg1.N) (h0 : ¬t.val % 4 = 0) (h1 : ¬t.val % 4 = 3) :
    outsAt1 V c t.val t.isLt = (junk1_o, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  have hz : t.val ≠ 0 := fun h => h0 (by rw [h])
  rw [outsAt1_pos V c t hz]; exact step1_B V c t _ h0 h1
theorem outsAt1_C (c : Dev nD) (t : Fin cfg1.N) (h0 : ¬t.val % 4 = 0) (h1 : t.val % 4 = 3) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2) := by
  have hz : t.val ≠ 0 := fun h => h0 (by rw [h])
  rw [outsAt1_pos V c t hz]; exact step1_C V c t _ h0 h1

end Cert.KernelIdeal.Hand

end
-- ==== Proof.KI.R1Body.lean ====
/-
  Second aggregation layer with the linear decode: the body's obligation at every grid point, case by case.
-/
import proofs.«108018_j7043746365844_1_alg».proof.Proof.KI.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 4 = 0
  · have hnc1 : ¬cond1_1 (grid1.coords t) := fun h => by have := (hcond1_1 t).mp h; omega
    rw [Dat.leavesExact_idle (dat1 V c) 8 t (idleAt1_8 t hnc1) (noFlush1_8 t hnc1)]
    rw [outsAt1_A V c t h0]
    unfold sout1_A_0 sout1_A_1; (try dsimp only)
    by_cases hz : t.val = 0
    ·
      rw [PhiS1_castSucc V c t, PhiS1_zero V c _ _ hz, PhiA1_eq]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    ·
      rw [PhiS1_castSucc V c t, PhiS1_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => by have := (hcond1_1 t).mp h; omega) (iblk1 V c 0 t) (iblk1 V c 1 t)).2.2 Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun h => h0 (by rw [h])
    by_cases h1 : t.val % 4 = 3
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C_8 sout1_C_0 sout1_C_1; (try dsimp only)
      rw [PhiS1_castSucc V c t, PhiS1_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _ _)
    · have hnc1 : ¬cond1_1 (grid1.coords t) := fun h => h1 ((hcond1_1 t).mp h)
      rw [Dat.leavesExact_idle (dat1 V c) 8 t (idleAt1_8 t hnc1) (noFlush1_8 t hnc1)]
      rw [outsAt1_B V c t h0 h1]
      unfold sout1_B_0 sout1_B_1; (try dsimp only)
      rw [PhiS1_castSucc V c t, PhiS1_pos V c _ _ hz]
      iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 HB Hg]
      · isplitl [HS0 HS1 HB]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R1Seg.lean ====
/-
  Second aggregation layer with the linear decode: its 9 windows read 8 arrays — one matrix is read through two windows, by column block and by row
  block. At the region's entry the buffers, each whole at its entry contents, are dealt to the windows, that
  matrix's two readers holding a half each; at the exit the halves are joined again, the inputs' arrays are as they
  were and the output's array is what the write-backs leave. The region's invariant starts from, and ends in, the
  accumulators at anything.
-/
import proofs.«108018_j7043746365844_1_alg».proof.Proof.KI.R1Dat
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct arrays behind the windows. -/
theorem arrRefs1 : Finset.univ.image (Pipeline.arrRef spec1) = [main_arg1, main_v1, main_arg5, main_arg6, main_v2, main_arg8, main_v3, main_v4].toFinset := by decide

theorem arr1_eq (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = (((c : Thread nD τ).loc (Pipeline.arrRef spec1 w)) ↦{q} f) := by
  rw [(arr_whole1 w).set_eq_univ]

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl

theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v1) ↦{fullShare} W main_v1) ∗ (((c : Thread nD τ).loc main_arg5) ↦{fullShare} W main_arg5) ∗ (((c : Thread nD τ).loc main_arg6) ↦{fullShare} W main_arg6) ∗ (((c : Thread nD τ).loc main_v2) ↦{fullShare} W main_v2) ∗ (((c : Thread nD τ).loc main_arg8) ↦{fullShare} W main_arg8) ∗ (((c : Thread nD τ).loc main_v3) ↦{fullShare} W main_v3) ∗ (((c : Thread nD τ).loc main_v4) ↦{fullShare} W main_v4)) := by
  unfold Pipeline.arrBufs
  exact Idealize.SL.BI.bigSep_eq_bigSepL_of_eq _ arrRefs1 (by decide) _

set_option maxHeartbeats 4000000 in
theorem arrays1_eq (c : Dev nD) (G : (w : Fin cfg1.W) → Buf (Elt F) ((cfg1.win w).arr.view.loc (c : Thread nD τ))) :
    (dat1 V c).arrays G
      = iprop((((c : Thread nD τ).loc main_arg1) ↦{fullShare} G (0 : Fin cfg1.W)) ∗ (((c : Thread nD τ).loc main_v1) ↦{fullShare.left} G (1 : Fin cfg1.W)) ∗ (((c : Thread nD τ).loc main_v1) ↦{fullShare.right} G (2 : Fin cfg1.W)) ∗ (((c : Thread nD τ).loc main_arg5) ↦{fullShare} G (3 : Fin cfg1.W)) ∗ (((c : Thread nD τ).loc main_arg6) ↦{fullShare} G (4 : Fin cfg1.W)) ∗ (((c : Thread nD τ).loc main_v2) ↦{fullShare} G (5 : Fin cfg1.W)) ∗ (((c : Thread nD τ).loc main_arg8) ↦{fullShare} G (6 : Fin cfg1.W)) ∗ (((c : Thread nD τ).loc main_v3) ↦{fullShare} G (7 : Fin cfg1.W)) ∗ (((c : Thread nD τ).loc main_v4) ↦{fullShare} G (8 : Fin cfg1.W))) := by
  unfold Dat.arrays
  rw [bigSep_W1, (arr_whole1 0).set_eq_univ, (arr_whole1 1).set_eq_univ, (arr_whole1 3).set_eq_univ, (arr_whole1 4).set_eq_univ, (arr_whole1 5).set_eq_univ, (arr_whole1 6).set_eq_univ, (arr_whole1 7).set_eq_univ, (arr_whole1 8).set_eq_univ,
    share1_0, share1_1, share1_2, share1_3, share1_4, share1_5, share1_6, share1_7, share1_8]

/-- ENTRY: the buffers dealt to the windows. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨B0, B1, B2, B3, B4, B5, B6, B7⟩
  ihave B1' := (pointsTo_share (PosShare.mem_left_op_right fullShare)).1 $$ B1
  icases B1' with ⟨B1l, B1r⟩
  isplitl [B0]; · iexact B0
  isplitl [B1l]; · iexact B1l
  isplitl [B1r]; · iexact B1r
  isplitl [B2]; · iexact B2
  isplitl [B3]; · iexact B3
  isplitl [B4]; · iexact B4
  isplitl [B5]; · iexact B5
  isplitl [B6]; · iexact B6
  iexact B7

/-- EXIT: the halves joined; the inputs' arrays as entered, the output's at what the write-backs leave. -/
theorem hjoin1 (V' : (c : Dev nD) → (b : Ref sig .tc) → Buf (Elt F) ((c : Thread nD τ).loc b)) (c : Dev nD)
    (h : ∀ b : Ref sig .tc, b ≠ main_v4 → V' c b = V c b) (hout : V' c main_v4 = (dat1 V c).arrAt 8 cfg1.N) :
    (dat1 V c).arrays ((dat1 V c).arrAt · cfg1.N)
      ⊢ (Pipeline.arrBufs (Ix := Unit) (Name := ℕ) (U := UR sig nD τ) (Lvl := ℕ) spec1 c (V' c) : sProp 𝕄) := by
  have e0 : (dat1 V c).arrAt 0 cfg1.N = V' c main_arg1 :=
    ((dat1 V c).arrAt_in 0 rfl _).trans ((A_eq1 V c 0).trans (h main_arg1 (by decide)).symm)
  have p0 : ((((c : Thread nD τ).loc main_arg1) ↦{fullShare} (dat1 V c).arrAt 0 cfg1.N) : sProp 𝕄) ⊢ (((c : Thread nD τ).loc main_arg1) ↦{fullShare} V' c main_arg1) :=
    Entails.of_eq (by rw [e0])
  have e1 : (dat1 V c).arrAt 1 cfg1.N = V' c main_v1 :=
    ((dat1 V c).arrAt_in 1 rfl _).trans ((A_eq1 V c 1).trans (h main_v1 (by decide)).symm)
  have p1 : ((((c : Thread nD τ).loc main_v1) ↦{fullShare.left} (dat1 V c).arrAt 1 cfg1.N) : sProp 𝕄) ⊢ (((c : Thread nD τ).loc main_v1) ↦{fullShare.left} V' c main_v1) :=
    Entails.of_eq (by rw [e1])
  have e2 : (dat1 V c).arrAt 2 cfg1.N = V' c main_v1 :=
    ((dat1 V c).arrAt_in 2 rfl _).trans ((A_eq1 V c 2).trans (h main_v1 (by decide)).symm)
  have p2 : ((((c : Thread nD τ).loc main_v1) ↦{fullShare.right} (dat1 V c).arrAt 2 cfg1.N) : sProp 𝕄) ⊢ (((c : Thread nD τ).loc main_v1) ↦{fullShare.right} V' c main_v1) :=
    Entails.of_eq (by rw [e2])
  have e3 : (dat1 V c).arrAt 3 cfg1.N = V' c main_arg5 :=
    ((dat1 V c).arrAt_in 3 rfl _).trans ((A_eq1 V c 3).trans (h main_arg5 (by decide)).symm)
  have p3 : ((((c : Thread nD τ).loc main_arg5) ↦{fullShare} (dat1 V c).arrAt 3 cfg1.N) : sProp 𝕄) ⊢ (((c : Thread nD τ).loc main_arg5) ↦{fullShare} V' c main_arg5) :=
    Entails.of_eq (by rw [e3])
  have e4 : (dat1 V c).arrAt 4 cfg1.N = V' c main_arg6 :=
    ((dat1 V c).arrAt_in 4 rfl _).trans ((A_eq1 V c 4).trans (h main_arg6 (by decide)).symm)
  have p4 : ((((c : Thread nD τ).loc main_arg6) ↦{fullShare} (dat1 V c).arrAt 4 cfg1.N) : sProp 𝕄) ⊢ (((c : Thread nD τ).loc main_arg6) ↦{fullShare} V' c main_arg6) :=
    Entails.of_eq (by rw [e4])
  have e5 : (dat1 V c).arrAt 5 cfg1.N = V' c main_v2 :=
    ((dat1 V c).arrAt_in 5 rfl _).trans ((A_eq1 V c 5).trans (h main_v2 (by decide)).symm)
  have p5 : ((((c : Thread nD τ).loc main_v2) ↦{fullShare} (dat1 V c).arrAt 5 cfg1.N) : sProp 𝕄) ⊢ (((c : Thread nD τ).loc main_v2) ↦{fullShare} V' c main_v2) :=
    Entails.of_eq (by rw [e5])
  have e6 : (dat1 V c).arrAt 6 cfg1.N = V' c main_arg8 :=
    ((dat1 V c).arrAt_in 6 rfl _).trans ((A_eq1 V c 6).trans (h main_arg8 (by decide)).symm)
  have p6 : ((((c : Thread nD τ).loc main_arg8) ↦{fullShare} (dat1 V c).arrAt 6 cfg1.N) : sProp 𝕄) ⊢ (((c : Thread nD τ).loc main_arg8) ↦{fullShare} V' c main_arg8) :=
    Entails.of_eq (by rw [e6])
  have e7 : (dat1 V c).arrAt 7 cfg1.N = V' c main_v3 :=
    ((dat1 V c).arrAt_in 7 rfl _).trans ((A_eq1 V c 7).trans (h main_v3 (by decide)).symm)
  have p7 : ((((c : Thread nD τ).loc main_v3) ↦{fullShare} (dat1 V c).arrAt 7 cfg1.N) : sProp 𝕄) ⊢ (((c : Thread nD τ).loc main_v3) ↦{fullShare} V' c main_v3) :=
    Entails.of_eq (by rw [e7])
  have p8 : ((((c : Thread nD τ).loc main_v4) ↦{fullShare} (dat1 V c).arrAt 8 cfg1.N) : sProp 𝕄) ⊢ (((c : Thread nD τ).loc main_v4) ↦{fullShare} V' c main_v4) :=
    Entails.of_eq (by rw [hout])
  rw [arrBufs1_eq, arrays1_eq]
  iintro ⟨A0, A1, A2, A3, A4, A5, A6, A7, A8⟩
  isplitl [A0]; · iapply p0; iexact A0
  isplitl [A1 A2]
  · iapply (pointsTo_share (PosShare.mem_left_op_right fullShare)).2
    isplitl [A1]; · iapply p1; iexact A1
    iapply p2; iexact A2
  isplitl [A3]; · iapply p3; iexact A3
  isplitl [A4]; · iapply p4; iexact A4
  isplitl [A5]; · iapply p5; iexact A5
  isplitl [A6]; · iapply p6; iexact A6
  isplitl [A7]; · iapply p7; iexact A7
  iapply p8; iexact A8

/-- The invariant before the first point is the accumulators at anything, -/
theorem hin1 (c : Dev nD) :
    iprop((∃ r, prngReg c r) ∗ Pipeline.scopedRest (Ix := Unit) (Name := ℕ) (U := UR sig nD τ) (Lvl := ℕ) (Val := Elt F) spec1 c : sProp 𝕄) ⊢ (dat1 V c).Φ 0 := by
  rw [show (dat1 V c).Φ 0 = PhiS1 V c 0 (Nat.zero_le _) from rfl, PhiS1_zero V c 0 _ rfl]
  unfold Pipeline.ΦA
  iintro ⟨Hg, Hr⟩
  isplitl [Hr]; · iexact Hr
  iexact Hg

/-- and after the last point their contents are forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c : sProp 𝕄) := by
  have hN : cfg1.N = 32 := N_1
  have hS : (Pipeline.scopedRest (Ix := Unit) (Name := ℕ) (U := UR sig nD τ) (Lvl := ℕ) (Val := Elt F) spec1 c : sProp 𝕄)
    = iprop(((∃ d, owns (c : Thread nD τ) scM1_0 fullShare d) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) := by
    rw [Pipeline.scopedRest_split_of_list spec1 c [cc1_scratch0, cc1_scratch1] (by decide) (by decide)]
    simp only [scM1_0, scM1_1, owns_whole, Idealize.SL.BI.bigSepL_cons_cons, Idealize.SL.BI.bigSepL_singleton]
    rfl
  rw [show (dat1 V c).Φ (Fin.last cfg1.N) = PhiS1 V c (Fin.last cfg1.N).val (Nat.le_of_lt_succ (Fin.last cfg1.N).isLt) from rfl,
    PhiS1_pos V c _ _ (by rw [Fin.val_last]; omega), hS]
  iintro ⟨⟨⟨HS0, HS1⟩, HB⟩, Hg⟩
  isplitl [Hg]; · iexact Hg
  isplitl [HS0 HS1]
  · isplitl [HS0]; · iexists _; iexact HS0
    iexists _; iexact HS1
  iexact HB

end Cert.KernelIdeal.Hand

end
-- ==== Proof.KI.R2Body.lean ====
/-
  The pairwise-distance kernel: one body run.

  The grid is 4 x 4 output tiles of 2048 x 2048. At tile (i, j) the body reads row block i and column block j of the
  8192 x 3 point matrix (2048 x 3 each) and stores the whole tile: the distances between the points of the two blocks.
-/
import proofs.«108018_j7043746365844_1_alg».proof.Proof.Gen.KernelIdeal.Launch
import proofs.«108018_j7043746365844_1_alg».proof.Proof.Gen.KernelIdeal.Skeleton
import proofs.«108018_j7043746365844_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window's buffer holds the row block at every point, fetched there or not (between fetches the row index
    has not moved), for any proof data reading `V` and leaving the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The column window's buffer holds the column block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rIn2 : Rect S2048x3 := Rect.unit (s := S2048x3) ![0, 0] S2048x3.size inb_S2048x3_S2048x3_0_0
abbrev rOut2 : Rect S2048x2048 := Rect.unit (s := S2048x2048) ![0, 0] S2048x2048.size inb_S2048x2048_S2048x2048_0_0

/-! ## What the body leaves in the output tile's buffer -/

/-- The output tile after the body, from the row block `x0` and the column block `x1`: the one store, whole. -/
def out2_2 (x0 : Vec F S2048x3 .f32) (x1 : Vec F S2048x3 .f32) : Vec F S2048x2048 .f32 :=
  View.canon [⟨rOut2, k2_pay1 (View.ld x0 rIn2) (View.ld x1 rIn2)⟩]

/-- The store covers the tile. -/
theorem cover2_2 (p0 : Vec F S2048x2048 .f32) (y : S2048x2048.Idx) :
    ∃ pc ∈ ([⟨rOut2, p0⟩] : List (View.Piece (Elt F) S2048x2048 .f32)), y ∈ pc.1.set :=
  View.cover_of_tiled [⟨rOut2, p0⟩] S2048x2048.size (by rfl) y

/-! ## The body's triple -/

set_option maxHeartbeats 4000000 in
/-- The body on whole buffers, the inputs at read contents `x0`, `x1` and the output at anything, runs to the
    continuation with the inputs as they were and the output at `out2_2 x0 x1`. -/
theorem sound_kernel2 (c : Dev nD) (E : Set ℕ) (i : grid2.Coords) (arg2 : Memref sig .tc .vmem S2048x3 .f32) (harg2 : arg2.IsWhole)
    (arg3 : Memref sig .tc .vmem S2048x3 .f32) (harg3 : arg3.IsWhole) (arg4 : Memref sig .tc .vmem S2048x2048 .f32) (harg4 : arg4.IsWhole)
    (x0 : Vec F S2048x3 .f32) (x1 : Vec F S2048x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__cdist_kernel_body i arg2 harg2 arg3 harg3 arg4 harg4) K := by
  simp only [cc2__cdist_kernel_body_eq_skeleton]; unfold cc2__cdist_kernel_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.KernelIdeal.Hand

end
-- ==== Proof.KI.R2Dat.lean ====
/-
  The pairwise-distance kernel: the pipeline's proof data and the body obligation at every grid point.
-/
import proofs.«108018_j7043746365844_1_alg».proof.Proof.KI.R2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data of the pairwise-distance pipeline on core `c`: the arrays at `V`; after the body at point `t` the
    row window at the row block, the column window at the column block, the output window at the tile computed from
    the two; the invariant the scoped rest and the generator register, untouched; nothing owed. The point matrix is
    read through two windows, each holding half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := fun w => match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R2Seg.lean ====
/-
  The pairwise-distance kernel: how its arrays and its invariant enter and leave the region.

  The kernel reads the 8192 x 3 point matrix through two windows (a row block and a column block) and writes the
  8192 x 8192 distance matrix through a third. Two buffers stand behind the three windows: at entry the point matrix
  is dealt to its two readers a half each, at exit the halves are put together again.
-/
import proofs.«108018_j7043746365844_1_alg».proof.Proof.KI.R2Dat
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two buffers behind the three windows -/

/-- The distinct buffers behind the windows' arrays: the point matrix and the distance matrix. -/
theorem arrBufs2_eq (c : Dev nD) (W : (b : Ref sig .tc) → Buf (Elt F) ((c : Thread nD τ).loc b)) :
    (Pipeline.arrBufs spec2 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- The windows' arrays one by one: the point matrix twice, a half each, and the distance matrix whole. -/
theorem arrays2_eq (c : Dev nD) (G : (w : Fin cfg2.W) → Buf (Elt F) ((cfg2.win w).arr.view.loc (c : Thread nD τ))) :
    (dat2 V c).arrays G
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Dat.arrays
  rw [bigSep_W2, (arr_whole2 0).set_eq_univ, (arr_whole2 2).set_eq_univ, share2_0, share2_1, share2_2]

/-- An input window's array is never written. -/
theorem arrAt2_0 (c : Dev nD) (n : Nat) : (dat2 V c).arrAt 0 n = V c main_v4 :=
  ((dat2 V c).arrAt_in 0 rfl n).trans (A_eq2 V c 0)
theorem arrAt2_1 (c : Dev nD) (n : Nat) : (dat2 V c).arrAt 1 n = V c main_v4 :=
  ((dat2 V c).arrAt_in 1 rfl n).trans (A_eq2 V c 1)
theorem arrAt2_2_zero (c : Dev nD) : (dat2 V c).arrAt 2 0 = V c main_v5 := A_eq2 V c 2

/-! ## Entry and exit of the arrays -/

/-- Entry: the point matrix, whole, is dealt in halves to its two readers. -/
theorem hsplit2 (c : Dev nD) : (Pipeline.arrBufs spec2 c (V c) : sProp 𝕄) ⊢ (dat2 V c).arrays ((dat2 V c).arrAt · 0) := by
  rw [arrBufs2_eq, arrays2_eq, arrAt2_0, arrAt2_1, arrAt2_2_zero]
  iintro ⟨H4, H5⟩
  ihave H4 := (pointsTo_share (PosShare.mem_left_op_right fullShare)).1 $$ H4
  icases H4 with ⟨Ha, Hb⟩
  isplitl [Ha]; · iexact Ha
  isplitl [Hb]; · iexact Hb
  iexact H5

/-- Exit: the two halves are the point matrix whole again, unchanged; the distance matrix is what the write-backs left. -/
theorem hjoin2 (V' : (c : Dev nD) → (b : Ref sig .tc) → Buf (Elt F) ((c : Thread nD τ).loc b)) (c : Dev nD)
    (h4 : V' c main_v4 = V c main_v4) (h5 : V' c main_v5 = (dat2 V c).arrAt 2 cfg2.N) :
    (dat2 V c).arrays ((dat2 V c).arrAt · cfg2.N) ⊢ (Pipeline.arrBufs spec2 c (V' c) : sProp 𝕄) := by
  rw [arrBufs2_eq, arrays2_eq, arrAt2_0, arrAt2_1, h4, h5]
  iintro ⟨Ha, Hb, H5⟩
  isplitr [H5]
  · iapply (pointsTo_share (PosShare.mem_left_op_right fullShare)).2
    isplitl [Ha]; · iexact Ha
    iexact Hb
  iexact H5

/-! ## Entry and exit of the invariant -/

theorem hin2 (c : Dev nD) : iprop((∃ r, prngReg c r) ∗ Pipeline.scopedRest spec2 c : sProp 𝕄) ⊢ (dat2 V c).Φ 0 := by
  show _ ⊢ Pipeline.ΦA spec2 c
  unfold Pipeline.ΦA
  iintro ⟨Hp, Hr⟩
  isplitl [Hr]; · iexact Hr
  iexact Hp

theorem hout2 (c : Dev nD) : (dat2 V c).Φ (Fin.last cfg2.N) ⊢ iprop((∃ r, prngReg c r) ∗ Pipeline.scopedRest spec2 c : sProp 𝕄) := by
  show Pipeline.ΦA spec2 c ⊢ _
  unfold Pipeline.ΦA
  iintro ⟨Hr, Hp⟩
  isplitl [Hp]; · iexact Hp
  iexact Hr

end Cert.KernelIdeal.Hand

end
-- ==== Proof.KI.Main.lean ====
/-
  The whole run. @main is five items: a reshape of the first bias, the first aggregation layer, reshapes of the
  second bias and the decoder's bias, the second aggregation layer with the decode, the pairwise-distance kernel.
  Between two items the core's unscoped buffers are held whole at a valuation: the launch memory; then each host
  stretch's results folded in; then, after a kernel region, the region's output array at what its write-backs
  leave. Every weakly fair execution terminates, and the final memory holds every unscoped buffer at the last
  valuation — from which both the frame claim (the arguments are never written) and the result's value are read.
-/
import proofs.«108018_j7043746365844_1_alg».proof.Proof.KI.R0Body
import proofs.«108018_j7043746365844_1_alg».proof.Proof.KI.R0Seg
import proofs.«108018_j7043746365844_1_alg».proof.Proof.KI.R1Body
import proofs.«108018_j7043746365844_1_alg».proof.Proof.KI.R1Seg
import proofs.«108018_j7043746365844_1_alg».proof.Proof.KI.R2Dat
import proofs.«108018_j7043746365844_1_alg».proof.Proof.KI.R2Seg
import proofs.«108018_j7043746365844_1_alg».proof.Proof.LibSharedRegion
import proofs.«108018_j7043746365844_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.SharedRegion (St Ride)

variable (m : (ℓ : Loc nD τ sig) → Buf (Elt F) ℓ) (ρ : Dev nD → PrngReg)

/-! ## The buffers' contents between items -/

abbrev W0 : Dev nD → Valuation τ sig (Elt F) := fun c b => m (c, b)
abbrev W1 : Dev nD → Valuation τ sig (Elt F) := fun c => StableHlo.after hostOps0 (W0 m c)
abbrev T1 : (c : Dev nD) → (b : Ref sig .tc) → Buf (Elt F) ((c : Thread nD τ).loc b) := fun c b => W1 m c b
def W2 (c : Dev nD) : Valuation τ sig (Elt F) := Function.update (W1 m c) main_v1 ((dat0 (T1 m) c).arrAt 6 cfg0.N)
abbrev T2 : (c : Dev nD) → (b : Ref sig .tc) → Buf (Elt F) ((c : Thread nD τ).loc b) := fun c b => W2 m c b
abbrev W3 : Dev nD → Valuation τ sig (Elt F) := fun c => StableHlo.after hostOps1 (W2 m c)
abbrev T3 : (c : Dev nD) → (b : Ref sig .tc) → Buf (Elt F) ((c : Thread nD τ).loc b) := fun c b => W3 m c b
def W4 (c : Dev nD) : Valuation τ sig (Elt F) := Function.update (W3 m c) main_v4 ((dat1 (T3 m) c).arrAt 8 cfg1.N)
abbrev T4 : (c : Dev nD) → (b : Ref sig .tc) → Buf (Elt F) ((c : Thread nD τ).loc b) := fun c b => W4 m c b
def W5 (c : Dev nD) : Valuation τ sig (Elt F) := Function.update (W4 m c) main_v5 ((dat2 (T4 m) c).arrAt 2 cfg2.N)
abbrev T5 : (c : Dev nD) → (b : Ref sig .tc) → Buf (Elt F) ((c : Thread nD τ).loc b) := fun c b => W5 m c b

theorem W2_out (c : Dev nD) : T2 m c main_v1 = (dat0 (T1 m) c).arrAt 6 cfg0.N := by
  show W2 m c main_v1 = _
  unfold W2; exact Function.update_self ..
theorem W2_of_ne (c : Dev nD) (b : Ref sig .tc) (h : b ≠ main_v1) : T2 m c b = T1 m c b := by
  show W2 m c b = W1 m c b
  unfold W2; exact Function.update_of_ne (StableHlo.devRef_ne_of_ne h) ..
theorem W4_out (c : Dev nD) : T4 m c main_v4 = (dat1 (T3 m) c).arrAt 8 cfg1.N := by
  show W4 m c main_v4 = _
  unfold W4; exact Function.update_self ..
theorem W4_of_ne (c : Dev nD) (b : Ref sig .tc) (h : b ≠ main_v4) : T4 m c b = T3 m c b := by
  show W4 m c b = W3 m c b
  unfold W4; exact Function.update_of_ne (StableHlo.devRef_ne_of_ne h) ..
theorem W5_out (c : Dev nD) : T5 m c main_v5 = (dat2 (T4 m) c).arrAt 2 cfg2.N := by
  show W5 m c main_v5 = _
  unfold W5; exact Function.update_self ..
theorem W5_of_ne (c : Dev nD) (b : Ref sig .tc) (h : b ≠ main_v5) : T5 m c b = T4 m c b := by
  show W5 m c b = W4 m c b
  unfold W5; exact Function.update_of_ne (StableHlo.devRef_ne_of_ne h) ..

/-! ## The proof data family and the regions as segments -/

def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T4 m) c
abbrev 𝒱₀ : Variants := Variants.none
abbrev L : GSem nD τ sig → Finset Unit := fun _ => ∅
abbrev lv : GSem nD τ sig → Unit → ℕ := fun _ _ => 0

theorem hpf (p : Fin 3) (c : Dev nD) : (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

theorem not_mem_image {W : Nat} {f : Fin W → Ref sig .tc} {b : Ref sig .tc} (w : Fin W) (h : b ∉ Finset.univ.image f) : b ≠ f w :=
  fun e => h (Finset.mem_image.mpr ⟨w, Finset.mem_univ _, e.symm⟩)

set_option backward.isDefEq.respectTransparency.types false in
def reg0 : Pipeline.RegionSeg (pcfgs (F := F)) adm (pdats m) () defs₀ 𝒱₀ L lv 0 :=
  Cert.SharedRegion.regionSeg (pcfgs (F := F)) adm (pdats m) defs₀ 𝒱₀ L lv 0
    winFacts₀0 block_pos0 stage_whole0 (fun c => (body_obligation0 (T1 m) c).loose) (fun _ _ => rfl) (fun _ _ => rfl) (hpf 0)
    (W1 m) (W2 m) (hsplit0 (T1 m))
    (fun c => hjoin0 (T1 m) (T2 m) c (fun b hb => W2_of_ne m c b hb) (W2_out m c))
    (fun c b hb => W2_of_ne m c b (not_mem_image (f := Pipeline.arrRef spec0) 6 hb))
    (hin0 (T1 m)) (hout0 (T1 m))

set_option backward.isDefEq.respectTransparency.types false in
def reg1 : Pipeline.RegionSeg (pcfgs (F := F)) adm (pdats m) () defs₀ 𝒱₀ L lv 1 :=
  Cert.SharedRegion.regionSeg (pcfgs (F := F)) adm (pdats m) defs₀ 𝒱₀ L lv 1
    winFacts₀1 block_pos1 stage_whole1 (fun c => (body_obligation1 (T3 m) c).loose) (fun _ _ => rfl) (fun _ _ => rfl) (hpf 1)
    (W3 m) (W4 m) (hsplit1 (T3 m))
    (fun c => hjoin1 (T3 m) (T4 m) c (fun b hb => W4_of_ne m c b hb) (W4_out m c))
    (fun c b hb => W4_of_ne m c b (not_mem_image (f := Pipeline.arrRef spec1) 8 hb))
    (hin1 (T3 m)) (hout1 (T3 m))

set_option backward.isDefEq.respectTransparency.types false in
def reg2 : Pipeline.RegionSeg (pcfgs (F := F)) adm (pdats m) () defs₀ 𝒱₀ L lv 2 :=
  Cert.SharedRegion.regionSeg (pcfgs (F := F)) adm (pdats m) defs₀ 𝒱₀ L lv 2
    winFacts₀2 block_pos2 stage_whole2 (fun c => (body_obligation2 (T4 m) c).loose) (fun _ _ => rfl) (fun _ _ => rfl) (hpf 2)
    (W4 m) (W5 m) (hsplit2 (T4 m))
    (fun c => hjoin2 (T4 m) (T5 m) c (W5_of_ne m c main_v4 (by decide)) (W5_out m c))
    (fun c b hb => W5_of_ne m c b (not_mem_image (f := Pipeline.arrRef spec2) 2 hb))
    (hin2 (T4 m)) (hout2 (T4 m))

/-! ## @main as segments, and the launch -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun c => Ride (τ := τ) (sig := sig) (Val := Elt F) c)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]

theorem main_run (c : Dev nD) : main (F := F) c = Pipeline.Seg.run (segs m) := (main_chain c).trans (by chain_rfl)

set_option backward.isDefEq.respectTransparency.types false in
/-- THE RUN: every weakly fair execution of @main from memory `m` with zero counters terminates, nothing faulting,
    and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => St (W0 m c) c)
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (St (W5 m c) c : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments are never written -/

theorem W1_arg (c : Dev nD) (b : Ref sig .tc) (h : b ∉ hostOps0_W) : T1 m c b = m ((c : Thread nD τ).loc b) :=
  StableHlo.after_of_writes_sub hostOps0 _ hostOps0_writes h
theorem W3_arg (c : Dev nD) (b : Ref sig .tc) (h : b ∉ hostOps1_W) : T3 m c b = T2 m c b :=
  StableHlo.after_of_writes_sub hostOps1 _ hostOps1_writes h

/-- An argument array reaches the end as launched. -/
theorem W5_arg (c : Dev nD) (b : Ref sig .tc) (h5 : b ≠ main_v5) (h4 : b ≠ main_v4) (h3 : b ∉ hostOps1_W) (h1 : b ≠ main_v1) (h0 : b ∉ hostOps0_W) :
    T5 m c b = m ((c : Thread nD τ).loc b) :=
  (W5_of_ne m c b h5).trans <| (W4_of_ne m c b h4).trans <| (W3_arg m c b h3).trans <| (W2_of_ne m c b h1).trans (W1_arg m c b h0)

/-- THE FRAME: the claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W5_arg m c main_arg0 (by decide) (by decide) (by decide) (by decide) (by decide)),
    (h c _ (mem_uc main_arg1 (by decide))).trans (W5_arg m c main_arg1 (by decide) (by decide) (by decide) (by decide) (by decide)),
    (h c _ (mem_uc main_arg2 (by decide))).trans (W5_arg m c main_arg2 (by decide) (by decide) (by decide) (by decide) (by decide)),
    (h c _ (mem_uc main_arg3 (by decide))).trans (W5_arg m c main_arg3 (by decide) (by decide) (by decide) (by decide) (by decide)),
    (h c _ (mem_uc main_arg4 (by decide))).trans (W5_arg m c main_arg4 (by decide) (by decide) (by decide) (by decide) (by decide)),
    (h c _ (mem_uc main_arg5 (by decide))).trans (W5_arg m c main_arg5 (by decide) (by decide) (by decide) (by decide) (by decide)),
    (h c _ (mem_uc main_arg6 (by decide))).trans (W5_arg m c main_arg6 (by decide) (by decide) (by decide) (by decide) (by decide)),
    (h c _ (mem_uc main_arg7 (by decide))).trans (W5_arg m c main_arg7 (by decide) (by decide) (by decide) (by decide) (by decide)),
    (h c _ (mem_uc main_arg8 (by decide))).trans (W5_arg m c main_arg8 (by decide) (by decide) (by decide) (by decide) (by decide)),
    (h c _ (mem_uc main_arg9 (by decide))).trans (W5_arg m c main_arg9 (by decide) (by decide) (by decide) (by decide) (by decide))⟩) (run_all m ρ)

end Cert.KernelIdeal.Hand

end
-- ==== Proof.Spec.lean ====
/-
  The specification. Each stage of the two-layer mean-aggregation network, its linear decode and the pairwise
  Euclidean distance, as one function of whole arrays over the extended reals, read index by index. Indices are
  built from literal coordinate types; every float literal is the extended real its 32-bit word denotes.
-/
import Idealize.ShloMosaic.PureOps.Ideal
import Idealize.ShloMosaic.Lib.ValueIdx
import Idealize.ShloMosaic.PureOps.Ideal.Laws

noncomputable section

open scoped BigOperators

namespace Cert.Spec

open Idealize.ShloMosaic Idealize.ShloMosaic.ValueIdx

/-- A rank-2 array of extended reals. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal

/-- The words of the three float literals: 0.0, 1.0, 2.0. -/
local notation "c0" => Ideal.ofBits FTy.f32 0x00000000#32
local notation "c1" => Ideal.ofBits FTy.f32 0x3F800000#32
local notation "c2" => Ideal.ofBits FTy.f32 0x40000000#32

/-! ## Mean aggregation -/

/-- The row sum of the adjacency: a node's degree. -/
def deg (adj : Arr2 8192 8192) (r : Fin 8192) : EReal := ∑ j : Fin 8192, adj (ix2 r j)

/-- The neighbour sum of feature `k`, width 512. -/
def agg512 (adj : Arr2 8192 8192) (x : Arr2 8192 512) (r : Fin 8192) (k : Fin 512) : EReal :=
  ∑ j : Fin 8192, adj (ix2 r j) * x (ix2 j k)

/-- The neighbour sum of feature `k`, width 128. -/
def agg128 (adj : Arr2 8192 8192) (h : Arr2 8192 128) (r : Fin 8192) (k : Fin 128) : EReal :=
  ∑ j : Fin 8192, adj (ix2 r j) * h (ix2 j k)

/-! ## The two layers -/

/-- Layer 1 at row `r`, column `q`: mean of the neighbours through `Wl`, the node itself through `Wr`, the bias, then
    the maximum with zero. -/
def layer1At (x : Arr2 8192 512) (adj : Arr2 8192 8192) (Wl Wr : Arr2 512 128) (b : Arr1 128)
    (r : Fin 8192) (q : Fin 128) : EReal :=
  max ((∑ k : Fin 512, Ideal.div (agg512 adj x r k) (max (deg adj r) c1) * Wl (ix2 k q))
        + (∑ k : Fin 512, x (ix2 r k) * Wr (ix2 k q)) + b (ix1 q)) c0

/-- Layer 1 as an array. -/
def layer1 (x : Arr2 8192 512) (adj : Arr2 8192 8192) (Wl Wr : Arr2 512 128) (b : Arr1 128) : Arr2 8192 128 :=
  fun i => layer1At x adj Wl Wr b (i 0) (i 1)

theorem layer1_ix2 (x : Arr2 8192 512) (adj : Arr2 8192 8192) (Wl Wr : Arr2 512 128) (b : Arr1 128)
    (r : Fin 8192) (q : Fin 128) : layer1 x adj Wl Wr b (ix2 r q) = layer1At x adj Wl Wr b r q := rfl

/-- Layer 2 at row `r`, column `q`: the same over width 128, without the maximum. -/
def layer2At (h : Arr2 8192 128) (adj : Arr2 8192 8192) (Wl Wr : Arr2 128 128) (b : Arr1 128)
    (r : Fin 8192) (q : Fin 128) : EReal :=
  (∑ k : Fin 128, Ideal.div (agg128 adj h r k) (max (deg adj r) c1) * Wl (ix2 k q))
    + (∑ k : Fin 128, h (ix2 r k) * Wr (ix2 k q)) + b (ix1 q)

/-- Layer 2 as an array. -/
def layer2 (h : Arr2 8192 128) (adj : Arr2 8192 8192) (Wl Wr : Arr2 128 128) (b : Arr1 128) : Arr2 8192 128 :=
  fun i => layer2At h adj Wl Wr b (i 0) (i 1)

theorem layer2_ix2 (h : Arr2 8192 128) (adj : Arr2 8192 8192) (Wl Wr : Arr2 128 128) (b : Arr1 128)
    (r : Fin 8192) (q : Fin 128) : layer2 h adj Wl Wr b (ix2 r q) = layer2At h adj Wl Wr b r q := rfl

/-! ## The linear decode -/

/-- The decode at row `r`, coordinate `q`. -/
def decodeAt (h2 : Arr2 8192 128) (Wd : Arr2 128 3) (bd : Arr1 3) (r : Fin 8192) (q : Fin 3) : EReal :=
  (∑ k : Fin 128, h2 (ix2 r k) * Wd (ix2 k q)) + bd (ix1 q)

/-- The decode as an array. -/
def decode (h2 : Arr2 8192 128) (Wd : Arr2 128 3) (bd : Arr1 3) : Arr2 8192 3 :=
  fun i => decodeAt h2 Wd bd (i 0) (i 1)

theorem decode_ix2 (h2 : Arr2 8192 128) (Wd : Arr2 128 3) (bd : Arr1 3) (r : Fin 8192) (q : Fin 3) :
    decode h2 Wd bd (ix2 r q) = decodeAt h2 Wd bd r q := rfl

/-! ## The pairwise distance -/

/-- The squared norm of point `r`. -/
def sq (y : Arr2 8192 3) (r : Fin 8192) : EReal := ∑ k : Fin 3, y (ix2 r k) * y (ix2 r k)

/-- The inner product of points `r` and `s`. -/
def cross (y : Arr2 8192 3) (r s : Fin 8192) : EReal := ∑ k : Fin 3, y (ix2 r k) * y (ix2 s k)

/-- The squared distance, clamped below at zero. -/
def d2 (y : Arr2 8192 3) (r s : Fin 8192) : EReal := max (sq y r + sq y s - c2 * cross y r s) c0

/-- The distance: the root of the squared distance where that is positive (the root taken of one elsewhere), zero
    elsewhere. -/
def distAt (y : Arr2 8192 3) (r s : Fin 8192) : EReal :=
  Scalar.select (Ideal.cmp .ogt (d2 y r s) c0)
    (Ideal.sqrt (Scalar.select (Ideal.cmp .ogt (d2 y r s) c0) (d2 y r s) c1)) c0

/-- The distance as an array. -/
def cdist (y : Arr2 8192 3) : Arr2 8192 8192 := fun i => distAt y (i 0) (i 1)

theorem cdist_ix2 (y : Arr2 8192 3) (r s : Fin 8192) : cdist y (ix2 r s) = distAt y r s := rfl

/-! ## The whole function -/

/-- The two layers, the decode and the distance, composed. -/
def G (x : Arr2 8192 512) (adj : Arr2 8192 8192) (Wl1 Wr1 : Arr2 512 128) (b1 : Arr1 128)
    (Wl2 Wr2 : Arr2 128 128) (b2 : Arr1 128) (Wd : Arr2 128 3) (bd : Arr1 3) : Arr2 8192 8192 :=
  cdist (decode (layer2 (layer1 x adj Wl1 Wr1 b1) adj Wl2 Wr2 b2) Wd bd)

/-! ## Regrouping a sum over 8192 into four blocks of 2048 -/

/-- A sum over 8192 terms is the sum over four blocks of the sums over 2048 terms each. Addition of extended reals is
    commutative and associative, so no finiteness is needed. -/
theorem sum_blocks (f : Fin 8192 → EReal) :
    (∑ kb : Fin 4, ∑ kk : Fin 2048, f ⟨2048 * kb.val + kk.val, by omega⟩) = ∑ j : Fin 8192, f j := by
  rw [← Fintype.sum_prod_type (f := fun p : Fin 4 × Fin 2048 => f ⟨2048 * p.1.val + p.2.val, by omega⟩)]
  exact Fintype.sum_equiv (finProdFinEquiv (m := 4) (n := 2048)) _ _
    (fun p => congrArg f (Fin.ext (by simp only [finProdFinEquiv_apply_val]; omega)))

/-- Four terms accumulated from the left onto the zero word are their sum. -/
theorem acc4 (t : Fin 4 → EReal) : c0 + t 0 + t 1 + t 2 + t 3 = ∑ kb : Fin 4, t kb := by
  rw [Ideal.ofBits_zero_f32, zero_add, Fin.sum_univ_four]

/-- The two together: the four block sums accumulated from the left onto the zero word are the whole sum. -/
theorem acc_blocks (f : Fin 8192 → EReal) :
    c0 + (∑ kk : Fin 2048, f ⟨2048 * (0 : Fin 4).val + kk.val, by omega⟩)
       + (∑ kk : Fin 2048, f ⟨2048 * (1 : Fin 4).val + kk.val, by omega⟩)
       + (∑ kk : Fin 2048, f ⟨2048 * (2 : Fin 4).val + kk.val, by omega⟩)
       + (∑ kk : Fin 2048, f ⟨2048 * (3 : Fin 4).val + kk.val, by omega⟩) = ∑ j : Fin 8192, f j :=
  (acc4 fun kb => ∑ kk : Fin 2048, f ⟨2048 * kb.val + kk.val, by omega⟩).trans (sum_blocks f)

end Cert.Spec

end
-- ==== Proof.KI.R0ValPay.lean ====
/-
  First aggregation layer: the body's five stored values read at an index, over the extended reals. A change of
  format is the identity there, a matrix product onto the zero splat is the sum of products over the contracted
  axis, a sum along an axis is the sum over that axis's coordinates.
-/
import proofs.«108018_j7043746365844_1_alg».proof.Proof.Gen.KernelIdeal.Skeleton
import proofs.«108018_j7043746365844_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A rank-2 index with the coordinates `a`, `b` is `ix2 a b`. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-! ## The two contractions, re-indexed by the contracted coordinate -/

/-- The block product's contraction, 2048 terms. -/
theorem dotA_sum (l : S1024x2048.Idx → EReal) (r : S2048x512.Idx → EReal) (p : Fin 1024) (q : Fin 512) :
    (∑ k : dot_S1024x2048_S2048x512_S1024x512_1_0_0_1_n_n.contr.Idx,
        l (dot_S1024x2048_S2048x512_S1024x512_1_0_0_1_n_n.lhsIdx (ix2 p q) k)
          * r (dot_S1024x2048_S2048x512_S1024x512_1_0_0_1_n_n.rhsIdx (ix2 p q) k))
      = ∑ kk : Fin 2048, l (ix2 p kk) * r (ix2 kk q) := by
  rw [← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 p q)
      ((ValueIdx.contrEquiv1 dot_S1024x2048_S2048x512_S1024x512_1_0_0_1_n_n 2048 rfl rfl).symm k) = ix2 p k :=
    idx2_eq _ p k
      (by
        unfold DotDims.lhsIdx
        rw [dif_neg (show ¬(0 : Fin S1024x2048.rank) ∈ dot_S1024x2048_S2048x512_S1024x512_1_0_0_1_n_n.lhsBatch by decide),
          dif_pos (show (0 : Fin S1024x2048.rank) ∈ dot_S1024x2048_S2048x512_S1024x512_1_0_0_1_n_n.lhsNonContracting by decide)]
        rfl)
      ((dot_S1024x2048_S2048x512_S1024x512_1_0_0_1_n_n.lhsIdx_val_of_single rfl _ _).trans hk)
  have er : dot_S1024x2048_S2048x512_S1024x512_1_0_0_1_n_n.rhsIdx (ix2 p q)
      ((ValueIdx.contrEquiv1 dot_S1024x2048_S2048x512_S1024x512_1_0_0_1_n_n 2048 rfl rfl).symm k) = ix2 k q :=
    idx2_eq _ k q
      ((dot_S1024x2048_S2048x512_S1024x512_1_0_0_1_n_n.rhsIdx_val_of_single rfl _ _).trans hk)
      (by
        unfold DotDims.rhsIdx
        rw [dif_neg (show ¬(1 : Fin S2048x512.rank) ∈ dot_S1024x2048_S2048x512_S1024x512_1_0_0_1_n_n.rhsBatch by decide),
          dif_pos (show (1 : Fin S2048x512.rank) ∈ dot_S1024x2048_S2048x512_S1024x512_1_0_0_1_n_n.rhsNonContracting by decide)]
        rfl)
  rw [el, er]

/-- The weight products' contraction, 512 terms. -/
theorem dotW_sum (l : S1024x512.Idx → EReal) (r : S512x128.Idx → EReal) (p : Fin 1024) (q : Fin 128) :
    (∑ k : dot_S1024x512_S512x128_S1024x128_1_0_0_1_n_n.contr.Idx,
        l (dot_S1024x512_S512x128_S1024x128_1_0_0_1_n_n.lhsIdx (ix2 p q) k)
          * r (dot_S1024x512_S512x128_S1024x128_1_0_0_1_n_n.rhsIdx (ix2 p q) k))
      = ∑ kk : Fin 512, l (ix2 p kk) * r (ix2 kk q) := by
  rw [← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx (ix2 p q)
      ((ValueIdx.contrEquiv1 dot_S1024x512_S512x128_S1024x128_1_0_0_1_n_n 512 rfl rfl).symm k) = ix2 p k :=
    idx2_eq _ p k
      (by
        unfold DotDims.lhsIdx
        rw [dif_neg (show ¬(0 : Fin S1024x512.rank) ∈ dot_S1024x512_S512x128_S1024x128_1_0_0_1_n_n.lhsBatch by decide),
          dif_pos (show (0 : Fin S1024x512.rank) ∈ dot_S1024x512_S512x128_S1024x128_1_0_0_1_n_n.lhsNonContracting by decide)]
        rfl)
      ((dot_S1024x512_S512x128_S1024x128_1_0_0_1_n_n.lhsIdx_val_of_single rfl _ _).trans hk)
  have er : dot_S1024x512_S512x128_S1024x128_1_0_0_1_n_n.rhsIdx (ix2 p q)
      ((ValueIdx.contrEquiv1 dot_S1024x512_S512x128_S1024x128_1_0_0_1_n_n 512 rfl rfl).symm k) = ix2 k q :=
    idx2_eq _ k q
      ((dot_S1024x512_S512x128_S1024x128_1_0_0_1_n_n.rhsIdx_val_of_single rfl _ _).trans hk)
      (by
        unfold DotDims.rhsIdx
        rw [dif_neg (show ¬(1 : Fin S512x128.rank) ∈ dot_S1024x512_S512x128_S1024x128_1_0_0_1_n_n.rhsBatch by decide),
          dif_pos (show (1 : Fin S512x128.rank) ∈ dot_S1024x512_S512x128_S1024x128_1_0_0_1_n_n.rhsNonContracting by decide)]
        rfl)
  rw [el, er]

/-! ## The stored values -/

/-- The cleared neighbour sums: zero everywhere. -/
theorem pay1_at (j : S1024x512.Idx) : k0_pay1 (F := Ideal) j = Ideal.ofBits .f32 0x00000000#32 := by
  unfold k0_pay1
  exact congrFun (shapeCast_self _ _) j

/-- The cleared degrees: zero everywhere. -/
theorem pay2_at (j : S1024x1.Idx) : k0_pay2 (F := Ideal) j = Ideal.ofBits .f32 0x00000000#32 := by
  unfold k0_pay2
  exact congrFun (shapeCast_self _ _) j

/-- The neighbour sums after a point: what they were plus the block's product. -/
theorem pay3_at (x0 : Vec Ideal S1024x2048 .f32) (x1 : Vec Ideal S2048x512 .f32) (xs0 : Vec Ideal S1024x512 .f32)
    (p : Fin 1024) (q : Fin 512) :
    k0_pay3 (F := Ideal) x0 x1 xs0 (ix2 p q) = xs0 (ix2 p q) + ∑ kk : Fin 2048, x0 (ix2 p kk) * x1 (ix2 kk q) := by
  unfold k0_pay3
  refine (congrFun (shapeCast_self _ _) (ix2 p q)).trans ?_
  refine congrArg (xs0 (ix2 p q) + ·) ?_
  refine (Ideal.matmul_constant_zero_apply dot_S1024x2048_S2048x512_S1024x512_1_0_0_1_n_n none _ _ (ix2 p q)).trans ?_
  exact dotA_sum x0 x1 p q

/-- The degrees after a point: what they were plus the block's row sums. -/
theorem pay4_at (x0 : Vec Ideal S1024x2048 .f32) (xs1 : Vec Ideal S1024x1 .f32) (p : Fin 1024) :
    k0_pay4 (F := Ideal) x0 xs1 (ix2 p (0 : Fin 1)) = xs1 (ix2 p (0 : Fin 1)) + ∑ kk : Fin 2048, x0 (ix2 p kk) := by
  unfold k0_pay4
  refine (congrFun (shapeCast_self _ _) (ix2 p (0 : Fin 1))).trans ?_
  refine congrArg (xs1 (ix2 p (0 : Fin 1)) + ·) ?_
  refine (shapeCast_apply _ shapeCasts_S1024_S1024x1 (ix2 p (0 : Fin 1)) (ix1 p) (by
    rw [Shape.rowMajor_val_one, Shape.rowMajor_val_two]; show p.val = p.val * 1 + 0; omega)).trans ?_
  refine (Ideal.multiReduction_add_single x0 0x00000000#32 reduces_S1024x2048_S1024 (.inl rfl) rfl (ix1 p)).trans ?_
  show (∑ kk : Fin 2048, x0 (reduces_S1024x2048_S1024.lift (ix1 p) kk)) = _
  refine Finset.sum_congr rfl fun kk _ => congrArg x0 (idx2_eq _ p kk rfl rfl)

/-- The layer's output block: the accumulated neighbour sums over the clamped degrees through the first weight block,
    the row block through the second, the bias row, and the maximum with zero. -/
theorem pay5_at (dg : Vec Ideal S1024x1 .f32) (ag : Vec Ideal S1024x512 .f32) (wl : Vec Ideal S512x128 .f32)
    (xr : Vec Ideal S1024x512 .f32) (wr : Vec Ideal S512x128 .f32) (b : Vec Ideal S1x128 .f32) (p : Fin 1024) (q : Fin 128) :
    k0_pay5 (F := Ideal) dg ag wl xr wr b (ix2 p q)
      = max ((∑ k : Fin 512, Ideal.div (ag (ix2 p k)) (max (dg (ix2 p (0 : Fin 1))) (Ideal.ofBits .f32 0x3F800000#32)) * wl (ix2 k q))
              + (∑ k : Fin 512, xr (ix2 p k) * wr (ix2 k q)) + b (ix2 (0 : Fin 1) q))
          (Ideal.ofBits .f32 0x00000000#32) := by
  unfold k0_pay5
  refine congrArg (max · (Ideal.ofBits .f32 0x00000000#32)) ?_
  refine congrArg₂ (· + ·) (congrArg₂ (· + ·) ?_ ?_) ?_
  · refine (Ideal.matmul_constant_zero_apply dot_S1024x512_S512x128_S1024x128_1_0_0_1_n_n none _ _ (ix2 p q)).trans ?_
    refine (dotW_sum _ wl p q).trans ?_
    refine Finset.sum_congr rfl fun k _ => congrArg (· * wl (ix2 k q)) ?_
    refine congrArg (Ideal.div (ag (ix2 p k))) ?_
    exact broadcastTo_apply _ broadcasts_S1024x1_S1024x512 (ix2 p k) (ix2 p (0 : Fin 1)) (fun a => by
      match a with
      | ⟨0, _⟩ => show p.val = if (1024 : Nat) = 1 then 0 else p.val; rw [if_neg (by decide)]
      | ⟨1, _⟩ => show 0 = if (1 : Nat) = 1 then 0 else k.val; rw [if_pos rfl])
  · refine (Ideal.matmul_constant_zero_apply dot_S1024x512_S512x128_S1024x128_1_0_0_1_n_n none _ _ (ix2 p q)).trans ?_
    exact dotW_sum xr wr p q
  · refine (broadcastTo_1b_ab_apply _ broadcasts_S1x128_S1024x128 p q).trans ?_
    exact congrFun (shapeCast_self b _) (ix2 (0 : Fin 1) q)

end Cert.KernelIdeal.Hand

end
-- ==== Proof.KI.R0ValPiece.lean ====
/-
  First aggregation layer: what each control case leaves, as the body's stored values of the blocks it loaded. The
  stores cover their buffers, so a buffer read back is the stored value; a load that follows a covering store reads
  that value.
-/
import proofs.«108018_j7043746365844_1_alg».proof.Proof.KI.R0Body
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-! ## Case by case -/

theorem sA0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) :
    sout0_A_0 c i arg2 harg2 arg3 harg3 arg4 harg4 arg5 harg5 arg6 harg6 arg7 harg7 arg8 harg8 arg9 harg9 arg10 harg10 hc0 hc1 x0 x1 = k0_pay3 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S1024x512) hz2, View.readCov_unit_zero (S := S1024x512) _ hz2]
  simp only [View.readAt_eq_ld, harg2.read_unread, harg3.read_unread,
    View.ld_unit_zero (S := S1024x2048) hz2, View.ld_unit_zero (S := S2048x512) hz2]

theorem sA1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i) (x0 : Vec F S1024x2048 .f32) (x1 : Vec F S2048x512 .f32) :
    sout0_A_1 c i arg2 harg2 arg3 harg3 arg4 harg4 arg5 harg5 arg6 harg6 arg7 harg7 arg8 harg8 arg9 harg9 arg10 harg10 hc0 hc1 x0 x1 = k0_pay4 x0 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1)]
  unfold kernelRun0_A
  dsimp only
  sl_unfold_words
  rw [View.canon_cons_unit_zero (S := S1024x1) hz2, View.readCov_unit_zero (S := S1024x1) _ hz2]
  simp only [View.readAt_eq_ld, harg2.read_unread,
    View.ld_unit_zero (S := S1024x2048) hz2]

theorem sB0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) :
    sout0_B_0 c i arg2 harg2 arg3 harg3 arg4 harg4 arg5 harg5 arg6 harg6 arg7 harg7 arg8 harg8 arg9 harg9 arg10 harg10 hc0 hc1 x0 x1 xs0 xs1 = k0_pay3 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 xs0 xs1)]
  unfold kernelRun0_B
  dsimp only
  rw [View.canon_unit_zero hz2]
  simp only [View.readAt_eq_ld, harg2.read_unread, harg3.read_unread, harg9.read_unread,
    View.ld_unit_zero (S := S1024x2048) hz2, View.ld_unit_zero (S := S2048x512) hz2, View.ld_unit_zero (S := S1024x512) hz2]

theorem sB1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i) (x0 : Vec F S1024x2048 .f32) (x1 : Vec F S2048x512 .f32) (xs0 : Vec F S1024x512 .f32) (xs1 : Vec F S1024x1 .f32) :
    sout0_B_1 c i arg2 harg2 arg3 harg3 arg4 harg4 arg5 harg5 arg6 harg6 arg7 harg7 arg8 harg8 arg9 harg9 arg10 harg10 hc0 hc1 x0 x1 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 xs0 xs1)]
  unfold kernelRun0_B
  dsimp only
  rw [View.canon_unit_zero hz2]
  simp only [View.readAt_eq_ld, harg2.read_unread, harg10.read_unread,
    View.ld_unit_zero (S := S1024x2048) hz2, View.ld_unit_zero (S := S1024x1) hz2]

theorem sC0 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay3 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [View.readAt_eq_ld, harg2.read_unread, harg3.read_unread, harg9.read_unread,
    View.ld_unit_zero (S := S1024x2048) hz2, View.ld_unit_zero (S := S2048x512) hz2, View.ld_unit_zero (S := S1024x512) hz2]

theorem sC1 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2]
  simp only [View.readAt_eq_ld, harg2.read_unread, harg10.read_unread,
    View.ld_unit_zero (S := S1024x2048) hz2, View.ld_unit_zero (S := S1024x1) hz2]

theorem oC6 (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i) (x0 : Vec F S1024x2048 .f32) (x1 : Vec F S2048x512 .f32) (x2 : Vec F S1024x512 .f32) (x3 : Vec F S512x128 .f32) (x4 : Vec F S512x128 .f32) (x5 : Vec F S1x128 .f32) (xs0 : Vec F S1024x512 .f32) (xs1 : Vec F S1024x1 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay5 (k0_pay4 x0 xs1) (k0_pay3 x0 x1 xs0) x3 x2 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz2, View.readCov_unit_zero (S := S1024x1) _ hz2, View.readCov_unit_zero (S := S1024x512) _ hz2]
  simp only [View.readAt_eq_ld, harg2.read_unread, harg3.read_unread, harg4.read_unread, harg5.read_unread, harg6.read_unread, harg7.read_unread, harg9.read_unread, harg10.read_unread,
    View.ld_unit_zero (S := S1024x2048) hz2, View.ld_unit_zero (S := S2048x512) hz2, View.ld_unit_zero (S := S1024x512) hz2, View.ld_unit_zero (S := S512x128) hz2, View.ld_unit_zero (S := S1x128) hz2, View.ld_unit_zero (S := S1024x1) hz2]

end Cert.KernelIdeal.Hand

end
-- ==== Proof.KI.R0ValBlk.lean ====
/-
  First aggregation layer: a window's block at a grid point, read at an index, is its array at the block's offset
  plus the index. Point t is row block t / 4, column block t % 4.
-/
import proofs.«108018_j7043746365844_1_alg».proof.Proof.KI.R0Outs
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The seven windows' block indices over the grid. -/
theorem tileIndex0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 4 ∧ win0_6.index t (1 : Fin 2) = 0 ∧ t.val < 32 :=
  (by decide +kernel : ∀ t : Fin grid0.N, _)

/-- The adjacency block at point `t`. -/
theorem blk0_0_at (c : Dev nD) (t : Fin cfg0.N) (p : Fin 1024) (kk : Fin 2048) (R J : Fin 8192)
    (hR : R.val = 1024 * (t.val / 4) + p.val) (hJ : J.val = 2048 * (t.val % 4) + kk.val) :
    iblk0 V c 0 t (ix2 p kk) = V c main_arg1 (ix2 R J) := by
  obtain ⟨e00, e01, -⟩ := tileIndex0 t
  show V c main_arg1 (((cfg0.win 0).blk t).view.emb (ix2 p kk)) = V c main_arg1 _
  refine congrArg (V c main_arg1) (funext fun a => Fin.ext ?_)
  match a with
  | ⟨0, _⟩ => show win0_0.index t (0 : Fin 2) * 1024 + 1 * p.val = R.val; omega
  | ⟨1, _⟩ => show win0_0.index t (1 : Fin 2) * 2048 + 1 * kk.val = J.val; omega

/-- The feature matrix's column-side block at point `t`: rows 2048 (t % 4) + kk. -/
theorem blk0_1_at (c : Dev nD) (t : Fin cfg0.N) (kk : Fin 2048) (q : Fin 512) (J : Fin 8192)
    (hJ : J.val = 2048 * (t.val % 4) + kk.val) :
    iblk0 V c 1 t (ix2 kk q) = V c main_arg0 (ix2 J q) := by
  obtain ⟨-, -, e10, e11, -⟩ := tileIndex0 t
  show V c main_arg0 (((cfg0.win 1).blk t).view.emb (ix2 kk q)) = V c main_arg0 _
  refine congrArg (V c main_arg0) (funext fun a => Fin.ext ?_)
  match a with
  | ⟨0, _⟩ => show win0_1.index t (0 : Fin 2) * 2048 + 1 * kk.val = J.val; omega
  | ⟨1, _⟩ => show win0_1.index t (1 : Fin 2) * 512 + 1 * q.val = q.val; omega

/-- The feature matrix's row-side block at point `t`: rows 1024 (t / 4) + p. -/
theorem blk0_2_at (c : Dev nD) (t : Fin cfg0.N) (p : Fin 1024) (q : Fin 512) (R : Fin 8192)
    (hR : R.val = 1024 * (t.val / 4) + p.val) :
    iblk0 V c 2 t (ix2 p q) = V c main_arg0 (ix2 R q) := by
  obtain ⟨-, -, -, -, e20, e21, -⟩ := tileIndex0 t
  show V c main_arg0 (((cfg0.win 2).blk t).view.emb (ix2 p q)) = V c main_arg0 _
  refine congrArg (V c main_arg0) (funext fun a => Fin.ext ?_)
  match a with
  | ⟨0, _⟩ => show win0_2.index t (0 : Fin 2) * 1024 + 1 * p.val = R.val; omega
  | ⟨1, _⟩ => show win0_2.index t (1 : Fin 2) * 512 + 1 * q.val = q.val; omega

/-- The first weight matrix, whole at every point. -/
theorem blk0_3_at (c : Dev nD) (t : Fin cfg0.N) (k : Fin 512) (q : Fin 128) :
    iblk0 V c 3 t (ix2 k q) = V c main_arg2 (ix2 k q) := by
  obtain ⟨-, -, -, -, -, -, e30, e31, -⟩ := tileIndex0 t
  show V c main_arg2 (((cfg0.win 3).blk t).view.emb (ix2 k q)) = V c main_arg2 _
  refine congrArg (V c main_arg2) (funext fun a => Fin.ext ?_)
  match a with
  | ⟨0, _⟩ => show win0_3.index t (0 : Fin 2) * 512 + 1 * k.val = k.val; omega
  | ⟨1, _⟩ => show win0_3.index t (1 : Fin 2) * 128 + 1 * q.val = q.val; omega

/-- The second weight matrix, whole at every point. -/
theorem blk0_4_at (c : Dev nD) (t : Fin cfg0.N) (k : Fin 512) (q : Fin 128) :
    iblk0 V c 4 t (ix2 k q) = V c main_arg3 (ix2 k q) := by
  obtain ⟨-, -, -, -, -, -, -, -, e40, e41, -⟩ := tileIndex0 t
  show V c main_arg3 (((cfg0.win 4).blk t).view.emb (ix2 k q)) = V c main_arg3 _
  refine congrArg (V c main_arg3) (funext fun a => Fin.ext ?_)
  match a with
  | ⟨0, _⟩ => show win0_4.index t (0 : Fin 2) * 512 + 1 * k.val = k.val; omega
  | ⟨1, _⟩ => show win0_4.index t (1 : Fin 2) * 128 + 1 * q.val = q.val; omega

/-- The bias row, whole at every point. -/
theorem blk0_5_at (c : Dev nD) (t : Fin cfg0.N) (q : Fin 128) :
    iblk0 V c 5 t (ix2 (0 : Fin 1) q) = V c main_v0 (ix2 (0 : Fin 1) q) := by
  obtain ⟨-, -, -, -, -, -, -, -, -, -, e50, e51, -⟩ := tileIndex0 t
  show V c main_v0 (((cfg0.win 5).blk t).view.emb (ix2 (0 : Fin 1) q)) = V c main_v0 _
  refine congrArg (V c main_v0) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

end Cert.KernelIdeal.Hand

end
-- ==== Proof.KI.R0ValAcc.lean ====
/-
  First aggregation layer: the two accumulators after every grid point, index by index. After the point of row block
  i and column block k, row p of the neighbour-sum accumulator holds zero plus the products summed over column blocks
  0 … k of row 1024 i + p of the adjacency matrix against the feature matrix, and the degree accumulator the same
  row's entries summed over those blocks. After column block 3 these are the whole sums.
-/
import proofs.«108018_j7043746365844_1_alg».proof.Proof.KI.R0ValPay
import proofs.«108018_j7043746365844_1_alg».proof.Proof.KI.R0ValPiece
import proofs.«108018_j7043746365844_1_alg».proof.Proof.KI.R0ValBlk

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## Partial sums over the four column blocks -/

/-- The sum of `f` over column block `kb`. -/
def blkSum0 (f : Fin 8192 → EReal) (kb : Fin 4) : EReal := ∑ kk : Fin 2048, f ⟨2048 * kb.val + kk.val, by omega⟩

/-- Zero plus the block sums of blocks 0 … k, accumulated from the left. -/
def part0 (f : Fin 8192 → EReal) : ℕ → EReal
  | 0 => Ideal.ofBits .f32 0x00000000#32 + blkSum0 f 0
  | 1 => Ideal.ofBits .f32 0x00000000#32 + blkSum0 f 0 + blkSum0 f 1
  | 2 => Ideal.ofBits .f32 0x00000000#32 + blkSum0 f 0 + blkSum0 f 1 + blkSum0 f 2
  | _ => Ideal.ofBits .f32 0x00000000#32 + blkSum0 f 0 + blkSum0 f 1 + blkSum0 f 2 + blkSum0 f 3

theorem part0_succ (f : Fin 8192 → EReal) (k : ℕ) (hk : k < 3) :
    part0 f (k + 1) = part0 f k + blkSum0 f ⟨k + 1, by omega⟩ := by
  interval_cases k <;> rfl

/-- After the last block the partial sum is the whole sum. -/
theorem part0_three (f : Fin 8192 → EReal) : part0 f 3 = ∑ j : Fin 8192, f j := Cert.Spec.acc_blocks f

/-- A block sum from its terms, whatever the spelling of the block's number. -/
theorem blkSum0_eq (f : Fin 8192 → EReal) (kb : Fin 4) (g : Fin 2048 → EReal)
    (h : ∀ (kk : Fin 2048) (J : Fin 8192), J.val = 2048 * kb.val + kk.val → g kk = f J) :
    (∑ kk : Fin 2048, g kk) = blkSum0 f kb :=
  Finset.sum_congr rfl fun kk _ => h kk _ rfl

/-! ## The rows and the summands -/

theorem tlt0 : ∀ t : Fin cfg0.N, t.val < 32 := (by decide +kernel : ∀ t : Fin grid0.N, t.val < 32)

/-- Row `p` of point `t`'s row block, in the whole matrix. -/
def rowOf0 (t : Fin cfg0.N) (p : Fin 1024) : Fin 8192 := ⟨1024 * (t.val / 4) + p.val, by have := tlt0 t; omega⟩

/-- The neighbour sum's summand for row `R`, feature `q`. -/
def fA0 (adj : Cert.Spec.Arr2 8192 8192) (x : Cert.Spec.Arr2 8192 512) (R : Fin 8192) (q : Fin 512) : Fin 8192 → EReal :=
  fun j => adj (ix2 R j) * x (ix2 j q)

/-- The degree's summand for row `R`. -/
def fD0 (adj : Cert.Spec.Arr2 8192 8192) (R : Fin 8192) : Fin 8192 → EReal := fun j => adj (ix2 R j)

/-! ## The accumulators after a point, as stored values of the blocks and of what the point before left -/

theorem accA0 (c : Dev nD) (t : Fin cfg0.N) (h0 : t.val % 4 = 0) :
    (outsAt0 V c t.val t.isLt).2
      = (k0_pay3 (iblk0 V c 0 t) (iblk0 V c 1 t) (k0_pay1 (F := Ideal)), k0_pay4 (iblk0 V c 0 t) (k0_pay2 (F := Ideal))) := by
  have e := congrArg Prod.snd (outsAt0_A V c t h0)
  have a := sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)
  have b := sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => by have := (hcond0_1 t).mp h; omega) (iblk0 V c 0 t) (iblk0 V c 1 t)
  dsimp only at e
  exact e.trans (congrArg₂ Prod.mk a b)

theorem accB0 (c : Dev nD) (t : Fin cfg0.N) (h0 : ¬t.val % 4 = 0) :
    (outsAt0 V c t.val t.isLt).2
      = (k0_pay3 (iblk0 V c 0 t) (iblk0 V c 1 t) (outsAt0 V c (t.val - 1) (Nat.lt_of_le_of_lt (Nat.sub_le _ _) t.isLt)).2.1,
         k0_pay4 (iblk0 V c 0 t) (outsAt0 V c (t.val - 1) (Nat.lt_of_le_of_lt (Nat.sub_le _ _) t.isLt)).2.2) := by
  by_cases h1 : t.val % 4 = 3
  · have e := congrArg Prod.snd (outsAt0_C V c t h0 h1)
    have a := sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
    have b := sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
    dsimp only at e
    exact e.trans (congrArg₂ Prod.mk a b)
  · have e := congrArg Prod.snd (outsAt0_B V c t h0 h1)
    have a := sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2
    have b := sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2
    dsimp only at e
    exact e.trans (congrArg₂ Prod.mk a b)

/-- The output block after a last column block, over the accumulators that point leaves. -/
theorem outC0 (c : Dev nD) (t : Fin cfg0.N) (h1 : t.val % 4 = 3) :
    (outsAt0 V c t.val t.isLt).1
      = k0_pay5 (outsAt0 V c t.val t.isLt).2.2 (outsAt0 V c t.val t.isLt).2.1 (iblk0 V c 3 t) (iblk0 V c 2 t) (iblk0 V c 4 t) (iblk0 V c 5 t) := by
  have h0 : ¬t.val % 4 = 0 := by omega
  have e1 : (outsAt0 V c t.val t.isLt).2.1 = k0_pay3 (iblk0 V c 0 t) (iblk0 V c 1 t) (outsAt0 V c (t.val - 1) (Nat.lt_of_le_of_lt (Nat.sub_le _ _) t.isLt)).2.1 := congrArg Prod.fst (accB0 V c t h0)
  have e2 : (outsAt0 V c t.val t.isLt).2.2 = k0_pay4 (iblk0 V c 0 t) (outsAt0 V c (t.val - 1) (Nat.lt_of_le_of_lt (Nat.sub_le _ _) t.isLt)).2.2 := congrArg Prod.snd (accB0 V c t h0)
  have e := congrArg Prod.fst (outsAt0_C V c t h0 h1)
  have o := oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
  dsimp only at e
  exact (e.trans o).trans (congrArg₂ (fun a b => k0_pay5 a b (iblk0 V c 3 t) (iblk0 V c 2 t) (iblk0 V c 4 t) (iblk0 V c 5 t)) e2 e1).symm

end Cert.KernelIdeal.Hand

end
-- ==== Proof.KI.R0ValInv.lean ====
/-
  First aggregation layer: the accumulators after every grid point are the partial sums over the column blocks so
  far, by induction on the point; after a last column block they are the whole neighbour sums and degrees.
-/
import proofs.«108018_j7043746365844_1_alg».proof.Proof.KI.R0ValAcc

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The accumulation does not depend on how the point's number is written. -/
theorem outsAt0_congr (c : Dev nD) (n m : ℕ) (hn : n < cfg0.N) (hm : m < cfg0.N) (e : n = m) :
    outsAt0 V c n hn = outsAt0 V c m hm := by
  subst e; rfl

/-- The neighbour sums after point `t`: what they were plus the summand's block sum over the point's column block. -/
theorem stepA0 (c : Dev nD) (t : Fin cfg0.N) (xs0 : Vec Ideal S1024x512 .f32) (p : Fin 1024) (q : Fin 512) (kb : Fin 4)
    (hkb : kb.val = t.val % 4) :
    k0_pay3 (F := Ideal) (iblk0 V c 0 t) (iblk0 V c 1 t) xs0 (ix2 p q)
      = xs0 (ix2 p q) + blkSum0 (fA0 (V c main_arg1) (V c main_arg0) (rowOf0 t p) q) kb :=
  (pay3_at _ _ xs0 p q).trans (congrArg (xs0 (ix2 p q) + ·) (blkSum0_eq _ kb _ fun kk J hJ => by
    rw [blk0_0_at V c t p kk (rowOf0 t p) J rfl (by rw [hJ, hkb]), blk0_1_at V c t kk q J (by rw [hJ, hkb])]
    rfl))

/-- The degrees after point `t`: what they were plus the summand's block sum over the point's column block. -/
theorem stepD0 (c : Dev nD) (t : Fin cfg0.N) (xs1 : Vec Ideal S1024x1 .f32) (p : Fin 1024) (kb : Fin 4)
    (hkb : kb.val = t.val % 4) :
    k0_pay4 (F := Ideal) (iblk0 V c 0 t) xs1 (ix2 p (0 : Fin 1))
      = xs1 (ix2 p (0 : Fin 1)) + blkSum0 (fD0 (V c main_arg1) (rowOf0 t p)) kb :=
  (pay4_at _ xs1 p).trans (congrArg (xs1 (ix2 p (0 : Fin 1)) + ·) (blkSum0_eq _ kb _ fun kk J hJ => by
    rw [blk0_0_at V c t p kk (rowOf0 t p) J rfl (by rw [hJ, hkb])]
    rfl))

/-- After every point: the partial sums over the column blocks so far. -/
theorem acc0_eq (c : Dev nD) : ∀ (n : ℕ) (hn : n < cfg0.N),
    (∀ (p : Fin 1024) (q : Fin 512),
        (outsAt0 V c n hn).2.1 (ix2 p q) = part0 (fA0 (V c main_arg1) (V c main_arg0) (rowOf0 ⟨n, hn⟩ p) q) (n % 4))
    ∧ (∀ p : Fin 1024,
        (outsAt0 V c n hn).2.2 (ix2 p (0 : Fin 1)) = part0 (fD0 (V c main_arg1) (rowOf0 ⟨n, hn⟩ p)) (n % 4)) := by
  intro n
  induction n with
  | zero =>
    intro hn
    have hA := accA0 V c ⟨0, hn⟩ rfl
    have hA1 : (outsAt0 V c 0 hn).2.1 = k0_pay3 (iblk0 V c 0 ⟨0, hn⟩) (iblk0 V c 1 ⟨0, hn⟩) (k0_pay1 (F := Ideal)) := congrArg Prod.fst hA
    have hA2 : (outsAt0 V c 0 hn).2.2 = k0_pay4 (iblk0 V c 0 ⟨0, hn⟩) (k0_pay2 (F := Ideal)) := congrArg Prod.snd hA
    refine ⟨fun p q => ?_, fun p => ?_⟩
    · rw [hA1, stepA0 V c ⟨0, hn⟩ _ p q 0 rfl, pay1_at]
      rfl
    · rw [hA2, stepD0 V c ⟨0, hn⟩ _ p 0 rfl, pay2_at]
      rfl
  | succ n ih =>
    intro hn
    have h32 := tlt0 ⟨n + 1, hn⟩
    by_cases h0 : (n + 1) % 4 = 0
    · have hA := accA0 V c ⟨n + 1, hn⟩ h0
      have hA1 : (outsAt0 V c (n + 1) hn).2.1 = k0_pay3 (iblk0 V c 0 ⟨n + 1, hn⟩) (iblk0 V c 1 ⟨n + 1, hn⟩) (k0_pay1 (F := Ideal)) := congrArg Prod.fst hA
      have hA2 : (outsAt0 V c (n + 1) hn).2.2 = k0_pay4 (iblk0 V c 0 ⟨n + 1, hn⟩) (k0_pay2 (F := Ideal)) := congrArg Prod.snd hA
      refine ⟨fun p q => ?_, fun p => ?_⟩
      · rw [hA1, stepA0 V c ⟨n + 1, hn⟩ _ p q 0 (by show 0 = (n + 1) % 4; omega), pay1_at, h0]
        rfl
      · rw [hA2, stepD0 V c ⟨n + 1, hn⟩ _ p 0 (by show 0 = (n + 1) % 4; omega), pay2_at, h0]
        rfl
    · have hB := accB0 V c ⟨n + 1, hn⟩ h0
      have hprev : outsAt0 V c ((⟨n + 1, hn⟩ : Fin cfg0.N).val - 1) (Nat.lt_of_le_of_lt (Nat.sub_le _ _) (⟨n + 1, hn⟩ : Fin cfg0.N).isLt)
          = outsAt0 V c n (Nat.lt_of_succ_lt hn) := outsAt0_congr V c _ _ _ _ (by show n + 1 - 1 = n; omega)
      rw [hprev] at hB
      have hB1 : (outsAt0 V c (n + 1) hn).2.1 = k0_pay3 (iblk0 V c 0 ⟨n + 1, hn⟩) (iblk0 V c 1 ⟨n + 1, hn⟩) (outsAt0 V c n (Nat.lt_of_succ_lt hn)).2.1 := congrArg Prod.fst hB
      have hB2 : (outsAt0 V c (n + 1) hn).2.2 = k0_pay4 (iblk0 V c 0 ⟨n + 1, hn⟩) (outsAt0 V c n (Nat.lt_of_succ_lt hn)).2.2 := congrArg Prod.snd hB
      obtain ⟨ihA, ihD⟩ := ih (Nat.lt_of_succ_lt hn)
      have hk : (n + 1) % 4 = n % 4 + 1 := by omega
      have hk3 : n % 4 < 3 := by omega
      have hrow : ∀ p, rowOf0 ⟨n, Nat.lt_of_succ_lt hn⟩ p = rowOf0 ⟨n + 1, hn⟩ p := fun p =>
        Fin.ext (by show 1024 * (n / 4) + p.val = 1024 * ((n + 1) / 4) + p.val; omega)
      refine ⟨fun p q => ?_, fun p => ?_⟩
      · rw [hB1, stepA0 V c ⟨n + 1, hn⟩ _ p q ⟨n % 4 + 1, by omega⟩ (by show n % 4 + 1 = (n + 1) % 4; omega), ihA p q, hrow p, hk,
          part0_succ _ _ hk3]
      · rw [hB2, stepD0 V c ⟨n + 1, hn⟩ _ p ⟨n % 4 + 1, by omega⟩ (by show n % 4 + 1 = (n + 1) % 4; omega), ihD p, hrow p, hk,
          part0_succ _ _ hk3]

/-- After a last column block the neighbour-sum accumulator holds the whole neighbour sums of its rows … -/
theorem acc0_agg (c : Dev nD) (t : Fin cfg0.N) (h1 : t.val % 4 = 3) (p : Fin 1024) (q : Fin 512) :
    (outsAt0 V c t.val t.isLt).2.1 (ix2 p q) = Cert.Spec.agg512 (V c main_arg1) (V c main_arg0) (rowOf0 t p) q := by
  rw [((acc0_eq V c t.val t.isLt).1 p q), h1, part0_three]
  rfl

/-- … and the degree accumulator their degrees. -/
theorem acc0_deg (c : Dev nD) (t : Fin cfg0.N) (h1 : t.val % 4 = 3) (p : Fin 1024) :
    (outsAt0 V c t.val t.isLt).2.2 (ix2 p (0 : Fin 1)) = Cert.Spec.deg (V c main_arg1) (rowOf0 t p) := by
  rw [((acc0_eq V c t.val t.isLt).2 p), h1, part0_three]
  rfl

end Cert.KernelIdeal.Hand

end
-- ==== Proof.KI.R0ValFinal.lean ====
/-
  First aggregation layer: what the region leaves in its output array. Every point of a last column block writes back
  the layer's rows of its row block; the eight row blocks cover the array, so it ends as the specification's first
  layer of the arrays the region was entered with.
-/
import proofs.«108018_j7043746365844_1_alg».proof.Proof.KI.R0ValInv

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- One entry of the output block after a last column block. -/
theorem out0_entry (c : Dev nD) (t : Fin cfg0.N) (h1 : t.val % 4 = 3) (b : Cert.Spec.Arr1 128)
    (hb : ∀ q : Fin 128, V c main_v0 (ix2 (0 : Fin 1) q) = b (ix1 q)) (p : Fin 1024) (q : Fin 128) :
    (outsAt0 V c t.val t.isLt).1 (ix2 p q)
      = Cert.Spec.layer1At (V c main_arg0) (V c main_arg1) (V c main_arg2) (V c main_arg3) b (rowOf0 t p) q := by
  rw [outC0 V c t h1, pay5_at]
  unfold Cert.Spec.layer1At
  refine congrArg (max · _) (congrArg₂ (· + ·) (congrArg₂ (· + ·) ?_ ?_) ?_)
  · refine Finset.sum_congr rfl fun k _ => ?_
    rw [acc0_agg V c t h1 p k, acc0_deg V c t h1 p, blk0_3_at V c t k q]
  · refine Finset.sum_congr rfl fun k _ => ?_
    rw [blk0_2_at V c t p k (rowOf0 t p) rfl, blk0_4_at V c t k q]
  · rw [blk0_5_at V c t q, hb q]

/-- The same with the two indices given by their coordinates. -/
theorem out0_entry_at (c : Dev nD) (t : Fin cfg0.N) (h1 : t.val % 4 = 3) (b : Cert.Spec.Arr1 128)
    (hb : ∀ q : Fin 128, V c main_v0 (ix2 (0 : Fin 1) q) = b (ix1 q)) (j : S1024x128.Idx) (i : S8192x128.Idx)
    (p : Fin 1024) (q : Fin 128) (hj : j = ix2 p q) (hi : i = ix2 (rowOf0 t p) q) :
    (outsAt0 V c t.val t.isLt).1 j
      = Cert.Spec.layer1 (V c main_arg0) (V c main_arg1) (V c main_arg2) (V c main_arg3) b i := by
  subst hj; subst hi
  rw [Cert.Spec.layer1_ix2]
  exact out0_entry V c t h1 b hb p q

/-- A point of a last column block writes back its row block of the layer. -/
theorem flushed0_eq (c : Dev nD) (b : Cert.Spec.Arr1 128)
    (hb : ∀ q : Fin 128, V c main_v0 (ix2 (0 : Fin 1) q) = b (ix1 q)) (t : Fin cfg0.N) (hf : (cfg0.win 6).flush t = true) :
    (dat0 V c).flushed 6 t = ((cfg0.win 6).blk t).view.read (Elt Ideal)
      (Cert.Spec.layer1 (V c main_arg0) (V c main_arg1) (V c main_arg2) (V c main_arg3) b) := by
  have h1 : t.val % 4 = 3 := (flush0_6 t).mp hf
  have h32 := tlt0 t
  obtain ⟨-, -, -, -, -, -, -, -, -, -, -, -, e60, e61, -⟩ := tileIndex0 t
  show (cfg0.win 6).cut (grid0.coords t) ((dat0 V c).after 6 t) = _
  rw [after0_6]
  funext j
  have hj0 : (j 0).val < 1024 := (j 0).isLt
  have hj1 : (j 1).val < 128 := (j 1).isLt
  show (outsAt0 V c t.val t.isLt).1 j
    = Cert.Spec.layer1 (V c main_arg0) (V c main_arg1) (V c main_arg2) (V c main_arg3) b (((cfg0.win 6).blk t).view.emb j)
  refine out0_entry_at V c t h1 b hb j (((cfg0.win 6).blk t).view.emb j) ⟨(j 0).val, hj0⟩ ⟨(j 1).val, hj1⟩ ?_ ?_
  · funext a; match a with | ⟨0, _⟩ => rfl | ⟨1, _⟩ => rfl
  · funext a; apply Fin.ext
    match a with
    | ⟨0, _⟩ => show win0_6.index t (0 : Fin 2) * 1024 + 1 * (j 0).val = 1024 * (t.val / 4) + (j 0).val; omega
    | ⟨1, _⟩ => show win0_6.index t (1 : Fin 2) * 128 + 1 * (j 1).val = (j 1).val; omega

/-- An index is in point `t`'s output block iff each coordinate is in the block's range on its axis. -/
theorem mem_tile0 (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v1).slice (win0_6.rect t)).set ↔ _
  rw [View.set_slice_whole, Rect.mem_set_unit]
  exact Iff.rfl

/-- Every row block has its last column block's point. -/
theorem lastPoint0 : ∀ I : Fin 8, ∃ t : Fin cfg0.N, t.val = 4 * I.val + 3 :=
  (by decide +kernel : ∀ I : Fin 8, ∃ t : Fin grid0.N, t.val = 4 * I.val + 3)

/-- Row `r` is written back by the last column block's point of row block `r / 1024`. -/
theorem cover0 (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  obtain ⟨t, ht⟩ := lastPoint0 ⟨(i 0).val / 1024, by omega⟩
  have ht' : t.val = 4 * ((i 0).val / 1024) + 3 := ht
  obtain ⟨-, -, -, -, -, -, -, -, -, -, -, -, e60, e61, -⟩ := tileIndex0 t
  refine ⟨t, (flush0_6 t).mpr (by omega), ?_⟩
  rw [mem_tile0]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 128 ≤ (i 1).val ∧ (i 1).val < win0_6.index t (1 : Fin 2) * 128 + 128; omega

/-- After the last write-back the region's output array holds the specification's first layer of the arrays the region
    was entered with, the bias read through its one-row form. -/
theorem final0 (c : Dev nD) (b : Cert.Spec.Arr1 128)
    (hb : ∀ q : Fin 128, V c main_v0 (ix2 (0 : Fin 1) q) = b (ix1 q)) :
    (dat0 (F := Ideal) V c).arrAt 6 cfg0.N
      = Cert.Spec.layer1 (V c main_arg0) (V c main_arg1) (V c main_arg2) (V c main_arg3) b :=
  (dat0 V c).arrAt_eq_of_cover 6 (Cert.Spec.layer1 (V c main_arg0) (V c main_arg1) (V c main_arg2) (V c main_arg3) b)
    (flushed0_eq V c b hb) cover0

end Cert.KernelIdeal.Hand

end
-- ==== Proof.KI.R1Found.lean ====
/-
  Second aggregation layer with the linear decode: what each case's stores leave, as the stored values of what the case loaded.
-/
import proofs.«108018_j7043746365844_1_alg».proof.Proof.KI.R1Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin1 : (![0, 0] : Fin 2 → Nat) = fun _ => 0 := funext fun a => by fin_cases a <;> rfl

/-- First column block: the neighbour sums are the block's product added to the cleared accumulator. -/
theorem sout1_A_0_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) :
    sout1_A_0 c i arg2 harg2 arg3 harg3 arg4 harg4 arg5 harg5 arg6 harg6 arg7 harg7 arg8 harg8 arg9 harg9 arg10 harg10 arg11 harg11 arg12 harg12 hc0 hc1 x0 x1 = k1_pay3 x0 x1 k1_pay1 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 hc0 hc1 x0 x1)]
  unfold kernelRun1_A
  dsimp only
  try sl_unfold_words
  simp only [View.canon_cons_unit_zero (S := S1024x128) origin1, View.canon_cons_unit_zero (S := S1024x1) origin1,
    View.canon_cons_unit_zero (S := S1024x3) origin1, View.readCov_unit_zero (S := S1024x128) _ origin1,
    View.readCov_unit_zero (S := S1024x1) _ origin1, View.readAt_eq_ld,
    Memref.IsWhole.read_unread, View.ld_unit_zero (S := S1024x2048) origin1, View.ld_unit_zero (S := S2048x128) origin1,
    View.ld_unit_zero (S := S1024x128) origin1, View.ld_unit_zero (S := S1024x1) origin1, View.ld_unit_zero (S := S128x128) origin1,
    View.ld_unit_zero (S := S1x128) origin1, View.ld_unit_zero (S := S128x3) origin1, View.ld_unit_zero (S := S1x3) origin1,
    View.ld_unit_zero (S := S1024x3) origin1]

/-- First column block: the degrees are the block's row sums added to the cleared accumulator. -/
theorem sout1_A_1_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : cond1_0 i) (hc1 : ¬cond1_1 i) (x0 : Vec F S1024x2048 .f32) (x1 : Vec F S2048x128 .f32) :
    sout1_A_1 c i arg2 harg2 arg3 harg3 arg4 harg4 arg5 harg5 arg6 harg6 arg7 harg7 arg8 harg8 arg9 harg9 arg10 harg10 arg11 harg11 arg12 harg12 hc0 hc1 x0 x1 = k1_pay4 x0 k1_pay2 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 hc0 hc1 x0 x1)]
  unfold kernelRun1_A
  dsimp only
  try sl_unfold_words
  simp only [View.canon_cons_unit_zero (S := S1024x128) origin1, View.canon_cons_unit_zero (S := S1024x1) origin1,
    View.canon_cons_unit_zero (S := S1024x3) origin1, View.readCov_unit_zero (S := S1024x128) _ origin1,
    View.readCov_unit_zero (S := S1024x1) _ origin1, View.readAt_eq_ld,
    Memref.IsWhole.read_unread, View.ld_unit_zero (S := S1024x2048) origin1, View.ld_unit_zero (S := S2048x128) origin1,
    View.ld_unit_zero (S := S1024x128) origin1, View.ld_unit_zero (S := S1024x1) origin1, View.ld_unit_zero (S := S128x128) origin1,
    View.ld_unit_zero (S := S1x128) origin1, View.ld_unit_zero (S := S128x3) origin1, View.ld_unit_zero (S := S1x3) origin1,
    View.ld_unit_zero (S := S1024x3) origin1]

/-- A middle column block: the neighbour sums take the block's product. -/
theorem sout1_B_0_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) :
    sout1_B_0 c i arg2 harg2 arg3 harg3 arg4 harg4 arg5 harg5 arg6 harg6 arg7 harg7 arg8 harg8 arg9 harg9 arg10 harg10 arg11 harg11 arg12 harg12 hc0 hc1 x0 x1 xs0 xs1 = k1_pay3 x0 x1 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 hc0 hc1 x0 x1 xs0 xs1)]
  unfold kernelRun1_B
  dsimp only
  try sl_unfold_words
  simp only [View.canon_cons_unit_zero (S := S1024x128) origin1, View.canon_cons_unit_zero (S := S1024x1) origin1,
    View.canon_cons_unit_zero (S := S1024x3) origin1, View.readCov_unit_zero (S := S1024x128) _ origin1,
    View.readCov_unit_zero (S := S1024x1) _ origin1, View.readAt_eq_ld,
    Memref.IsWhole.read_unread, View.ld_unit_zero (S := S1024x2048) origin1, View.ld_unit_zero (S := S2048x128) origin1,
    View.ld_unit_zero (S := S1024x128) origin1, View.ld_unit_zero (S := S1024x1) origin1, View.ld_unit_zero (S := S128x128) origin1,
    View.ld_unit_zero (S := S1x128) origin1, View.ld_unit_zero (S := S128x3) origin1, View.ld_unit_zero (S := S1x3) origin1,
    View.ld_unit_zero (S := S1024x3) origin1]

/-- A middle column block: the degrees take the block's row sums. -/
theorem sout1_B_1_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : ¬cond1_1 i) (x0 : Vec F S1024x2048 .f32) (x1 : Vec F S2048x128 .f32) (xs0 : Vec F S1024x128 .f32) (xs1 : Vec F S1024x1 .f32) :
    sout1_B_1 c i arg2 harg2 arg3 harg3 arg4 harg4 arg5 harg5 arg6 harg6 arg7 harg7 arg8 harg8 arg9 harg9 arg10 harg10 arg11 harg11 arg12 harg12 hc0 hc1 x0 x1 xs0 xs1 = k1_pay4 x0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 hc0 hc1 x0 x1 xs0 xs1)]
  unfold kernelRun1_B
  dsimp only
  try sl_unfold_words
  simp only [View.canon_cons_unit_zero (S := S1024x128) origin1, View.canon_cons_unit_zero (S := S1024x1) origin1,
    View.canon_cons_unit_zero (S := S1024x3) origin1, View.readCov_unit_zero (S := S1024x128) _ origin1,
    View.readCov_unit_zero (S := S1024x1) _ origin1, View.readAt_eq_ld,
    Memref.IsWhole.read_unread, View.ld_unit_zero (S := S1024x2048) origin1, View.ld_unit_zero (S := S2048x128) origin1,
    View.ld_unit_zero (S := S1024x128) origin1, View.ld_unit_zero (S := S1024x1) origin1, View.ld_unit_zero (S := S128x128) origin1,
    View.ld_unit_zero (S := S1x128) origin1, View.ld_unit_zero (S := S128x3) origin1, View.ld_unit_zero (S := S1x3) origin1,
    View.ld_unit_zero (S := S1024x3) origin1]

/-- Last column block: the neighbour sums take the block's product. -/
theorem sout1_C_0_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) :
    sout1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay3 x0 x1 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_C
  dsimp only
  try sl_unfold_words
  simp only [View.canon_cons_unit_zero (S := S1024x128) origin1, View.canon_cons_unit_zero (S := S1024x1) origin1,
    View.canon_cons_unit_zero (S := S1024x3) origin1, View.readCov_unit_zero (S := S1024x128) _ origin1,
    View.readCov_unit_zero (S := S1024x1) _ origin1, View.readAt_eq_ld,
    Memref.IsWhole.read_unread, View.ld_unit_zero (S := S1024x2048) origin1, View.ld_unit_zero (S := S2048x128) origin1,
    View.ld_unit_zero (S := S1024x128) origin1, View.ld_unit_zero (S := S1024x1) origin1, View.ld_unit_zero (S := S128x128) origin1,
    View.ld_unit_zero (S := S1x128) origin1, View.ld_unit_zero (S := S128x3) origin1, View.ld_unit_zero (S := S1x3) origin1,
    View.ld_unit_zero (S := S1024x3) origin1]

/-- Last column block: the degrees take the block's row sums. -/
theorem sout1_C_1_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) :
    sout1_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay4 x0 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_C
  dsimp only
  try sl_unfold_words
  simp only [View.canon_cons_unit_zero (S := S1024x128) origin1, View.canon_cons_unit_zero (S := S1024x1) origin1,
    View.canon_cons_unit_zero (S := S1024x3) origin1, View.readCov_unit_zero (S := S1024x128) _ origin1,
    View.readCov_unit_zero (S := S1024x1) _ origin1, View.readAt_eq_ld,
    Memref.IsWhole.read_unread, View.ld_unit_zero (S := S1024x2048) origin1, View.ld_unit_zero (S := S2048x128) origin1,
    View.ld_unit_zero (S := S1024x128) origin1, View.ld_unit_zero (S := S1024x1) origin1, View.ld_unit_zero (S := S128x128) origin1,
    View.ld_unit_zero (S := S1x128) origin1, View.ld_unit_zero (S := S128x3) origin1, View.ld_unit_zero (S := S1x3) origin1,
    View.ld_unit_zero (S := S1024x3) origin1]

/-- Last column block: the output block is computed from the completed accumulators, the row block and the weights. -/
theorem out1_C_8_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x3 .f32) (harg8 : arg8.IsWhole) (arg9 : Memref sig .tc .vmem S1x3 .f32) (harg9 : arg9.IsWhole) (arg10 : Memref sig .tc .vmem S1024x3 .f32) (harg10 : arg10.IsWhole) (arg11 : Memref sig .tc .vmem S1024x128 .f32) (harg11 : arg11.IsWhole) (arg12 : Memref sig .tc .vmem S1024x1 .f32) (harg12 : arg12.IsWhole) (hc0 : ¬cond1_0 i) (hc1 : cond1_1 i) (x0 : Vec F S1024x2048 .f32) (x1 : Vec F S2048x128 .f32) (x2 : Vec F S1024x128 .f32) (x3 : Vec F S128x128 .f32) (x4 : Vec F S128x128 .f32) (x5 : Vec F S1x128 .f32) (x6 : Vec F S128x3 .f32) (x7 : Vec F S1x3 .f32) (xs0 : Vec F S1024x128 .f32) (xs1 : Vec F S1024x1 .f32) :
    out1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k1_pay5 (k1_pay4 x0 xs1) (k1_pay3 x0 x1 xs0) x3 x2 x4 x5 x6 x7 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun1_C
  dsimp only
  try sl_unfold_words
  simp only [View.canon_cons_unit_zero (S := S1024x128) origin1, View.canon_cons_unit_zero (S := S1024x1) origin1,
    View.canon_cons_unit_zero (S := S1024x3) origin1, View.readCov_unit_zero (S := S1024x128) _ origin1,
    View.readCov_unit_zero (S := S1024x1) _ origin1, View.readAt_eq_ld,
    Memref.IsWhole.read_unread, View.ld_unit_zero (S := S1024x2048) origin1, View.ld_unit_zero (S := S2048x128) origin1,
    View.ld_unit_zero (S := S1024x128) origin1, View.ld_unit_zero (S := S1024x1) origin1, View.ld_unit_zero (S := S128x128) origin1,
    View.ld_unit_zero (S := S1x128) origin1, View.ld_unit_zero (S := S128x3) origin1, View.ld_unit_zero (S := S1x3) origin1,
    View.ld_unit_zero (S := S1024x3) origin1]

end Cert.KernelIdeal.Hand

end
-- ==== Proof.KI.R1ValPay.lean ====
/-
  Second aggregation layer with the linear decode: the body's five stored values read at an index, over the extended
  reals. A change of format is the identity there, a matrix product onto the zero splat is the sum of products over
  the contracted axis, a sum along an axis is the sum over that axis's coordinates.
-/
import proofs.«108018_j7043746365844_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

local notation "𝕄" => MT nD τ sig Unit (Elt F) ℕ (UR sig nD τ) ℕ

local notation "c0" => Ideal.ofBits FTy.f32 0x00000000#32
local notation "c1" => Ideal.ofBits FTy.f32 0x3F800000#32

/-! ## A plain matrix product's contraction, re-indexed by the contracted coordinate -/

theorem plainContr1 {M K N : Nat} (w : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    (∑ k : (⟨[1], [0], [0], [1], [], [], w⟩ : DotDims ⟨2, ![M, K]⟩ ⟨2, ![K, N]⟩ ⟨2, ![M, N]⟩).contr.Idx,
        l ((⟨[1], [0], [0], [1], [], [], w⟩ : DotDims ⟨2, ![M, K]⟩ ⟨2, ![K, N]⟩ ⟨2, ![M, N]⟩).lhsIdx (ix2 p q) k)
          * r ((⟨[1], [0], [0], [1], [], [], w⟩ : DotDims ⟨2, ![M, K]⟩ ⟨2, ![K, N]⟩ ⟨2, ![M, N]⟩).rhsIdx (ix2 p q) k))
      = ∑ kk : Fin K, l (ix2 p kk) * r (ix2 kk q) := by
  rw [← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun k _ => ?_
  have ck := contrEquiv1_symm_val (⟨[1], [0], [0], [1], [], [], w⟩ : DotDims ⟨2, ![M, K]⟩ ⟨2, ![K, N]⟩ ⟨2, ![M, N]⟩) K rfl rfl k
  have hl : (⟨[1], [0], [0], [1], [], [], w⟩ : DotDims ⟨2, ![M, K]⟩ ⟨2, ![K, N]⟩ ⟨2, ![M, N]⟩).lhsIdx (ix2 p q)
      ((contrEquiv1 _ K rfl rfl).symm k) = ix2 p k := by
    funext ax; apply Fin.ext
    match ax with
    | ⟨0, _⟩ => simp [DotDims.lhsIdx]; rfl
    | ⟨1, _⟩ => simp [DotDims.lhsIdx]; exact ck
  have hr : (⟨[1], [0], [0], [1], [], [], w⟩ : DotDims ⟨2, ![M, K]⟩ ⟨2, ![K, N]⟩ ⟨2, ![M, N]⟩).rhsIdx (ix2 p q)
      ((contrEquiv1 _ K rfl rfl).symm k) = ix2 k q := by
    funext ax; apply Fin.ext
    match ax with
    | ⟨0, _⟩ => simp [DotDims.rhsIdx]; exact ck
    | ⟨1, _⟩ => simp [DotDims.rhsIdx]; rfl
  rw [hl, hr]

/-! ## The five stored values of the second layer's body at an index -/

/-- The cleared neighbour sums: zero everywhere. -/
theorem pay1_1_at (j : S1024x128.Idx) : k1_pay1 (F := Ideal) j = c0 := by
  unfold k1_pay1
  exact congrFun (shapeCast_self _ _) j

/-- The cleared degrees: zero everywhere. -/
theorem pay1_2_at (j : S1024x1.Idx) : k1_pay2 (F := Ideal) j = c0 := by
  unfold k1_pay2
  exact congrFun (shapeCast_self _ _) j

/-- The neighbour sums after a point: what they were plus the block's product. -/
theorem pay1_3_at (x0 : Vec Ideal S1024x2048 .f32) (x1 : Vec Ideal S2048x128 .f32) (xs0 : Vec Ideal S1024x128 .f32)
    (p : Fin 1024) (q : Fin 128) :
    k1_pay3 (F := Ideal) x0 x1 xs0 (ix2 p q) = xs0 (ix2 p q) + ∑ kk : Fin 2048, x0 (ix2 p kk) * x1 (ix2 kk q) := by
  unfold k1_pay3
  simp only [shapeCast_self]
  refine congrArg (xs0 (ix2 p q) + ·) ?_
  refine (Ideal.matmul_constant_zero_apply dot_S1024x2048_S2048x128_S1024x128_1_0_0_1_n_n none _ _ (ix2 p q)).trans ?_
  exact plainContr1 dot_S1024x2048_S2048x128_S1024x128_1_0_0_1_n_n_wf x0 x1 p q

/-- The degrees after a point: what they were plus the block's row sums. -/
theorem pay1_4_at (x0 : Vec Ideal S1024x2048 .f32) (xs1 : Vec Ideal S1024x1 .f32) (p : Fin 1024) :
    k1_pay4 (F := Ideal) x0 xs1 (ix2 p (0 : Fin 1)) = xs1 (ix2 p (0 : Fin 1)) + ∑ kk : Fin 2048, x0 (ix2 p kk) := by
  unfold k1_pay4
  simp only [shapeCast_self]
  refine congrArg (xs1 (ix2 p (0 : Fin 1)) + ·) ?_
  refine (shapeCast_apply _ shapeCasts_S1024_S1024x1 (ix2 p (0 : Fin 1)) (ix1 p) (by
    rw [Shape.rowMajor_val_one, Shape.rowMajor_val_two]; show p.val = p.val * 1 + 0; omega)).trans ?_
  refine (Ideal.multiReduction_add_single x0 0x00000000#32 reduces_S1024x2048_S1024 (.inl rfl) rfl (ix1 p)).trans ?_
  show (∑ kk : Fin 2048, x0 (reduces_S1024x2048_S1024.lift (ix1 p) kk)) = _
  refine Finset.sum_congr rfl fun kk _ => congrArg x0 (funext fun ax => Fin.ext ?_)
  match ax with
  | ⟨0, _⟩ => rfl
  | ⟨1, _⟩ => rfl

/-- The output block: the accumulated neighbour sums over the clamped degrees through the first weight matrix, the row
    block through the second, the bias row; that through the decoder matrix, and the decoder's bias row. -/
theorem pay1_5_at (dg : Vec Ideal S1024x1 .f32) (ag : Vec Ideal S1024x128 .f32) (wl : Vec Ideal S128x128 .f32)
    (xr : Vec Ideal S1024x128 .f32) (wr : Vec Ideal S128x128 .f32) (b : Vec Ideal S1x128 .f32) (wd : Vec Ideal S128x3 .f32)
    (bd : Vec Ideal S1x3 .f32) (p : Fin 1024) (q : Fin 3) :
    k1_pay5 (F := Ideal) dg ag wl xr wr b wd bd (ix2 p q)
      = (∑ k : Fin 128,
            ((∑ k' : Fin 128, Ideal.div (ag (ix2 p k')) (max (dg (ix2 p (0 : Fin 1))) c1) * wl (ix2 k' k))
              + (∑ k' : Fin 128, xr (ix2 p k') * wr (ix2 k' k)) + b (ix2 (0 : Fin 1) k)) * wd (ix2 k q))
          + bd (ix2 (0 : Fin 1) q) := by
  unfold k1_pay5
  simp only [shapeCast_self]
  refine congrArg₂ (· + ·) ?_ ?_
  · refine (Ideal.matmul_constant_zero_apply dot_S1024x128_S128x3_S1024x3_1_0_0_1_n_n none _ _ (ix2 p q)).trans ?_
    refine (plainContr1 dot_S1024x128_S128x3_S1024x3_1_0_0_1_n_n_wf _ wd p q).trans ?_
    refine Finset.sum_congr rfl fun k _ => congrArg (· * wd (ix2 k q)) ?_
    refine congrArg₂ (· + ·) (congrArg₂ (· + ·) ?_ ?_) ?_
    · refine (Ideal.matmul_constant_zero_apply dot_S1024x128_S128x128_S1024x128_1_0_0_1_n_n none _ _ (ix2 p k)).trans ?_
      refine (plainContr1 dot_S1024x128_S128x128_S1024x128_1_0_0_1_n_n_wf _ wl p k).trans ?_
      refine Finset.sum_congr rfl fun k' _ => congrArg (· * wl (ix2 k' k)) ?_
      refine congrArg (Ideal.div (ag (ix2 p k'))) ?_
      exact broadcastTo_apply _ broadcasts_S1024x1_S1024x128 (ix2 p k') (ix2 p (0 : Fin 1)) (fun a => by
        match a with
        | ⟨0, _⟩ => show p.val = if (1024 : Nat) = 1 then 0 else p.val; rw [if_neg (by decide)]
        | ⟨1, _⟩ => show 0 = if (1 : Nat) = 1 then 0 else k'.val; rw [if_pos rfl])
    · refine (Ideal.matmul_constant_zero_apply dot_S1024x128_S128x128_S1024x128_1_0_0_1_n_n none _ _ (ix2 p k)).trans ?_
      exact plainContr1 dot_S1024x128_S128x128_S1024x128_1_0_0_1_n_n_wf xr wr p k
    · exact broadcastTo_1b_ab_apply _ broadcasts_S1x128_S1024x128 p k
  · exact broadcastTo_1b_ab_apply _ broadcasts_S1x3_S1024x3 p q

end Cert.KernelIdeal.Hand

end
-- ==== Proof.KI.R1ValBlk.lean ====
/-
  Second aggregation layer with the linear decode: where each window's block sits in its array, and the blocks read at
  an index as entries of the arrays.
-/
import proofs.«108018_j7043746365844_1_alg».proof.Proof.KI.R1Outs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

local notation "𝕄" => MT nD τ sig Unit (Elt F) ℕ (UR sig nD τ) ℕ

variable (V : (c : Dev nD) → (b : Ref sig .tc) → Buf (Elt Ideal) ((c : Thread nD τ).loc b))

/-! ## The index maps over the grid -/

/-- Point `t` is row block `t / 4`, column block `t % 4`: the adjacency window is at block `(t / 4, t % 4)`, the feature
    column window at `(t % 4, 0)`, the feature row window and the output at `(t / 4, 0)`, every other window at `(0, 0)`. -/
theorem tileIndex1 : ∀ t : Fin cfg1.N, t.val < 32
    ∧ win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val / 4 ∧ win1_8.index t (1 : Fin 2) = 0 :=
  (by decide +kernel : ∀ t : Fin grid1.N, _)

/-! ## The windows' blocks read at an index -/

/-- The adjacency block: rows `1024 (t / 4) + p`, columns `2048 (t % 4) + kk`. -/
theorem blk1_0_at (c : Dev nD) (t : Fin cfg1.N) (p : Fin 1024) (kk : Fin 2048) (R J : Fin 8192)
    (hR : R.val = 1024 * (t.val / 4) + p.val) (hJ : J.val = 2048 * (t.val % 4) + kk.val) :
    iblk1 V c 0 t (ix2 p kk) = V c main_arg1 (ix2 R J) := by
  obtain ⟨hN, a0, a1, -⟩ := tileIndex1 t
  show V c main_arg1 (((cfg1.win 0).blk t).view.emb (ix2 p kk)) = V c main_arg1 _
  refine congrArg (V c main_arg1) (funext fun a => Fin.ext ?_)
  match a with
  | ⟨0, _⟩ => show win1_0.index t (0 : Fin 2) * 1024 + 1 * p.val = R.val; omega
  | ⟨1, _⟩ => show win1_0.index t (1 : Fin 2) * 2048 + 1 * kk.val = J.val; omega

/-- The feature column block: rows `2048 (t % 4) + kk`. -/
theorem blk1_1_at (c : Dev nD) (t : Fin cfg1.N) (kk : Fin 2048) (q : Fin 128) (J : Fin 8192)
    (hJ : J.val = 2048 * (t.val % 4) + kk.val) :
    iblk1 V c 1 t (ix2 kk q) = V c main_v1 (ix2 J q) := by
  obtain ⟨hN, -, -, a0, a1, -⟩ := tileIndex1 t
  show V c main_v1 (((cfg1.win 1).blk t).view.emb (ix2 kk q)) = V c main_v1 _
  refine congrArg (V c main_v1) (funext fun a => Fin.ext ?_)
  match a with
  | ⟨0, _⟩ => show win1_1.index t (0 : Fin 2) * 2048 + 1 * kk.val = J.val; omega
  | ⟨1, _⟩ => show win1_1.index t (1 : Fin 2) * 128 + 1 * q.val = q.val; omega

/-- The feature row block: rows `1024 (t / 4) + p`. -/
theorem blk1_2_at (c : Dev nD) (t : Fin cfg1.N) (p : Fin 1024) (k : Fin 128) (R : Fin 8192)
    (hR : R.val = 1024 * (t.val / 4) + p.val) :
    iblk1 V c 2 t (ix2 p k) = V c main_v1 (ix2 R k) := by
  obtain ⟨hN, -, -, -, -, a0, a1, -⟩ := tileIndex1 t
  show V c main_v1 (((cfg1.win 2).blk t).view.emb (ix2 p k)) = V c main_v1 _
  refine congrArg (V c main_v1) (funext fun a => Fin.ext ?_)
  match a with
  | ⟨0, _⟩ => show win1_2.index t (0 : Fin 2) * 1024 + 1 * p.val = R.val; omega
  | ⟨1, _⟩ => show win1_2.index t (1 : Fin 2) * 128 + 1 * k.val = k.val; omega

/-- The first weight matrix, whole. -/
theorem blk1_3_at (c : Dev nD) (t : Fin cfg1.N) (k k' : Fin 128) :
    iblk1 V c 3 t (ix2 k k') = V c main_arg5 (ix2 k k') := by
  obtain ⟨hN, -, -, -, -, -, -, a0, a1, -⟩ := tileIndex1 t
  show V c main_arg5 (((cfg1.win 3).blk t).view.emb (ix2 k k')) = V c main_arg5 _
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 128 + 1 * k'.val = k'.val; omega

/-- The second weight matrix, whole. -/
theorem blk1_4_at (c : Dev nD) (t : Fin cfg1.N) (k k' : Fin 128) :
    iblk1 V c 4 t (ix2 k k') = V c main_arg6 (ix2 k k') := by
  obtain ⟨hN, -, -, -, -, -, -, -, -, a0, a1, -⟩ := tileIndex1 t
  show V c main_arg6 (((cfg1.win 4).blk t).view.emb (ix2 k k')) = V c main_arg6 _
  refine congrArg (V c main_arg6) (funext fun a => Fin.ext ?_)
  match a with
  | ⟨0, _⟩ => show win1_4.index t (0 : Fin 2) * 128 + 1 * k.val = k.val; omega
  | ⟨1, _⟩ => show win1_4.index t (1 : Fin 2) * 128 + 1 * k'.val = k'.val; omega

/-- The bias row, whole. -/
theorem blk1_5_at (c : Dev nD) (t : Fin cfg1.N) (u : Fin 1) (k : Fin 128) :
    iblk1 V c 5 t (ix2 u k) = V c main_v2 (ix2 u k) := by
  obtain ⟨hN, -, -, -, -, -, -, -, -, -, -, a0, a1, -⟩ := tileIndex1 t
  show V c main_v2 (((cfg1.win 5).blk t).view.emb (ix2 u k)) = V c main_v2 _
  refine congrArg (V c main_v2) (funext fun a => Fin.ext ?_)
  match a with
  | ⟨0, _⟩ => show win1_5.index t (0 : Fin 2) * 1 + 1 * u.val = u.val; omega
  | ⟨1, _⟩ => show win1_5.index t (1 : Fin 2) * 128 + 1 * k.val = k.val; omega

/-- The decoder matrix, whole. -/
theorem blk1_6_at (c : Dev nD) (t : Fin cfg1.N) (k : Fin 128) (q : Fin 3) :
    iblk1 V c 6 t (ix2 k q) = V c main_arg8 (ix2 k q) := by
  obtain ⟨hN, -, -, -, -, -, -, -, -, -, -, -, -, a0, a1, -⟩ := tileIndex1 t
  show V c main_arg8 (((cfg1.win 6).blk t).view.emb (ix2 k q)) = V c main_arg8 _
  refine congrArg (V c main_arg8) (funext fun a => Fin.ext ?_)
  match a with
  | ⟨0, _⟩ => show win1_6.index t (0 : Fin 2) * 128 + 1 * k.val = k.val; omega
  | ⟨1, _⟩ => show win1_6.index t (1 : Fin 2) * 3 + 1 * q.val = q.val; omega

/-- The decoder's bias row, whole. -/
theorem blk1_7_at (c : Dev nD) (t : Fin cfg1.N) (u : Fin 1) (q : Fin 3) :
    iblk1 V c 7 t (ix2 u q) = V c main_v3 (ix2 u q) := by
  obtain ⟨hN, -, -, -, -, -, -, -, -, -, -, -, -, -, -, a0, a1, -⟩ := tileIndex1 t
  show V c main_v3 (((cfg1.win 7).blk t).view.emb (ix2 u q)) = V c main_v3 _
  refine congrArg (V c main_v3) (funext fun a => Fin.ext ?_)
  match a with
  | ⟨0, _⟩ => show win1_7.index t (0 : Fin 2) * 1 + 1 * u.val = u.val; omega
  | ⟨1, _⟩ => show win1_7.index t (1 : Fin 2) * 3 + 1 * q.val = q.val; omega

end Cert.KernelIdeal.Hand

end
-- ==== Proof.KI.R1ValAcc.lean ====
/-
  Second aggregation layer with the linear decode, over the extended reals: the two accumulators point by point.

  A row block's four points visit column blocks 0, 1, 2, 3 of the adjacency matrix. The first sets the neighbour-sum
  accumulator to the block's product with the matching rows of the features and the degree accumulator to the block's
  row sums; each later one adds its own. After the fourth the accumulators hold the whole sums over the 8192 columns.
-/
import proofs.«108018_j7043746365844_1_alg».proof.Proof.KI.R1Dat
import proofs.«108018_j7043746365844_1_alg».proof.Proof.KI.R1Found
import proofs.«108018_j7043746365844_1_alg».proof.Proof.KI.R1ValPay
import proofs.«108018_j7043746365844_1_alg».proof.Proof.KI.R1ValBlk
import proofs.«108018_j7043746365844_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

local notation "𝕄" => MT nD τ sig Unit (Elt F) ℕ (UR sig nD τ) ℕ

variable (V : (c : Dev nD) → (b : Ref sig .tc) → Buf (Elt Ideal) ((c : Thread nD τ).loc b))

local notation "c0" => Ideal.ofBits FTy.f32 0x00000000#32

/-! ## A block's contribution, and the terms of the whole sums -/

/-- Entry `(p, q)` of the product of an adjacency block and a feature block. -/
def aggTerm (x0 : Vec Ideal S1024x2048 .f32) (x1 : Vec Ideal S2048x128 .f32) (p : Fin 1024) (q : Fin 128) : EReal :=
  ∑ kk : Fin 2048, x0 (ix2 p kk) * x1 (ix2 kk q)

/-- Row `p`'s sum over an adjacency block. -/
def degTerm (x0 : Vec Ideal S1024x2048 .f32) (p : Fin 1024) : EReal := ∑ kk : Fin 2048, x0 (ix2 p kk)

/-- The terms of the neighbour sum of row `R`, feature `q`. -/
def rowTerm (adj : Cert.Spec.Arr2 8192 8192) (h : Cert.Spec.Arr2 8192 128) (R : Fin 8192) (q : Fin 128) : Fin 8192 → EReal :=
  fun j => adj (ix2 R j) * h (ix2 j q)

/-- The terms of the degree of row `R`. -/
def degRow (adj : Cert.Spec.Arr2 8192 8192) (R : Fin 8192) : Fin 8192 → EReal := fun j => adj (ix2 R j)

/-! ## One point's effect on the accumulators -/

theorem outsAt1_succ (c : Dev nD) (n : ℕ) (hn1 : n + 1 < cfg1.N) :
    outsAt1 V c (n + 1) hn1 = step1 V c ⟨n + 1, hn1⟩ (outsAt1 V c n (Nat.lt_of_succ_lt hn1)).2 := rfl

/-- After a first column block the neighbour sums are the block's product alone. -/
theorem agg_zero (c : Dev nD) (n : ℕ) (hn : n < cfg1.N) (h0 : n % 4 = 0) (p : Fin 1024) (q : Fin 128) :
    (outsAt1 V c n hn).2.1 (ix2 p q)
      = c0 + aggTerm (iblk1 V c 0 ⟨n, hn⟩) (iblk1 V c 1 ⟨n, hn⟩) p q := by
  rw [show outsAt1 V c n hn = _ from outsAt1_A V c ⟨n, hn⟩ h0]
  dsimp only
  rw [sout1_A_0_eq]
  refine (pay1_3_at (iblk1 V c 0 ⟨n, hn⟩) (iblk1 V c 1 ⟨n, hn⟩) (k1_pay1 (F := Ideal)) p q).trans ?_
  rw [pay1_1_at]
  rfl

/-- After a first column block the degrees are the block's row sums alone. -/
theorem deg_zero (c : Dev nD) (n : ℕ) (hn : n < cfg1.N) (h0 : n % 4 = 0) (p : Fin 1024) :
    (outsAt1 V c n hn).2.2 (ix2 p (0 : Fin 1)) = c0 + degTerm (iblk1 V c 0 ⟨n, hn⟩) p := by
  rw [show outsAt1 V c n hn = _ from outsAt1_A V c ⟨n, hn⟩ h0]
  dsimp only
  rw [sout1_A_1_eq]
  refine (pay1_4_at (iblk1 V c 0 ⟨n, hn⟩) (k1_pay2 (F := Ideal)) p).trans ?_
  rw [pay1_2_at]
  rfl

/-- After any later column block the neighbour sums have taken the block's product. -/
theorem agg_succ (c : Dev nD) (n : ℕ) (hn1 : n + 1 < cfg1.N) (h0 : ¬(n + 1) % 4 = 0) (p : Fin 1024) (q : Fin 128) :
    (outsAt1 V c (n + 1) hn1).2.1 (ix2 p q)
      = (outsAt1 V c n (Nat.lt_of_succ_lt hn1)).2.1 (ix2 p q)
        + aggTerm (iblk1 V c 0 ⟨n + 1, hn1⟩) (iblk1 V c 1 ⟨n + 1, hn1⟩) p q := by
  rw [outsAt1_succ]
  by_cases h1 : (n + 1) % 4 = 3
  · rw [step1_C V c ⟨n + 1, hn1⟩ _ h0 h1]
    dsimp only
    rw [sout1_C_0_eq]
    exact pay1_3_at (iblk1 V c 0 ⟨n + 1, hn1⟩) (iblk1 V c 1 ⟨n + 1, hn1⟩) (outsAt1 V c n (Nat.lt_of_succ_lt hn1)).2.1 p q
  · rw [step1_B V c ⟨n + 1, hn1⟩ _ h0 h1]
    dsimp only
    rw [sout1_B_0_eq]
    exact pay1_3_at (iblk1 V c 0 ⟨n + 1, hn1⟩) (iblk1 V c 1 ⟨n + 1, hn1⟩) (outsAt1 V c n (Nat.lt_of_succ_lt hn1)).2.1 p q

/-- After any later column block the degrees have taken the block's row sums. -/
theorem deg_succ (c : Dev nD) (n : ℕ) (hn1 : n + 1 < cfg1.N) (h0 : ¬(n + 1) % 4 = 0) (p : Fin 1024) :
    (outsAt1 V c (n + 1) hn1).2.2 (ix2 p (0 : Fin 1))
      = (outsAt1 V c n (Nat.lt_of_succ_lt hn1)).2.2 (ix2 p (0 : Fin 1)) + degTerm (iblk1 V c 0 ⟨n + 1, hn1⟩) p := by
  rw [outsAt1_succ]
  by_cases h1 : (n + 1) % 4 = 3
  · rw [step1_C V c ⟨n + 1, hn1⟩ _ h0 h1]
    dsimp only
    rw [sout1_C_1_eq]
    exact pay1_4_at (iblk1 V c 0 ⟨n + 1, hn1⟩) (outsAt1 V c n (Nat.lt_of_succ_lt hn1)).2.2 p
  · rw [step1_B V c ⟨n + 1, hn1⟩ _ h0 h1]
    dsimp only
    rw [sout1_B_1_eq]
    exact pay1_4_at (iblk1 V c 0 ⟨n + 1, hn1⟩) (outsAt1 V c n (Nat.lt_of_succ_lt hn1)).2.2 p

/-- After a last column block the output buffer holds the stored value of the completed accumulators. -/
theorem out_last (c : Dev nD) (n : ℕ) (hn1 : n + 1 < cfg1.N) (h1 : (n + 1) % 4 = 3) :
    (outsAt1 V c (n + 1) hn1).1
      = k1_pay5 (outsAt1 V c (n + 1) hn1).2.2 (outsAt1 V c (n + 1) hn1).2.1 (iblk1 V c 3 ⟨n + 1, hn1⟩) (iblk1 V c 2 ⟨n + 1, hn1⟩)
          (iblk1 V c 4 ⟨n + 1, hn1⟩) (iblk1 V c 5 ⟨n + 1, hn1⟩) (iblk1 V c 6 ⟨n + 1, hn1⟩) (iblk1 V c 7 ⟨n + 1, hn1⟩) := by
  rw [outsAt1_succ, step1_C V c ⟨n + 1, hn1⟩ _ (by show ¬(n + 1) % 4 = 0; omega) h1]
  dsimp only
  rw [out1_C_8_eq, sout1_C_0_eq, sout1_C_1_eq]

/-! ## A block's contribution as a stretch of the whole sum -/

/-- The product of point `t`'s adjacency block and feature block at `(p, q)` is the stretch `2048 kb ≤ j < 2048 (kb + 1)` of
    the neighbour sum of row `R`, feature `q`. -/
theorem aggTerm_eq (c : Dev nD) (t : Fin cfg1.N) (kb : Fin 4) (hkb : t.val % 4 = kb.val) (p : Fin 1024) (q : Fin 128) (R : Fin 8192)
    (hR : R.val = 1024 * (t.val / 4) + p.val) :
    (aggTerm (iblk1 V c 0 t) (iblk1 V c 1 t) p q)
      = ∑ kk : Fin 2048, rowTerm (V c main_arg1) (V c main_v1) R q ⟨2048 * kb.val + kk.val, by omega⟩ := by
  unfold aggTerm rowTerm
  refine Finset.sum_congr rfl fun kk _ => ?_
  have hJ : (⟨2048 * kb.val + kk.val, by omega⟩ : Fin 8192).val = 2048 * (t.val % 4) + kk.val := by rw [hkb]
  rw [blk1_0_at V c t p kk R ⟨2048 * kb.val + kk.val, by omega⟩ hR hJ, blk1_1_at V c t kk q ⟨2048 * kb.val + kk.val, by omega⟩ hJ]

/-- The row sums of point `t`'s adjacency block at `p` are the same stretch of the degree of row `R`. -/
theorem degTerm_eq (c : Dev nD) (t : Fin cfg1.N) (kb : Fin 4) (hkb : t.val % 4 = kb.val) (p : Fin 1024) (R : Fin 8192)
    (hR : R.val = 1024 * (t.val / 4) + p.val) :
    (degTerm (iblk1 V c 0 t) p)
      = ∑ kk : Fin 2048, degRow (V c main_arg1) R ⟨2048 * kb.val + kk.val, by omega⟩ := by
  unfold degTerm degRow
  refine Finset.sum_congr rfl fun kk _ => ?_
  have hJ : (⟨2048 * kb.val + kk.val, by omega⟩ : Fin 8192).val = 2048 * (t.val % 4) + kk.val := by rw [hkb]
  rw [blk1_0_at V c t p kk R ⟨2048 * kb.val + kk.val, by omega⟩ hR hJ]

/-! ## The accumulators after a row block's four points -/

/-- After the fourth column block the neighbour sums are complete. -/
theorem agg_full (c : Dev nD) (n0 : ℕ) (hn : n0 + 1 + 1 + 1 < cfg1.N) (h0 : n0 % 4 = 0) (p : Fin 1024) (q : Fin 128) (R : Fin 8192)
    (hR : R.val = 1024 * (n0 / 4) + p.val) :
    (outsAt1 V c (n0 + 1 + 1 + 1) hn).2.1 (ix2 p q) = Cert.Spec.agg128 (V c main_arg1) (V c main_v1) R q := by
  have l2 : n0 + 1 + 1 < cfg1.N := Nat.lt_of_succ_lt hn
  have l1 : n0 + 1 < cfg1.N := Nat.lt_of_succ_lt l2
  have l0 : n0 < cfg1.N := Nat.lt_of_succ_lt l1
  rw [agg_succ V c (n0 + 1 + 1) hn (by omega) p q, agg_succ V c (n0 + 1) l2 (by omega) p q, agg_succ V c n0 l1 (by omega) p q,
    agg_zero V c n0 l0 h0 p q,
    aggTerm_eq V c ⟨n0, l0⟩ (0 : Fin 4) (by show n0 % 4 = 0; omega) p q R (by show R.val = 1024 * (n0 / 4) + p.val; omega),
    aggTerm_eq V c ⟨n0 + 1, l1⟩ (1 : Fin 4) (by show (n0 + 1) % 4 = 1; omega) p q R (by show R.val = 1024 * ((n0 + 1) / 4) + p.val; omega),
    aggTerm_eq V c ⟨n0 + 1 + 1, l2⟩ (2 : Fin 4) (by show (n0 + 1 + 1) % 4 = 2; omega) p q R (by show R.val = 1024 * ((n0 + 1 + 1) / 4) + p.val; omega),
    aggTerm_eq V c ⟨n0 + 1 + 1 + 1, hn⟩ (3 : Fin 4) (by show (n0 + 1 + 1 + 1) % 4 = 3; omega) p q R (by show R.val = 1024 * ((n0 + 1 + 1 + 1) / 4) + p.val; omega)]
  exact Cert.Spec.acc_blocks (rowTerm (V c main_arg1) (V c main_v1) R q)

/-- After the fourth column block the degrees are complete. -/
theorem deg_full (c : Dev nD) (n0 : ℕ) (hn : n0 + 1 + 1 + 1 < cfg1.N) (h0 : n0 % 4 = 0) (p : Fin 1024) (R : Fin 8192)
    (hR : R.val = 1024 * (n0 / 4) + p.val) :
    (outsAt1 V c (n0 + 1 + 1 + 1) hn).2.2 (ix2 p (0 : Fin 1)) = Cert.Spec.deg (V c main_arg1) R := by
  have l2 : n0 + 1 + 1 < cfg1.N := Nat.lt_of_succ_lt hn
  have l1 : n0 + 1 < cfg1.N := Nat.lt_of_succ_lt l2
  have l0 : n0 < cfg1.N := Nat.lt_of_succ_lt l1
  rw [deg_succ V c (n0 + 1 + 1) hn (by omega) p, deg_succ V c (n0 + 1) l2 (by omega) p, deg_succ V c n0 l1 (by omega) p,
    deg_zero V c n0 l0 h0 p,
    degTerm_eq V c ⟨n0, l0⟩ (0 : Fin 4) (by show n0 % 4 = 0; omega) p R (by show R.val = 1024 * (n0 / 4) + p.val; omega),
    degTerm_eq V c ⟨n0 + 1, l1⟩ (1 : Fin 4) (by show (n0 + 1) % 4 = 1; omega) p R (by show R.val = 1024 * ((n0 + 1) / 4) + p.val; omega),
    degTerm_eq V c ⟨n0 + 1 + 1, l2⟩ (2 : Fin 4) (by show (n0 + 1 + 1) % 4 = 2; omega) p R (by show R.val = 1024 * ((n0 + 1 + 1) / 4) + p.val; omega),
    degTerm_eq V c ⟨n0 + 1 + 1 + 1, hn⟩ (3 : Fin 4) (by show (n0 + 1 + 1 + 1) % 4 = 3; omega) p R (by show R.val = 1024 * ((n0 + 1 + 1 + 1) / 4) + p.val; omega)]
  exact Cert.Spec.acc_blocks (degRow (V c main_arg1) R)

end Cert.KernelIdeal.Hand

end
-- ==== Proof.KI.R1Value.lean ====
/-
  Second aggregation layer with the linear decode, over the extended reals: what the region leaves in its output.

  Row block i is written back once, at its fourth point, holding for each of its rows r and each of the three output
  columns the decode of the second layer's row: the mean of the neighbours through the first weight matrix, the row
  itself through the second, the bias, then the decoder matrix and its bias. The eight row blocks cover the output.
-/
import proofs.«108018_j7043746365844_1_alg».proof.Proof.KI.R1ValAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

local notation "𝕄" => MT nD τ sig Unit (Elt F) ℕ (UR sig nD τ) ℕ

variable (V : (c : Dev nD) → (b : Ref sig .tc) → Buf (Elt Ideal) ((c : Thread nD τ).loc b))

/-! ## An entry of the output block after a row block's last point -/

theorem out_entry (c : Dev nD) (n0 : ℕ) (hn : n0 + 1 + 1 + 1 < cfg1.N) (h0 : n0 % 4 = 0) (p : Fin 1024) (q : Fin 3) (R : Fin 8192)
    (hR : R.val = 1024 * (n0 / 4) + p.val) (b : Cert.Spec.Arr1 128) (hb : ∀ q : Fin 128, V c main_v2 (ix2 (0 : Fin 1) q) = b (ix1 q))
    (bd : Cert.Spec.Arr1 3) (hbd : ∀ q : Fin 3, V c main_v3 (ix2 (0 : Fin 1) q) = bd (ix1 q)) :
    (outsAt1 V c (n0 + 1 + 1 + 1) hn).1 (ix2 p q) = Cert.Spec.decode (Cert.Spec.layer2 (V c main_v1) (V c main_arg1) (V c main_arg5) (V c main_arg6) b) (V c main_arg8) bd (ix2 R q) := by
  have hR3 : R.val = 1024 * ((⟨n0 + 1 + 1 + 1, hn⟩ : Fin cfg1.N).val / 4) + p.val := by
    show R.val = 1024 * ((n0 + 1 + 1 + 1) / 4) + p.val; omega
  rw [out_last V c (n0 + 1 + 1) hn (by omega)]
  refine (pay1_5_at (outsAt1 V c (n0 + 1 + 1 + 1) hn).2.2 (outsAt1 V c (n0 + 1 + 1 + 1) hn).2.1 (iblk1 V c 3 ⟨n0 + 1 + 1 + 1, hn⟩)
    (iblk1 V c 2 ⟨n0 + 1 + 1 + 1, hn⟩) (iblk1 V c 4 ⟨n0 + 1 + 1 + 1, hn⟩) (iblk1 V c 5 ⟨n0 + 1 + 1 + 1, hn⟩)
    (iblk1 V c 6 ⟨n0 + 1 + 1 + 1, hn⟩) (iblk1 V c 7 ⟨n0 + 1 + 1 + 1, hn⟩) p q).trans ?_
  rw [Cert.Spec.decode_ix2]
  unfold Cert.Spec.decodeAt
  refine congrArg₂ (· + ·) (Finset.sum_congr rfl fun k _ => congrArg₂ (· * ·) ?_ (blk1_6_at V c ⟨n0 + 1 + 1 + 1, hn⟩ k q))
    ((blk1_7_at V c ⟨n0 + 1 + 1 + 1, hn⟩ (0 : Fin 1) q).trans (hbd q))
  rw [Cert.Spec.layer2_ix2]
  unfold Cert.Spec.layer2At
  refine congrArg₂ (· + ·) (congrArg₂ (· + ·) (Finset.sum_congr rfl fun k' _ => ?_) (Finset.sum_congr rfl fun k' _ => ?_))
    ((blk1_5_at V c ⟨n0 + 1 + 1 + 1, hn⟩ (0 : Fin 1) k).trans (hb k))
  · rw [agg_full V c n0 hn h0 p k' R hR, deg_full V c n0 hn h0 p R hR, blk1_3_at]
  · rw [blk1_2_at V c ⟨n0 + 1 + 1 + 1, hn⟩ p k' R hR3, blk1_4_at]

/-- The same at a point and at indices given by their coordinates. -/
theorem out_entry_at (c : Dev nD) (t : Fin cfg1.N) (h3 : t.val % 4 = 3) (j : S1024x3.Idx) (i : S8192x3.Idx) (p : Fin 1024) (q : Fin 3)
    (R : Fin 8192) (hj : j = ix2 p q) (hi : i = ix2 R q) (hR : R.val = 1024 * (t.val / 4) + p.val) (b : Cert.Spec.Arr1 128) (hb : ∀ q : Fin 128, V c main_v2 (ix2 (0 : Fin 1) q) = b (ix1 q))
    (bd : Cert.Spec.Arr1 3) (hbd : ∀ q : Fin 3, V c main_v3 (ix2 (0 : Fin 1) q) = bd (ix1 q)) :
    (outsAt1 V c t.val t.isLt).1 j = Cert.Spec.decode (Cert.Spec.layer2 (V c main_v1) (V c main_arg1) (V c main_arg5) (V c main_arg6) b) (V c main_arg8) bd i := by
  subst hj; subst hi
  obtain ⟨tv, ht⟩ := t
  have h3' : tv % 4 = 3 := h3
  have hR' : R.val = 1024 * (tv / 4) + p.val := hR
  obtain ⟨n0, rfl⟩ : ∃ n0, tv = n0 + 1 + 1 + 1 := ⟨tv - 3, by omega⟩
  exact out_entry V c n0 ht (by omega) p q R (by omega) b hb bd hbd

/-! ## What a row block's last point writes back -/

theorem flushed1_eq (c : Dev nD) (t : Fin cfg1.N) (hf : (cfg1.win 8).flush t = true) (b : Cert.Spec.Arr1 128) (hb : ∀ q : Fin 128, V c main_v2 (ix2 (0 : Fin 1) q) = b (ix1 q))
    (bd : Cert.Spec.Arr1 3) (hbd : ∀ q : Fin 3, V c main_v3 (ix2 (0 : Fin 1) q) = bd (ix1 q)) :
    (dat1 V c).flushed 8 t = ((cfg1.win 8).blk t).view.read (Elt Ideal) (Cert.Spec.decode (Cert.Spec.layer2 (V c main_v1) (V c main_arg1) (V c main_arg5) (V c main_arg6) b) (V c main_arg8) bd) := by
  have h3 : t.val % 4 = 3 := (flush1_8 t).mp hf
  show (cfg1.win 8).cut (grid1.coords t) ((dat1 V c).after 8 t) = _
  rw [after1_8]
  obtain ⟨hN, -, -, -, -, -, -, -, -, -, -, -, -, -, -, -, -, a0, a1⟩ := tileIndex1 t
  funext j
  have hj0 : (j 0).val < 1024 := (j 0).isLt
  have hj1 : (j 1).val < 3 := (j 1).isLt
  show (outsAt1 V c t.val t.isLt).1 j = (Cert.Spec.decode (Cert.Spec.layer2 (V c main_v1) (V c main_arg1) (V c main_arg5) (V c main_arg6) b) (V c main_arg8) bd) (((cfg1.win 8).blk t).view.emb j)
  refine out_entry_at V c t h3 j (((cfg1.win 8).blk t).view.emb j) ⟨(j 0).val, hj0⟩ ⟨(j 1).val, hj1⟩
    ⟨win1_8.index t (0 : Fin 2) * 1024 + (j 0).val, by omega⟩ ?_ ?_ ?_ b hb bd hbd
  · funext a; match a with | ⟨0, _⟩ => rfl | ⟨1, _⟩ => rfl
  · funext a; apply Fin.ext
    match a with
    | ⟨0, _⟩ => show win1_8.index t (0 : Fin 2) * 1024 + 1 * (j 0).val = win1_8.index t (0 : Fin 2) * 1024 + (j 0).val; omega
    | ⟨1, _⟩ => show win1_8.index t (1 : Fin 2) * 3 + 1 * (j 1).val = (j 1).val; omega
  · show win1_8.index t (0 : Fin 2) * 1024 + (j 0).val = 1024 * (t.val / 4) + (j 0).val; omega

/-! ## The written blocks cover the output -/

theorem mem_tile1 (t : Fin cfg1.N) (i : S8192x3.Idx) :
    i ∈ ((cfg1.win 8).blk t).view.set ↔ ∀ a : Fin 2, win1_8.index t a * S1024x3.size a ≤ (i a).val ∧ (i a).val < win1_8.index t a * S1024x3.size a + S1024x3.size a := by
  show i ∈ ((View.whole main_v4).slice (win1_8.rect t)).set ↔ _
  rw [View.set_slice_whole, Rect.mem_set_unit]
  exact Iff.rfl

/-- Every row block is some last point's. -/
theorem tileOnto1 : ∀ q0 : Fin 8, ∃ t : Fin cfg1.N, t.val % 4 = 3 ∧ win1_8.index t = ![q0.val, 0] :=
  (by decide +kernel : ∀ q0 : Fin 8, ∃ t : Fin grid1.N, t.val % 4 = 3 ∧ win1_8.index t = ![q0.val, 0])

/-- Row `r` lies in row block `r / 1024`. -/
theorem cover1 (i : S8192x3.Idx) : ∃ t : Fin cfg1.N, (cfg1.win 8).flush t = true ∧ i ∈ ((cfg1.win 8).blk t).view.set := by
  have hi0 : (i 0).val < 8192 := (i 0).isLt
  have hi1 : (i 1).val < 3 := (i 1).isLt
  obtain ⟨t, h3, ht⟩ := tileOnto1 ⟨(i 0).val / 1024, by omega⟩
  have q0 : win1_8.index t (0 : Fin 2) = (i 0).val / 1024 := congrFun ht 0
  have q1 : win1_8.index t (1 : Fin 2) = 0 := congrFun ht 1
  refine ⟨t, (flush1_8 t).mpr h3, ?_⟩
  rw [mem_tile1]
  intro a
  match a with
  | ⟨0, _⟩ => show win1_8.index t (0 : Fin 2) * 1024 ≤ (i 0).val ∧ (i 0).val < win1_8.index t (0 : Fin 2) * 1024 + 1024; omega
  | ⟨1, _⟩ => show win1_8.index t (1 : Fin 2) * 3 ≤ (i 1).val ∧ (i 1).val < win1_8.index t (1 : Fin 2) * 3 + 3; omega

/-! ## The output array after the run -/

/-- After the last write-back the output holds the decoded second layer of the features, the adjacency and the weights
    the region was entered with. -/
theorem final1 (c : Dev nD) (b : Cert.Spec.Arr1 128) (hb : ∀ q : Fin 128, V c main_v2 (ix2 (0 : Fin 1) q) = b (ix1 q))
    (bd : Cert.Spec.Arr1 3) (hbd : ∀ q : Fin 3, V c main_v3 (ix2 (0 : Fin 1) q) = bd (ix1 q)) :
    (dat1 V c).arrAt 8 cfg1.N = Cert.Spec.decode (Cert.Spec.layer2 (V c main_v1) (V c main_arg1) (V c main_arg5) (V c main_arg6) b) (V c main_arg8) bd :=
  (dat1 V c).arrAt_eq_of_cover 8 (Cert.Spec.decode (Cert.Spec.layer2 (V c main_v1) (V c main_arg1) (V c main_arg5) (V c main_arg6) b) (V c main_arg8) bd) (fun t hf => flushed1_eq V c t hf b hb bd hbd) cover1

end Cert.KernelIdeal.Hand

end
-- ==== Proof.KI.R2Pay.lean ====
/-
  The pairwise-distance kernel: the stored tile as a composition of named parts.
-/
import proofs.«108018_j7043746365844_1_alg».proof.Proof.Gen.KernelIdeal.Launch
import proofs.«108018_j7043746365844_1_alg».proof.Proof.Gen.KernelIdeal.Skeleton
import proofs.«108018_j7043746365844_1_alg».proof.Proof.Gen.KernelIdeal.Points
import Idealize.ShloMosaic.Lib.Pipeline.FrameBody
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The payload in named parts (any float instance) -/

/-- The squared norms of the rows of a 2048 x 3 block, as a column. -/
def sqCol (x : Vec F S2048x3 .f32) : FVec F S2048x1 .f32 :=
  shapeCast S2048x1 (multiReduction .add [1] S2048
    (mulf (shapeCast S2048x3 x shapeCasts_S2048x3_S2048x3) (shapeCast S2048x3 x shapeCasts_S2048x3_S2048x3))
    0x00000000#32 reduces_S2048x3_S2048 (.inl rfl) rfl) shapeCasts_S2048_S2048x1

/-- The inner products of the rows of two blocks: the first times the transpose of the second. -/
def crossTile (x0 x1 : Vec F S2048x3 .f32) : FVec F S2048x2048 .f32 :=
  matmul dot_S2048x3_S3x2048_S2048x2048_1_0_0_1_n_n none (shapeCast S2048x3 x0 shapeCasts_S2048x3_S2048x3)
    (transpose S3x2048 [1, 0] (shapeCast S2048x3 x1 shapeCasts_S2048x3_S2048x3) transposes_S2048x3_p1_0_S3x2048)
    (constant S2048x2048 .f32 0x00000000#32)

/-- The squared distances, clamped below at zero. -/
def d2Tile (x0 x1 : Vec F S2048x3 .f32) : FVec F S2048x2048 .f32 :=
  maximumf
    (subf
      (addf (broadcastTo S2048x2048 (sqCol x0) broadcasts_S2048x1_S2048x2048)
        (broadcastTo S2048x2048 (transpose S1x2048 [1, 0] (sqCol x1) transposes_S2048x1_p1_0_S1x2048) broadcasts_S1x2048_S2048x2048))
      (mulf (broadcast S2048x2048 (Scalar.ofBits .f32 0x40000000#32)) (crossTile x0 x1)))
    (broadcast S2048x2048 (Scalar.ofBits .f32 0x00000000#32))

/-- The stored tile: the root of the clamped squared distance where that is positive, zero elsewhere. -/
theorem pay_eq (x0 x1 : Vec F S2048x3 .f32) :
    k2_pay1 x0 x1
      = select (cmpf .ogt (d2Tile x0 x1) (broadcast S2048x2048 (Scalar.ofBits .f32 0x00000000#32)))
          (sqrt (select (cmpf .ogt (d2Tile x0 x1) (broadcast S2048x2048 (Scalar.ofBits .f32 0x00000000#32)))
            (d2Tile x0 x1) (broadcast S2048x2048 (Scalar.ofBits .f32 0x3F800000#32))))
          (broadcast S2048x2048 (Scalar.ofBits .f32 0x00000000#32)) := rfl

end Cert.KernelIdeal.Hand

end
-- ==== Proof.KI.R2PayIdeal.lean ====
/-
  The pairwise-distance kernel over the extended reals: the stored tile read entry by entry.

  Entry (r, s) of the tile computed from blocks x0 and x1 is the distance between row r of x0 and row s of x1:
  |a|^2 + |b|^2 - 2 a.b, clamped below at zero, then its root where positive and zero elsewhere.
-/
import proofs.«108018_j7043746365844_1_alg».proof.Proof.KI.R2Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

local notation "c0" => Ideal.ofBits FTy.f32 0x00000000#32
local notation "c1" => Ideal.ofBits FTy.f32 0x3F800000#32
local notation "c2" => Ideal.ofBits FTy.f32 0x40000000#32

/-! ## Each part read at an index, over the extended reals -/

/-- The column of squared norms at row `r`: the sum of the squares of the row's three entries. -/
theorem sqCol_apply (x : Vec Ideal S2048x3 .f32) (r : Fin 2048) (u : Fin 1) :
    sqCol x (ix2 r u) = ∑ k : Fin 3, x (ix2 r k) * x (ix2 r k) := by
  unfold sqCol
  refine (shapeCast_apply _ shapeCasts_S2048_S2048x1 (ix2 r u) (ix1 r) (by
    have hu : u.val = 0 := by omega
    rw [Shape.rowMajor_val_one, Shape.rowMajor_val_two]
    show r.val = r.val * 1 + u.val
    omega)).trans ?_
  refine (Ideal.multiReduction_add_single _ 0x00000000#32 reduces_S2048x3_S2048 (.inl rfl) rfl (ix1 r)).trans ?_
  show ∑ k : Fin 3, _ = _
  refine Finset.sum_congr rfl fun k _ => ?_
  have hk : reduces_S2048x3_S2048.lift (ix1 r) k = ix2 r k := by
    funext ax; apply Fin.ext
    match ax with
    | ⟨0, _⟩ => rfl
    | ⟨1, _⟩ => rfl
  rw [shapeCast_self, hk]
  rfl

/-- The inner-product tile at `(r, s)`: row `r` of the first block against row `s` of the second. -/
theorem crossTile_apply (x0 x1 : Vec Ideal S2048x3 .f32) (r s : Fin 2048) :
    crossTile x0 x1 (ix2 r s) = ∑ k : Fin 3, x0 (ix2 r k) * x1 (ix2 s k) := by
  unfold crossTile
  rw [shapeCast_self, shapeCast_self]
  refine (Ideal.matmul_constant_zero_apply dot_S2048x3_S3x2048_S2048x2048_1_0_0_1_n_n none _ _ (ix2 r s)).trans ?_
  rw [← Equiv.sum_comp (contrEquiv1 dot_S2048x3_S3x2048_S2048x2048_1_0_0_1_n_n 3 rfl rfl).symm]
  refine Finset.sum_congr rfl fun k _ => ?_
  have ck := contrEquiv1_symm_val dot_S2048x3_S3x2048_S2048x2048_1_0_0_1_n_n 3 rfl rfl k
  have hl : dot_S2048x3_S3x2048_S2048x2048_1_0_0_1_n_n.lhsIdx (ix2 r s) ((contrEquiv1 _ 3 rfl rfl).symm k) = ix2 r k := by
    funext ax; apply Fin.ext
    match ax with
    | ⟨0, _⟩ => simp [DotDims.lhsIdx, dot_S2048x3_S3x2048_S2048x2048_1_0_0_1_n_n]; rfl
    | ⟨1, _⟩ => simp [DotDims.lhsIdx, dot_S2048x3_S3x2048_S2048x2048_1_0_0_1_n_n]; exact ck
  have hr : dot_S2048x3_S3x2048_S2048x2048_1_0_0_1_n_n.rhsIdx (ix2 r s) ((contrEquiv1 _ 3 rfl rfl).symm k) = ix2 k s := by
    funext ax; apply Fin.ext
    match ax with
    | ⟨0, _⟩ => simp [DotDims.rhsIdx, dot_S2048x3_S3x2048_S2048x2048_1_0_0_1_n_n]; exact ck
    | ⟨1, _⟩ => simp [DotDims.rhsIdx, dot_S2048x3_S3x2048_S2048x2048_1_0_0_1_n_n]; rfl
  rw [hl, hr, transpose_ix2_apply]

/-- A column spread over the tile's columns reads the column at the row. -/
theorem spreadCol_apply (v : FVec Ideal S2048x1 .f32) (r s : Fin 2048) :
    broadcastTo S2048x2048 v broadcasts_S2048x1_S2048x2048 (ix2 r s) = v (ix2 r (0 : Fin 1)) := by
  refine broadcastTo_apply v broadcasts_S2048x1_S2048x2048 (ix2 r s) (ix2 r (0 : Fin 1)) fun ax => ?_
  match ax with
  | ⟨0, _⟩ => rfl
  | ⟨1, _⟩ => rfl

/-- A column laid as a row and spread over the tile's rows reads the column at the tile's column. -/
theorem spreadRow_apply (v : FVec Ideal S2048x1 .f32) (r s : Fin 2048) :
    broadcastTo S2048x2048 (transpose S1x2048 [1, 0] v transposes_S2048x1_p1_0_S1x2048) broadcasts_S1x2048_S2048x2048 (ix2 r s)
      = v (ix2 s (0 : Fin 1)) := by
  rw [broadcastTo_1b_ab_apply, transpose_ix2_apply]

/-- The clamped squared distance at `(r, s)`. -/
theorem d2Tile_apply (x0 x1 : Vec Ideal S2048x3 .f32) (r s : Fin 2048) :
    d2Tile x0 x1 (ix2 r s)
      = max ((∑ k : Fin 3, x0 (ix2 r k) * x0 (ix2 r k)) + (∑ k : Fin 3, x1 (ix2 s k) * x1 (ix2 s k))
          - c2 * ∑ k : Fin 3, x0 (ix2 r k) * x1 (ix2 s k)) c0 := by
  unfold d2Tile
  rw [maximumf_apply, subf_apply, addf_apply, mulf_apply, spreadCol_apply, spreadRow_apply, sqCol_apply, sqCol_apply,
    crossTile_apply]
  rfl

/-- The distance from a clamped squared distance: its root where positive (the root taken of one elsewhere), zero elsewhere. -/
def rootOf (d : EReal) : EReal :=
  Scalar.select (Ideal.cmp .ogt d c0) (Ideal.sqrt (Scalar.select (Ideal.cmp .ogt d c0) d c1)) c0

/-- The stored tile at `(r, s)`. -/
theorem pay_apply (x0 x1 : Vec Ideal S2048x3 .f32) (r s : Fin 2048) :
    k2_pay1 x0 x1 (ix2 r s) = rootOf (d2Tile x0 x1 (ix2 r s)) := by
  rw [pay_eq]
  rfl

end Cert.KernelIdeal.Hand

end
-- ==== Proof.KI.R2Value.lean ====
/-
  The pairwise-distance kernel over the extended reals: what the region leaves in the distance matrix.

  Each grid point (i, j) writes back tile (i, j), whose entry (r, s) is the distance between points 2048 i + r and
  2048 j + s; the sixteen tiles cover the 8192 x 8192 matrix, so it ends as the distance matrix of the points.
-/
import proofs.«108018_j7043746365844_1_alg».proof.Proof.KI.R2Dat
import proofs.«108018_j7043746365844_1_alg».proof.Proof.KI.R2PayIdeal
import proofs.«108018_j7043746365844_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt Ideal) ((c : Thread nD τ).loc b))

/-! ## One entry of a tile against the whole-array function -/

/-- Entry `(r, s)` of the tile computed from two blocks whose rows `r` and `s` are rows `R` and `S` of the point
    matrix `y` is the distance between points `R` and `S`. -/
theorem tile_entry (y : Cert.Spec.Arr2 8192 3) (x0 x1 : Vec Ideal S2048x3 .f32) (r s : Fin 2048) (R S : Fin 8192)
    (h0 : ∀ k : Fin 3, x0 (ix2 r k) = y (ix2 R k)) (h1 : ∀ k : Fin 3, x1 (ix2 s k) = y (ix2 S k)) :
    k2_pay1 x0 x1 (ix2 r s) = Cert.Spec.cdist y (ix2 R S) := by
  rw [pay_apply, d2Tile_apply, Cert.Spec.cdist_ix2]
  unfold Cert.Spec.distAt Cert.Spec.d2 Cert.Spec.sq Cert.Spec.cross rootOf
  simp only [h0, h1]

/-- The same with the two indices given by their coordinates. -/
theorem tile_entry_at (y : Cert.Spec.Arr2 8192 3) (x0 x1 : Vec Ideal S2048x3 .f32) (j : S2048x2048.Idx) (i : S8192x8192.Idx)
    (r s : Fin 2048) (R S : Fin 8192) (hj : j = ix2 r s) (hi : i = ix2 R S)
    (h0 : ∀ k : Fin 3, x0 (ix2 r k) = y (ix2 R k)) (h1 : ∀ k : Fin 3, x1 (ix2 s k) = y (ix2 S k)) :
    k2_pay1 x0 x1 j = Cert.Spec.cdist y i := by
  subst hj; subst hi
  exact tile_entry y x0 x1 r s R S h0 h1

/-! ## The index maps over the grid -/

theorem origin2 : (![0, 0] : Fin 2 → Nat) = fun _ => 0 := funext fun a => by fin_cases a <;> rfl

/-- At tile `(i, j)` the row window is at block `(i, 0)`, the column window at block `(j, 0)`, the output at `(i, j)`. -/
theorem tileIndex2 : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 3 ∧ win2_2.index t (1 : Fin 2) ≤ 3 :=
  (by decide +kernel : ∀ t : Fin grid2.N, _)

/-- Every tile is some point's. -/
theorem tileOnto2 : ∀ (q0 : Fin 4) (q1 : Fin 4), ∃ t : Fin cfg2.N, win2_2.index t = ![q0.val, q1.val] :=
  (by decide +kernel : ∀ (q0 : Fin 4) (q1 : Fin 4), ∃ t : Fin grid2.N, win2_2.index t = ![q0.val, q1.val])

/-! ## What each point writes back -/

/-- Point `t` writes back its tile of the distance matrix of the point matrix as the region finds it. -/
theorem flushed2_eq (c : Dev nD) (t : Fin cfg2.N) :
    (dat2 V c).flushed 2 t = ((cfg2.win 2).blk t).view.read (Elt Ideal) (Cert.Spec.cdist (V c main_v4)) := by
  show (cfg2.win 2).cut (grid2.coords t) ((dat2 V c).after 2 t) = _
  rw [after2_2]
  unfold out2_2
  rw [View.canon_unit_zero origin2]
  simp only [View.ld_unit_zero (S := S2048x3) origin2]
  obtain ⟨e0, e1, e2, e3, e4, e5⟩ := tileIndex2 t
  funext j
  have hj0 : (j 0).val < 2048 := (j 0).isLt
  have hj1 : (j 1).val < 2048 := (j 1).isLt
  show k2_pay1 (iblk2 V c 0 t) (iblk2 V c 1 t) j = Cert.Spec.cdist (V c main_v4) (((cfg2.win 2).blk t).view.emb j)
  refine tile_entry_at (V c main_v4) (iblk2 V c 0 t) (iblk2 V c 1 t) j (((cfg2.win 2).blk t).view.emb j)
    ⟨(j 0).val, hj0⟩ ⟨(j 1).val, hj1⟩
    ⟨win2_2.index t (0 : Fin 2) * 2048 + (j 0).val, by omega⟩ ⟨win2_2.index t (1 : Fin 2) * 2048 + (j 1).val, by omega⟩ ?_ ?_ ?_ ?_
  · funext a; match a with | ⟨0, _⟩ => rfl | ⟨1, _⟩ => rfl
  · funext a; apply Fin.ext
    match a with
    | ⟨0, _⟩ => show win2_2.index t (0 : Fin 2) * 2048 + 1 * (j 0).val = win2_2.index t (0 : Fin 2) * 2048 + (j 0).val; omega
    | ⟨1, _⟩ => show win2_2.index t (1 : Fin 2) * 2048 + 1 * (j 1).val = win2_2.index t (1 : Fin 2) * 2048 + (j 1).val; omega
  · intro k
    have hk : k.val < 3 := k.isLt
    show V c main_v4 (((cfg2.win 0).blk t).view.emb (ix2 (⟨(j 0).val, hj0⟩ : Fin 2048) k)) = V c main_v4 _
    refine congrArg (V c main_v4) (funext fun a => Fin.ext ?_)
    match a with
    | ⟨0, _⟩ => show win2_0.index t (0 : Fin 2) * 2048 + 1 * (j 0).val = win2_2.index t (0 : Fin 2) * 2048 + (j 0).val; omega
    | ⟨1, _⟩ => show win2_0.index t (1 : Fin 2) * 3 + 1 * k.val = k.val; omega
  · intro k
    have hk : k.val < 3 := k.isLt
    show V c main_v4 (((cfg2.win 1).blk t).view.emb (ix2 (⟨(j 1).val, hj1⟩ : Fin 2048) k)) = V c main_v4 _
    refine congrArg (V c main_v4) (funext fun a => Fin.ext ?_)
    match a with
    | ⟨0, _⟩ => show win2_1.index t (0 : Fin 2) * 2048 + 1 * (j 1).val = win2_2.index t (1 : Fin 2) * 2048 + (j 1).val; omega
    | ⟨1, _⟩ => show win2_1.index t (1 : Fin 2) * 3 + 1 * k.val = k.val; omega

/-! ## The tiles cover the distance matrix -/

/-- An index is in point `t`'s tile iff each coordinate is in the tile's range on its axis. -/
theorem mem_tile2 (t : Fin cfg2.N) (i : S8192x8192.Idx) :
    i ∈ ((cfg2.win 2).blk t).view.set ↔ ∀ a : Fin 2, win2_2.index t a * S2048x2048.size a ≤ (i a).val ∧ (i a).val < win2_2.index t a * S2048x2048.size a + S2048x2048.size a := by
  show i ∈ ((View.whole main_v5).slice (win2_2.rect t)).set ↔ _
  rw [View.set_slice_whole, Rect.mem_set_unit]
  exact Iff.rfl

/-- Entry `(r, s)` lies in tile `(r / 2048, s / 2048)`. -/
theorem cover2 (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := tileOnto2 ⟨(i 0).val / 2048, by omega⟩ ⟨(i 1).val / 2048, by omega⟩
  have q0 : win2_2.index t (0 : Fin 2) = (i 0).val / 2048 := congrFun ht 0
  have q1 : win2_2.index t (1 : Fin 2) = (i 1).val / 2048 := congrFun ht 1
  refine ⟨t, flush2_2 t, ?_⟩
  rw [mem_tile2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 2048 ≤ (i 1).val ∧ (i 1).val < win2_2.index t (1 : Fin 2) * 2048 + 2048; omega

/-! ## The distance matrix after the run -/

/-- After the last write-back the output array holds the distance matrix of the point matrix the region was entered with. -/
theorem final2 (c : Dev nD) : (dat2 V c).arrAt 2 cfg2.N = Cert.Spec.cdist (V c main_v4) :=
  (dat2 V c).arrAt_eq_of_cover 2 (Cert.Spec.cdist (V c main_v4)) (fun t _ => flushed2_eq V c t) cover2

end Cert.KernelIdeal.Hand

end
-- ==== Proof.KI.Value.lean ====
/-
  The idealized kernel's result, read as the specification.

  The last valuation holds the distance kernel's output array, which is the pairwise-distance function of the
  decoded points; these are the second layer's output array, the decode of the second aggregation layer of the first
  layer's output; and that is the first aggregation layer of the arguments. Between the regions the host only
  reshapes the three bias vectors to one-row matrices, whose entry (0, q) is the vector's entry q, and no item ever
  writes an argument array.
-/
import proofs.«108018_j7043746365844_1_alg».proof.Proof.KI.Main
import proofs.«108018_j7043746365844_1_alg».proof.Proof.KI.R0ValFinal
import proofs.«108018_j7043746365844_1_alg».proof.Proof.KI.R1Value
import proofs.«108018_j7043746365844_1_alg».proof.Proof.KI.R2Value
import proofs.«108018_j7043746365844_1_alg».proof.Proof.Spec
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt Ideal) ℓ) (ρ : Dev nD → PrngReg)

/-! ## The three reshaped biases -/

theorem v0_eq (c : Dev nD) : (T1 m c main_v0 : S1x128.Idx → EReal) = shapeCast S1x128 (m ((c : Thread nD τ).loc main_arg4)) shapeCasts_S128_S1x128 := by
  show StableHlo.after hostOps0 (fun b => m (c, b)) (Proc.devRef .tc main_v0) = _
  after_results
  rfl
theorem v0_at (c : Dev nD) (q : Fin 128) : T1 m c main_v0 (ix2 (0 : Fin 1) q) = m ((c : Thread nD τ).loc main_arg4) (ix1 q) := by
  rw [v0_eq]; exact shapeCast_a_1a_apply _ _ _ _

/-- An argument array is as launched when the second host stretch runs. -/
theorem W2_arg (c : Dev nD) (b : Ref sig .tc) (h1 : b ≠ main_v1) (h0 : b ∉ hostOps0_W) : T2 m c b = m ((c : Thread nD τ).loc b) :=
  (W2_of_ne m c b h1).trans (W1_arg m c b h0)
theorem W3_argm (c : Dev nD) (b : Ref sig .tc) (h3 : b ∉ hostOps1_W) (h1 : b ≠ main_v1) (h0 : b ∉ hostOps0_W) : T3 m c b = m ((c : Thread nD τ).loc b) :=
  (W3_arg m c b h3).trans (W2_arg m c b h1 h0)

theorem v2_eq (c : Dev nD) : (T3 m c main_v2 : S1x128.Idx → EReal) = shapeCast S1x128 (m ((c : Thread nD τ).loc main_arg7)) shapeCasts_S128_S1x128 := by
  have e : (T3 m c main_v2 : S1x128.Idx → EReal) = shapeCast S1x128 (T2 m c main_arg7) shapeCasts_S128_S1x128 := by
    show StableHlo.after hostOps1 (W2 m c) (Proc.devRef .tc main_v2) = _
    after_results
    rfl
  rw [e, W2_arg m c main_arg7 (by decide) (by decide)]
theorem v2_at (c : Dev nD) (q : Fin 128) : T3 m c main_v2 (ix2 (0 : Fin 1) q) = m ((c : Thread nD τ).loc main_arg7) (ix1 q) := by
  rw [v2_eq]; exact shapeCast_a_1a_apply _ _ _ _
theorem v3_eq (c : Dev nD) : (T3 m c main_v3 : S1x3.Idx → EReal) = shapeCast S1x3 (m ((c : Thread nD τ).loc main_arg9)) shapeCasts_S3_S1x3 := by
  have e : (T3 m c main_v3 : S1x3.Idx → EReal) = shapeCast S1x3 (T2 m c main_arg9) shapeCasts_S3_S1x3 := by
    show StableHlo.after hostOps1 (W2 m c) (Proc.devRef .tc main_v3) = _
    after_results
    rfl
  rw [e, W2_arg m c main_arg9 (by decide) (by decide)]
theorem v3_at (c : Dev nD) (q : Fin 3) : T3 m c main_v3 (ix2 (0 : Fin 1) q) = m ((c : Thread nD τ).loc main_arg9) (ix1 q) := by
  rw [v3_eq]; exact shapeCast_a_1a_apply _ _ _ _

/-! ## The result array is the specification of the argument arrays -/

/-- After the first layer. -/
theorem h1_eq (c : Dev nD) : T3 m c main_v1 = Cert.Spec.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W3_arg m c main_v1 (by decide), W2_out, final0 (T1 m) c _ (v0_at m c),
    W1_arg m c main_arg0 (by decide), W1_arg m c main_arg1 (by decide), W1_arg m c main_arg2 (by decide), W1_arg m c main_arg3 (by decide)]

/-- After the second layer and the decode. -/
theorem y_eq (c : Dev nD) : T4 m c main_v4 = Cert.Spec.decode (Cert.Spec.layer2 (Cert.Spec.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg1)) (m ((c.tc : Thread nD τ).loc main_arg5)) (m ((c.tc : Thread nD τ).loc main_arg6)) (m ((c.tc : Thread nD τ).loc main_arg7)))
      (m ((c.tc : Thread nD τ).loc main_arg8)) (m ((c.tc : Thread nD τ).loc main_arg9)) := by
  rw [W4_out, final1 (T3 m) c _ (v2_at m c) _ (v3_at m c), h1_eq,
    W3_argm m c main_arg1 (by decide) (by decide) (by decide), W3_argm m c main_arg5 (by decide) (by decide) (by decide),
    W3_argm m c main_arg6 (by decide) (by decide) (by decide), W3_argm m c main_arg8 (by decide) (by decide) (by decide)]

/-- The result. -/
theorem result_eq (c : Dev nD) : T5 m c main_v5 = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W5_out, final2 (T4 m) c, y_eq]
  rfl

/-- THE KERNEL'S RUN, read as the specification: every weakly fair execution terminates with the result array at the
    specification of the argument arrays and the arguments unchanged. -/
theorem run_spec : θ_run defs (onTc (τ := τ) (main (F := Ideal))) ⟨m, fun _ => 0, ρ⟩ (fun r => ∀ c : Dev nD,
      r.2.mem ((c.tc : Thread nD τ).loc main_v5) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_v5 (by decide))).trans (result_eq m c),
    (h c _ (mem_uc main_arg0 (by decide))).trans (W5_arg m c main_arg0 (by decide) (by decide) (by decide) (by decide) (by decide)),
    (h c _ (mem_uc main_arg1 (by decide))).trans (W5_arg m c main_arg1 (by decide) (by decide) (by decide) (by decide) (by decide)),
    (h c _ (mem_uc main_arg2 (by decide))).trans (W5_arg m c main_arg2 (by decide) (by decide) (by decide) (by decide) (by decide)),
    (h c _ (mem_uc main_arg3 (by decide))).trans (W5_arg m c main_arg3 (by decide) (by decide) (by decide) (by decide) (by decide)),
    (h c _ (mem_uc main_arg4 (by decide))).trans (W5_arg m c main_arg4 (by decide) (by decide) (by decide) (by decide) (by decide)),
    (h c _ (mem_uc main_arg5 (by decide))).trans (W5_arg m c main_arg5 (by decide) (by decide) (by decide) (by decide) (by decide)),
    (h c _ (mem_uc main_arg6 (by decide))).trans (W5_arg m c main_arg6 (by decide) (by decide) (by decide) (by decide) (by decide)),
    (h c _ (mem_uc main_arg7 (by decide))).trans (W5_arg m c main_arg7 (by decide) (by decide) (by decide) (by decide) (by decide)),
    (h c _ (mem_uc main_arg8 (by decide))).trans (W5_arg m c main_arg8 (by decide) (by decide) (by decide) (by decide) (by decide)),
    (h c _ (mem_uc main_arg9 (by decide))).trans (W5_arg m c main_arg9 (by decide) (by decide) (by decide) (by decide) (by decide))⟩) (run_all m ρ)

end Cert.KernelIdeal.Hand

end
-- ==== Proof.RefSpec0.lean ====
/-
  The reference read at an index, stage by stage: small facts shared by the stages. An index function written by
  cases on the axis is the index built from its two coordinates.
-/
import proofs.«108018_j7043746365844_1_alg».proof.Proof.Gen.ReferenceIdeal.Read
import proofs.«108018_j7043746365844_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- A rank-2 index with the coordinates `a`, `b` is `ix2 a b`. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index with the coordinate `a` is `ix1 a`. -/
theorem idx1_eq {n : Nat} (f : (⟨1, ![n]⟩ : Shape).Idx) (a : Fin n) (h0 : (f 0).val = a.val) : f = ix1 a :=
  funext fun d => Fin.ext (by match d with | ⟨0, _⟩ => exact h0)

/-- The clamped degree, as the reference computes it for layer 1, broadcast along the 512 features. -/
theorem v5_eq (x1 : (⟨S8192x8192, .f32⟩ : BufTy).Contents (Elt Ideal)) (r : Fin 8192) (k : Fin 512) :
    val_main_v5 (F := Ideal) x1 (ix2 r k) = max (Cert.Spec.deg x1 r) (Ideal.ofBits .f32 0x3F800000#32) := by
  rw [val_main_v5_apply, val_main_v3_apply, val_main_v1_apply, val_main_v0_apply, val_main_cst_apply,
    val_main_v2_apply, val_main_cst_0_apply]
  simp only [Ideal.maximumf_def, Ideal.ofBits_def]
  rw [Ideal.ofBits_zero_f32, zero_add]
  unfold Cert.Spec.deg
  refine congrArg (max · _) (Finset.sum_congr rfl fun j _ => congrArg x1 (idx2_eq _ r j rfl rfl))

/-- The neighbour sum, as the reference computes it for layer 1. -/
theorem v4_eq (x0 : (⟨S8192x512, .f32⟩ : BufTy).Contents (Elt Ideal)) (x1 : (⟨S8192x8192, .f32⟩ : BufTy).Contents (Elt Ideal))
    (r : Fin 8192) (k : Fin 512) : val_main_v4 (F := Ideal) x0 x1 (ix2 r k) = Cert.Spec.agg512 x1 x0 r k := by
  rw [val_main_v4_apply]
  unfold Cert.Spec.agg512
  refine Finset.sum_congr rfl fun j _ => ?_
  rw [idx2_eq (lidx_main_v4 (ix2 r k) j) r j rfl rfl, idx2_eq (ridx_main_v4 (ix2 r k) j) j k rfl rfl]

/-- The mean over the neighbours, layer 1. -/
theorem v6_eq (x0 : (⟨S8192x512, .f32⟩ : BufTy).Contents (Elt Ideal)) (x1 : (⟨S8192x8192, .f32⟩ : BufTy).Contents (Elt Ideal))
    (r : Fin 8192) (k : Fin 512) :
    val_main_v6 (F := Ideal) x0 x1 (ix2 r k)
      = Ideal.div (Cert.Spec.agg512 x1 x0 r k) (max (Cert.Spec.deg x1 r) (Ideal.ofBits .f32 0x3F800000#32)) := by
  rw [val_main_v6_apply, v4_eq, v5_eq, Ideal.hostDivf_def]

end Cert.ReferenceIdeal.RefValue

end
-- ==== Proof.RefSpec1.lean ====
/-
  The reference read at an index: layer 1. The value the reference writes after its first maximum with zero is the
  specification's first layer of the arguments.
-/
import proofs.«108018_j7043746365844_1_alg».proof.Proof.RefSpec0

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Layer 1 of the reference at row `r`, column `q`. -/
theorem v13_at (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (r : Fin 8192) (q : Fin 128) :
    val_main_v13 (F := Ideal) x0 x1 x2 x3 x4 (ix2 r q) = Cert.Spec.layer1At x0 x1 x2 x3 x4 r q := by
  rw [val_main_v13_apply, val_main_v12_apply, val_main_v9_apply, val_main_v7_apply, val_main_v8_apply,
    val_main_v11_apply, val_main_v10_apply, val_main_call0_v0_apply, val_main_call0_cst_apply]
  simp only [Ideal.maximumf_def, Ideal.addf_def, Ideal.ofBits_def]
  unfold Cert.Spec.layer1At
  refine congrArg (max · _) (congrArg₂ (· + ·) (congrArg₂ (· + ·) ?_ ?_) ?_)
  · refine Finset.sum_congr rfl fun k _ => ?_
    rw [idx2_eq (lidx_main_v7 (ix2 r q) k) r k rfl rfl, idx2_eq (ridx_main_v7 (ix2 r q) k) k q rfl rfl, v6_eq]
  · refine Finset.sum_congr rfl fun k _ => ?_
    rw [idx2_eq (lidx_main_v8 (ix2 r q) k) r k rfl rfl, idx2_eq (ridx_main_v8 (ix2 r q) k) k q rfl rfl]
  · exact congrArg x4 (idx1_eq _ q rfl)

/-- Layer 1 of the reference is the specification's. -/
theorem v13_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal)) :
    val_main_v13 (F := Ideal) x0 x1 x2 x3 x4 = Cert.Spec.layer1 x0 x1 x2 x3 x4 := by
  funext i
  obtain ⟨r, q, rfl⟩ : ∃ (r : Fin 8192) (q : Fin 128), i = ix2 r q := ⟨i 0, i 1, eq_ix2 i⟩
  exact v13_at x0 x1 x2 x3 x4 r q

end Cert.ReferenceIdeal.RefValue

end
-- ==== Proof.RefSpec2.lean ====
/-
  The reference read at an index: layer 2, over the first layer's value.
-/
import proofs.«108018_j7043746365844_1_alg».proof.Proof.RefSpec0

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The clamped degree, as the reference computes it for layer 2, broadcast along the 128 features. -/
theorem v19_eq (x1 : (⟨S8192x8192, .f32⟩ : BufTy).Contents (Elt Ideal)) (r : Fin 8192) (k : Fin 128) :
    val_main_v19 (F := Ideal) x1 (ix2 r k) = max (Cert.Spec.deg x1 r) (Ideal.ofBits .f32 0x3F800000#32) := by
  rw [val_main_v19_apply, val_main_v17_apply, val_main_v15_apply, val_main_v14_apply, val_main_cst_1_apply,
    val_main_v16_apply, val_main_cst_2_apply]
  simp only [Ideal.maximumf_def, Ideal.ofBits_def]
  rw [Ideal.ofBits_zero_f32, zero_add]
  unfold Cert.Spec.deg
  refine congrArg (max · _) (Finset.sum_congr rfl fun j _ => congrArg x1 (idx2_eq _ r j rfl rfl))

/-- The neighbour sum of the first layer's value. -/
theorem v18_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (r : Fin 8192) (k : Fin 128) :
    val_main_v18 (F := Ideal) x0 x1 x2 x3 x4 (ix2 r k) = Cert.Spec.agg128 x1 (val_main_v13 (F := Ideal) x0 x1 x2 x3 x4) r k := by
  rw [val_main_v18_apply]
  unfold Cert.Spec.agg128
  refine Finset.sum_congr rfl fun j _ => ?_
  rw [idx2_eq (lidx_main_v18 (ix2 r k) j) r j rfl rfl, idx2_eq (ridx_main_v18 (ix2 r k) j) j k rfl rfl]

/-- The mean over the neighbours, layer 2. -/
theorem v20_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (r : Fin 8192) (k : Fin 128) :
    val_main_v20 (F := Ideal) x0 x1 x2 x3 x4 (ix2 r k)
      = Ideal.div (Cert.Spec.agg128 x1 (val_main_v13 (F := Ideal) x0 x1 x2 x3 x4) r k)
          (max (Cert.Spec.deg x1 r) (Ideal.ofBits .f32 0x3F800000#32)) := by
  rw [val_main_v20_apply, v18_eq, v19_eq, Ideal.hostDivf_def]

/-- Layer 2 of the reference at row `r`, column `q`. -/
theorem v26_at (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (r : Fin 8192) (q : Fin 128) :
    val_main_v26 (F := Ideal) x0 x1 x2 x3 x4 x5 x6 x7 (ix2 r q)
      = Cert.Spec.layer2At (val_main_v13 (F := Ideal) x0 x1 x2 x3 x4) x1 x5 x6 x7 r q := by
  rw [val_main_v26_apply, val_main_v23_apply, val_main_v21_apply, val_main_v22_apply,
    val_main_v25_apply, val_main_v24_apply]
  simp only [Ideal.addf_def]
  unfold Cert.Spec.layer2At
  refine congrArg₂ (· + ·) (congrArg₂ (· + ·) ?_ ?_) ?_
  · refine Finset.sum_congr rfl fun k _ => ?_
    rw [idx2_eq (lidx_main_v21 (ix2 r q) k) r k rfl rfl, idx2_eq (ridx_main_v21 (ix2 r q) k) k q rfl rfl, v20_eq]
  · refine Finset.sum_congr rfl fun k _ => ?_
    rw [idx2_eq (lidx_main_v22 (ix2 r q) k) r k rfl rfl, idx2_eq (ridx_main_v22 (ix2 r q) k) k q rfl rfl]
  · exact congrArg x7 (idx1_eq _ q rfl)

/-- Layer 2 of the reference is the specification's, over the reference's first layer. -/
theorem v26_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v26 (F := Ideal) x0 x1 x2 x3 x4 x5 x6 x7 = Cert.Spec.layer2 (val_main_v13 (F := Ideal) x0 x1 x2 x3 x4) x1 x5 x6 x7 := by
  funext i
  obtain ⟨r, q, rfl⟩ : ∃ (r : Fin 8192) (q : Fin 128), i = ix2 r q := ⟨i 0, i 1, eq_ix2 i⟩
  exact v26_at x0 x1 x2 x3 x4 x5 x6 x7 r q

end Cert.ReferenceIdeal.RefValue

end
-- ==== Proof.RefSpec3.lean ====
/-
  The reference read at an index: the linear decode, over the second layer's value.
-/
import proofs.«108018_j7043746365844_1_alg».proof.Proof.RefSpec0

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The decode of the reference at row `r`, coordinate `q`. -/
theorem v30_at (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal))
    (r : Fin 8192) (q : Fin 3) :
    val_main_v30 (F := Ideal) x0 x1 x2 x3 x4 x5 x6 x7 x8 x9 (ix2 r q)
      = Cert.Spec.decodeAt (val_main_v26 (F := Ideal) x0 x1 x2 x3 x4 x5 x6 x7) x8 x9 r q := by
  rw [val_main_v30_apply, val_main_v27_apply, val_main_v29_apply, val_main_v28_apply]
  simp only [Ideal.addf_def]
  unfold Cert.Spec.decodeAt
  refine congrArg₂ (· + ·) ?_ ?_
  · refine Finset.sum_congr rfl fun k _ => ?_
    rw [idx2_eq (lidx_main_v27 (ix2 r q) k) r k rfl rfl, idx2_eq (ridx_main_v27 (ix2 r q) k) k q rfl rfl]
  · exact congrArg x9 (idx1_eq _ q rfl)

/-- The decode of the reference is the specification's, over the reference's second layer. -/
theorem v30_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal)) :
    val_main_v30 (F := Ideal) x0 x1 x2 x3 x4 x5 x6 x7 x8 x9 = Cert.Spec.decode (val_main_v26 (F := Ideal) x0 x1 x2 x3 x4 x5 x6 x7) x8 x9 := by
  funext i
  obtain ⟨r, q, rfl⟩ : ∃ (r : Fin 8192) (q : Fin 3), i = ix2 r q := ⟨i 0, i 1, eq_ix2 i⟩
  exact v30_at x0 x1 x2 x3 x4 x5 x6 x7 x8 x9 r q

end Cert.ReferenceIdeal.RefValue

end
-- ==== Proof.RefSpec4.lean ====
/-
  The reference read at an index: the pairwise distance, over the decoded points.
-/
import proofs.«108018_j7043746365844_1_alg».proof.Proof.RefSpec0

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The squared norm of point `r`, as the reference sums it. -/
theorem v32_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal))
    (r : Fin 8192) :
    val_main_v32 (F := Ideal) x0 x1 x2 x3 x4 x5 x6 x7 x8 x9 (ix1 r) = Cert.Spec.sq (val_main_v30 (F := Ideal) x0 x1 x2 x3 x4 x5 x6 x7 x8 x9) r := by
  rw [val_main_v32_apply, val_main_cst_3_apply]
  simp only [Ideal.ofBits_def]
  rw [Ideal.ofBits_zero_f32, zero_add]
  unfold Cert.Spec.sq
  refine Finset.sum_congr rfl fun k _ => ?_
  rw [val_main_v31_apply, Ideal.mulf_def, idx2_eq (idx_main_v32 (ix1 r) k) r k rfl rfl]

/-- The inner product of points `r` and `s`, as the reference contracts it. -/
theorem v39_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal))
    (r s : Fin 8192) :
    val_main_v39 (F := Ideal) x0 x1 x2 x3 x4 x5 x6 x7 x8 x9 (ix2 r s) = Cert.Spec.cross (val_main_v30 (F := Ideal) x0 x1 x2 x3 x4 x5 x6 x7 x8 x9) r s := by
  rw [val_main_v39_apply]
  unfold Cert.Spec.cross
  refine Finset.sum_congr rfl fun k _ => ?_
  rw [val_main_v38_apply, idx2_eq (lidx_main_v39 (ix2 r s) k) r k rfl rfl,
    idx2_eq (idx_main_v38 (ridx_main_v39 (ix2 r s) k)) s k rfl rfl]

/-- The clamped squared distance of the reference. -/
theorem v44_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal))
    (r s : Fin 8192) :
    val_main_v44 (F := Ideal) x0 x1 x2 x3 x4 x5 x6 x7 x8 x9 (ix2 r s) = Cert.Spec.d2 (val_main_v30 (F := Ideal) x0 x1 x2 x3 x4 x5 x6 x7 x8 x9) r s := by
  rw [val_main_v44_apply, val_main_v42_apply, val_main_v37_apply, val_main_v35_apply, val_main_v33_apply,
    val_main_v36_apply, val_main_v34_apply, val_main_v41_apply, val_main_v40_apply, val_main_cst_4_apply,
    val_main_v43_apply, val_main_cst_5_apply, v39_eq,
    idx1_eq (idx_main_v33 (idx_main_v35 (ix2 r s))) r rfl, idx1_eq (idx_main_v34 (idx_main_v36 (ix2 r s))) s rfl,
    v32_eq, v32_eq]
  simp only [Ideal.maximumf_def, Ideal.subf_def, Ideal.addf_def, Ideal.mulf_def, Ideal.ofBits_def]
  rfl

/-- The distance of the reference at `(r, s)`. -/
theorem v51_at (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal))
    (r s : Fin 8192) :
    val_main_v51 (F := Ideal) x0 x1 x2 x3 x4 x5 x6 x7 x8 x9 (ix2 r s) = Cert.Spec.distAt (val_main_v30 (F := Ideal) x0 x1 x2 x3 x4 x5 x6 x7 x8 x9) r s := by
  rw [val_main_v51_apply, val_main_v46_apply, val_main_v50_apply, val_main_v49_apply, val_main_v48_apply,
    val_main_v45_apply, val_main_cst_6_apply, val_main_v47_apply, val_main_cst_7_apply,
    val_main_call1_v1_apply, val_main_call1_v0_apply, val_main_cst_8_apply,
    val_main_call2_v1_apply, val_main_call2_v0_apply, val_main_cst_9_apply, v44_eq]
  simp only [Ideal.cmpf_def, Ideal.hostUnary_sqrt_def, Ideal.ofBits_def]
  rfl

/-- The distance of the reference is the specification's, over the reference's decoded points. -/
theorem v51_eq (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal)) :
    val_main_v51 (F := Ideal) x0 x1 x2 x3 x4 x5 x6 x7 x8 x9 = Cert.Spec.cdist (val_main_v30 (F := Ideal) x0 x1 x2 x3 x4 x5 x6 x7 x8 x9) := by
  funext i
  obtain ⟨r, s, rfl⟩ : ∃ (r s : Fin 8192), i = ix2 r s := ⟨i 0, i 1, eq_ix2 i⟩
  exact v51_at x0 x1 x2 x3 x4 x5 x6 x7 x8 x9 r s

end Cert.ReferenceIdeal.RefValue

end
-- ==== Proof.RefSpec.lean ====
/-
  The reference computes the specification: on every device, every weakly fair execution of the reference ends with
  its result buffer holding the specification's function of the ten argument buffers, the arguments unchanged.
-/
import proofs.«108018_j7043746365844_1_alg».proof.Proof.RefSpec1
import proofs.«108018_j7043746365844_1_alg».proof.Proof.RefSpec2
import proofs.«108018_j7043746365844_1_alg».proof.Proof.RefSpec3
import proofs.«108018_j7043746365844_1_alg».proof.Proof.RefSpec4

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The reference's result, as a function of its ten arguments, is the specification. -/
theorem val_is_G (x0 : (⟨S8192x512, .f32⟩ : BufTy).Contents (Elt Ideal)) (x1 : (⟨S8192x8192, .f32⟩ : BufTy).Contents (Elt Ideal))
    (x2 x3 : (⟨S512x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x3, .f32⟩ : BufTy).Contents (Elt Ideal)) (x9 : (⟨S3, .f32⟩ : BufTy).Contents (Elt Ideal)) :
    val_main_v51 (F := Ideal) x0 x1 x2 x3 x4 x5 x6 x7 x8 x9 = Cert.Spec.G x0 x1 x2 x3 x4 x5 x6 x7 x8 x9 := by
  rw [v51_eq, v30_eq, v26_eq, v13_eq]
  rfl

/-- The run's result term is the specification of the argument buffers. -/
theorem ref_is_G (m : (ℓ : Loc nD τ sig) → Buf (Elt Ideal) ℓ) (c : Dev nD) :
    Cert.ReferenceIdeal.Value.res_main_v51 m c = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (val_main_v51_eq (F := Ideal) m c).trans (val_is_G _ _ _ _ _ _ _ _ _ _)

/-- Every weakly fair execution of the reference from zero counters terminates with the result buffer at the
    specification of the argument buffers and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1).trans (ref_is_G m c), (h c).2⟩)
    (Cert.ReferenceIdeal.Value.run (F := Ideal) m ρ)

end Cert.ReferenceIdeal.RefValue

end
-- ==== Proof.lean ====
/-
  The kernel: two mean-aggregation graph layers, a linear decode to three coordinates, and the matrix of pairwise
  Euclidean distances of the decoded points, computed by three tiled kernels; the reference computes the same with
  whole-array operations. At the extended reals both are ONE function of the ten argument arrays:

    deg r        = max (Σ_j adj[r, j]) 1
    layer1[r, q] = max ( Σ_k ((Σ_j adj[r, j] · x[j, k]) / deg r) · Wl1[k, q] + Σ_k x[r, k] · Wr1[k, q] + b1[q] ) 0
    layer2[r, q] =       Σ_k ((Σ_j adj[r, j] · layer1[j, k]) / deg r) · Wl2[k, q] + Σ_k layer1[r, k] · Wr2[k, q] + b2[q]
    y[r, q]      = Σ_k layer2[r, k] · Wd[k, q] + bd[q]
    d2[r, s]     = max (|y_r|² + |y_s|² − 2 · ⟨y_r, y_s⟩) 0,   out[r, s] = √d2 where d2 > 0, else 0.

  The kernels tile the sums over j in four column blocks and keep running totals between grid points; a sum of
  extended reals does not depend on how it is grouped, so the tiled totals are the whole sums, and no finiteness of
  the inputs is needed. The reshaped biases are the biases. The word-level program and its idealization are the
  same text (the ideal pass rewrote nothing), so the two frames are one proof read at two float instances.
-/
import proofs.«108018_j7043746365844_1_alg».proof.Defs
import proofs.«108018_j7043746365844_1_alg».proof.Proof.Gen.Kernel
import proofs.«108018_j7043746365844_1_alg».proof.Proof.Gen.KernelIdeal
import proofs.«108018_j7043746365844_1_alg».proof.Proof.Gen.ReferenceIdeal
import proofs.«108018_j7043746365844_1_alg».proof.Proof.Gen.ReferenceIdeal.Run
import proofs.«108018_j7043746365844_1_alg».proof.Proof.Gen.ReferenceIdeal.Read
import proofs.«108018_j7043746365844_1_alg».proof.Proof.Gen.Pre_finite_inputs
import proofs.«108018_j7043746365844_1_alg».proof.Proof.KB.Main
import proofs.«108018_j7043746365844_1_alg».proof.Proof.KI.Value
import proofs.«108018_j7043746365844_1_alg».proof.Proof.RefSpec
import Idealize.ShloMosaic.Adequacy
import Idealize.ShloMosaic.Init

noncomputable section

namespace Cert.Proof

open Idealize.ShloMosaic Idealize.ShloMosaic.TcCoe Idealize.SL.Sem

/-- Every weakly fair execution of the word-level program terminates, faults nowhere, and leaves the arguments as
    launched. -/
theorem frame_k : Cert.frame_Kernel := fun m ρ _ => Cert.Kernel.Hand.frame m ρ
/-- The same of the idealized program. -/
theorem frame_ki : Cert.frame_KernelIdeal := fun m ρ _ => Cert.KernelIdeal.Hand.frame m ρ
/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the one specification of the argument arrays, which agree. -/
theorem algebraic : Cert.algebraic_KernelIdeal_ReferenceIdeal := by
  intro m ρ m' ρ' _ hagree
  refine ⟨_, Cert.KernelIdeal.Hand.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
